-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S64x1024x2 : Shape := ⟨3, ![64, 1024, 2]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S64x1024x2 : S_.BroadcastsInDim S64x1024x2 (![] : Fin 0 → Fin S64x1024x2.rank)
  reducesTo_S64x1024x2_S_d0_1_2 : S64x1024x2.ReducesTo [0, 1, 2] S_

variable [Facts]

def fn {F : FTy → Type} [FloatOps F] (main_arg0 : FVec F S64 .f32) (main_arg1 : FVec F S64x1024x2 .f32) (main_arg2 : IVec S64 32) : IVec S_ 1 :=
  let main_v0 : FVec F S64 .f32 := Host.absf main_arg0
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S64x1024x2 .f32 := Host.absf main_arg1
  let main_cst_0 : FVec F S_ .f32 := constant S_ .f32 0x7F800000#32
  let main_v5 : FVec F S64x1024x2 .f32 := broadcastInDim S64x1024x2 ![] bcast_S_S64x1024x2 main_cst_0
  let main_v6 : IVec S64x1024x2 1 := cmpf .olt main_v4 main_v5
  let main_c_1 : IVec S_ 1 := constantI S_ 1 1#1
  let main_v7 : IVec S_ 1 := (fun x v => Host.reduce IntOp.andi x v reducesTo_S64x1024x2_S_d0_1_2 h_S_) main_v6 main_c_1
  let main_v8 : IVec S_ 1 := andi main_v3 main_v7
  main_v8
-- ==== Kernel.lean ====
abbrev S64 : Shape := ⟨1, ![64]⟩
abbrev S64x1024x2 : Shape := ⟨3, ![64, 1024, 2]⟩
abbrev S64x2x1024 : Shape := ⟨3, ![64, 2, 1024]⟩
abbrev S64x1 : Shape := ⟨2, ![64, 1]⟩
abbrev S8x2x1024 : Shape := ⟨3, ![8, 2, 1024]⟩
abbrev S8x1 : Shape := ⟨2, ![8, 1]⟩
abbrev S8 : Shape := ⟨1, ![8]⟩
abbrev S8x2x1023 : Shape := ⟨3, ![8, 2, 1023]⟩
abbrev S8x1023 : Shape := ⟨2, ![8, 1023]⟩
abbrev S8x2x1022 : Shape := ⟨3, ![8, 2, 1022]⟩
abbrev S8x1022 : Shape := ⟨2, ![8, 1022]⟩
abbrev S8x2x1021 : Shape := ⟨3, ![8, 2, 1021]⟩
abbrev S8x1021 : Shape := ⟨2, ![8, 1021]⟩
abbrev S8x2x1020 : Shape := ⟨3, ![8, 2, 1020]⟩
abbrev S8x1020 : Shape := ⟨2, ![8, 1020]⟩
abbrev S8x2x1019 : Shape := ⟨3, ![8, 2, 1019]⟩
abbrev S8x1019 : Shape := ⟨2, ![8, 1019]⟩
abbrev S8x2x1018 : Shape := ⟨3, ![8, 2, 1018]⟩
abbrev S8x1018 : Shape := ⟨2, ![8, 1018]⟩
abbrev S8x2x1017 : Shape := ⟨3, ![8, 2, 1017]⟩
abbrev S8x1017 : Shape := ⟨2, ![8, 1017]⟩
abbrev S8x2x1016 : Shape := ⟨3, ![8, 2, 1016]⟩
abbrev S8x1016 : Shape := ⟨2, ![8, 1016]⟩
abbrev S8x2x1015 : Shape := ⟨3, ![8, 2, 1015]⟩
abbrev S8x1015 : Shape := ⟨2, ![8, 1015]⟩
abbrev S8x2x1014 : Shape := ⟨3, ![8, 2, 1014]⟩
abbrev S8x1014 : Shape := ⟨2, ![8, 1014]⟩
abbrev S8x2x1013 : Shape := ⟨3, ![8, 2, 1013]⟩
abbrev S8x1013 : Shape := ⟨2, ![8, 1013]⟩
abbrev S8x2x1012 : Shape := ⟨3, ![8, 2, 1012]⟩
abbrev S8x1012 : Shape := ⟨2, ![8, 1012]⟩
abbrev S8x2x1011 : Shape := ⟨3, ![8, 2, 1011]⟩
abbrev S8x1011 : Shape := ⟨2, ![8, 1011]⟩
abbrev S8x2x1010 : Shape := ⟨3, ![8, 2, 1010]⟩
abbrev S8x1010 : Shape := ⟨2, ![8, 1010]⟩
abbrev S8x2x1009 : Shape := ⟨3, ![8, 2, 1009]⟩
abbrev S8x1009 : Shape := ⟨2, ![8, 1009]⟩
abbrev S8x2x1008 : Shape := ⟨3, ![8, 2, 1008]⟩
abbrev S8x1008 : Shape := ⟨2, ![8, 1008]⟩
abbrev S8x2x1007 : Shape := ⟨3, ![8, 2, 1007]⟩
abbrev S8x1007 : Shape := ⟨2, ![8, 1007]⟩
abbrev S8x2x1006 : Shape := ⟨3, ![8, 2, 1006]⟩
abbrev S8x1006 : Shape := ⟨2, ![8, 1006]⟩
abbrev S8x2x1005 : Shape := ⟨3, ![8, 2, 1005]⟩
abbrev S8x1005 : Shape := ⟨2, ![8, 1005]⟩
abbrev S8x2x1004 : Shape := ⟨3, ![8, 2, 1004]⟩
abbrev S8x1004 : Shape := ⟨2, ![8, 1004]⟩
abbrev S8x2x1003 : Shape := ⟨3, ![8, 2, 1003]⟩
abbrev S8x1003 : Shape := ⟨2, ![8, 1003]⟩
abbrev S8x2x1002 : Shape := ⟨3, ![8, 2, 1002]⟩
abbrev S8x1002 : Shape := ⟨2, ![8, 1002]⟩
abbrev S8x2x1001 : Shape := ⟨3, ![8, 2, 1001]⟩
abbrev S8x1001 : Shape := ⟨2, ![8, 1001]⟩
abbrev S8x2x1000 : Shape := ⟨3, ![8, 2, 1000]⟩
abbrev S8x1000 : Shape := ⟨2, ![8, 1000]⟩
abbrev S8x2x999 : Shape := ⟨3, ![8, 2, 999]⟩
abbrev S8x999 : Shape := ⟨2, ![8, 999]⟩
abbrev S8x2x998 : Shape := ⟨3, ![8, 2, 998]⟩
abbrev S8x998 : Shape := ⟨2, ![8, 998]⟩
abbrev S8x2x997 : Shape := ⟨3, ![8, 2, 997]⟩
abbrev S8x997 : Shape := ⟨2, ![8, 997]⟩
abbrev S8x2x996 : Shape := ⟨3, ![8, 2, 996]⟩
abbrev S8x996 : Shape := ⟨2, ![8, 996]⟩
abbrev S8x2x995 : Shape := ⟨3, ![8, 2, 995]⟩
abbrev S8x995 : Shape := ⟨2, ![8, 995]⟩
abbrev S8x2x994 : Shape := ⟨3, ![8, 2, 994]⟩
abbrev S8x994 : Shape := ⟨2, ![8, 994]⟩
abbrev S8x2x993 : Shape := ⟨3, ![8, 2, 993]⟩
abbrev S8x993 : Shape := ⟨2, ![8, 993]⟩
abbrev S8x2x992 : Shape := ⟨3, ![8, 2, 992]⟩
abbrev S8x992 : Shape := ⟨2, ![8, 992]⟩
abbrev S8x2x991 : Shape := ⟨3, ![8, 2, 991]⟩
abbrev S8x991 : Shape := ⟨2, ![8, 991]⟩
abbrev S8x2x990 : Shape := ⟨3, ![8, 2, 990]⟩
abbrev S8x990 : Shape := ⟨2, ![8, 990]⟩
abbrev S8x2x989 : Shape := ⟨3, ![8, 2, 989]⟩
abbrev S8x989 : Shape := ⟨2, ![8, 989]⟩
abbrev S8x2x988 : Shape := ⟨3, ![8, 2, 988]⟩
abbrev S8x988 : Shape := ⟨2, ![8, 988]⟩
abbrev S8x2x987 : Shape := ⟨3, ![8, 2, 987]⟩
abbrev S8x987 : Shape := ⟨2, ![8, 987]⟩
abbrev S8x2x986 : Shape := ⟨3, ![8, 2, 986]⟩
abbrev S8x986 : Shape := ⟨2, ![8, 986]⟩
abbrev S8x2x985 : Shape := ⟨3, ![8, 2, 985]⟩
abbrev S8x985 : Shape := ⟨2, ![8, 985]⟩
abbrev S8x2x984 : Shape := ⟨3, ![8, 2, 984]⟩
abbrev S8x984 : Shape := ⟨2, ![8, 984]⟩
abbrev S8x2x983 : Shape := ⟨3, ![8, 2, 983]⟩
abbrev S8x983 : Shape := ⟨2, ![8, 983]⟩
abbrev S8x2x982 : Shape := ⟨3, ![8, 2, 982]⟩
abbrev S8x982 : Shape := ⟨2, ![8, 982]⟩
abbrev S8x2x981 : Shape := ⟨3, ![8, 2, 981]⟩
abbrev S8x981 : Shape := ⟨2, ![8, 981]⟩
abbrev S8x2x980 : Shape := ⟨3, ![8, 2, 980]⟩
abbrev S8x980 : Shape := ⟨2, ![8, 980]⟩
abbrev S8x2x979 : Shape := ⟨3, ![8, 2, 979]⟩
abbrev S8x979 : Shape := ⟨2, ![8, 979]⟩
abbrev S8x2x978 : Shape := ⟨3, ![8, 2, 978]⟩
abbrev S8x978 : Shape := ⟨2, ![8, 978]⟩
abbrev S8x2x977 : Shape := ⟨3, ![8, 2, 977]⟩
abbrev S8x977 : Shape := ⟨2, ![8, 977]⟩
abbrev S8x2x976 : Shape := ⟨3, ![8, 2, 976]⟩
abbrev S8x976 : Shape := ⟨2, ![8, 976]⟩
abbrev S8x2x975 : Shape := ⟨3, ![8, 2, 975]⟩
abbrev S8x975 : Shape := ⟨2, ![8, 975]⟩
abbrev S8x2x974 : Shape := ⟨3, ![8, 2, 974]⟩
abbrev S8x974 : Shape := ⟨2, ![8, 974]⟩
abbrev S8x2x973 : Shape := ⟨3, ![8, 2, 973]⟩
abbrev S8x973 : Shape := ⟨2, ![8, 973]⟩
abbrev S8x2x972 : Shape := ⟨3, ![8, 2, 972]⟩
abbrev S8x972 : Shape := ⟨2, ![8, 972]⟩
abbrev S8x2x971 : Shape := ⟨3, ![8, 2, 971]⟩
abbrev S8x971 : Shape := ⟨2, ![8, 971]⟩
abbrev S8x2x970 : Shape := ⟨3, ![8, 2, 970]⟩
abbrev S8x970 : Shape := ⟨2, ![8, 970]⟩
abbrev S8x2x969 : Shape := ⟨3, ![8, 2, 969]⟩
abbrev S8x969 : Shape := ⟨2, ![8, 969]⟩
abbrev S8x2x968 : Shape := ⟨3, ![8, 2, 968]⟩
abbrev S8x968 : Shape := ⟨2, ![8, 968]⟩
abbrev S8x2x967 : Shape := ⟨3, ![8, 2, 967]⟩
abbrev S8x967 : Shape := ⟨2, ![8, 967]⟩
abbrev S8x2x966 : Shape := ⟨3, ![8, 2, 966]⟩
abbrev S8x966 : Shape := ⟨2, ![8, 966]⟩
abbrev S8x2x965 : Shape := ⟨3, ![8, 2, 965]⟩
abbrev S8x965 : Shape := ⟨2, ![8, 965]⟩
abbrev S8x2x964 : Shape := ⟨3, ![8, 2, 964]⟩
abbrev S8x964 : Shape := ⟨2, ![8, 964]⟩
abbrev S8x2x963 : Shape := ⟨3, ![8, 2, 963]⟩
abbrev S8x963 : Shape := ⟨2, ![8, 963]⟩
abbrev S8x2x962 : Shape := ⟨3, ![8, 2, 962]⟩
abbrev S8x962 : Shape := ⟨2, ![8, 962]⟩
abbrev S8x2x961 : Shape := ⟨3, ![8, 2, 961]⟩
abbrev S8x961 : Shape := ⟨2, ![8, 961]⟩
abbrev S8x2x960 : Shape := ⟨3, ![8, 2, 960]⟩
abbrev S8x960 : Shape := ⟨2, ![8, 960]⟩
abbrev S8x2x959 : Shape := ⟨3, ![8, 2, 959]⟩
abbrev S8x959 : Shape := ⟨2, ![8, 959]⟩
abbrev S8x2x958 : Shape := ⟨3, ![8, 2, 958]⟩
abbrev S8x958 : Shape := ⟨2, ![8, 958]⟩
abbrev S8x2x957 : Shape := ⟨3, ![8, 2, 957]⟩
abbrev S8x957 : Shape := ⟨2, ![8, 957]⟩
abbrev S8x2x956 : Shape := ⟨3, ![8, 2, 956]⟩
abbrev S8x956 : Shape := ⟨2, ![8, 956]⟩
abbrev S8x2x955 : Shape := ⟨3, ![8, 2, 955]⟩
abbrev S8x955 : Shape := ⟨2, ![8, 955]⟩
abbrev S8x2x954 : Shape := ⟨3, ![8, 2, 954]⟩
abbrev S8x954 : Shape := ⟨2, ![8, 954]⟩
abbrev S8x2x953 : Shape := ⟨3, ![8, 2, 953]⟩
abbrev S8x953 : Shape := ⟨2, ![8, 953]⟩
abbrev S8x2x952 : Shape := ⟨3, ![8, 2, 952]⟩
abbrev S8x952 : Shape := ⟨2, ![8, 952]⟩
abbrev S8x2x951 : Shape := ⟨3, ![8, 2, 951]⟩
abbrev S8x951 : Shape := ⟨2, ![8, 951]⟩
abbrev S8x2x950 : Shape := ⟨3, ![8, 2, 950]⟩
abbrev S8x950 : Shape := ⟨2, ![8, 950]⟩
abbrev S8x2x949 : Shape := ⟨3, ![8, 2, 949]⟩
abbrev S8x949 : Shape := ⟨2, ![8, 949]⟩
abbrev S8x2x948 : Shape := ⟨3, ![8, 2, 948]⟩
abbrev S8x948 : Shape := ⟨2, ![8, 948]⟩
abbrev S8x2x947 : Shape := ⟨3, ![8, 2, 947]⟩
abbrev S8x947 : Shape := ⟨2, ![8, 947]⟩
abbrev S8x2x946 : Shape := ⟨3, ![8, 2, 946]⟩
abbrev S8x946 : Shape := ⟨2, ![8, 946]⟩
abbrev S8x2x945 : Shape := ⟨3, ![8, 2, 945]⟩
abbrev S8x945 : Shape := ⟨2, ![8, 945]⟩
abbrev S8x2x944 : Shape := ⟨3, ![8, 2, 944]⟩
abbrev S8x944 : Shape := ⟨2, ![8, 944]⟩
abbrev S8x2x943 : Shape := ⟨3, ![8, 2, 943]⟩
abbrev S8x943 : Shape := ⟨2, ![8, 943]⟩
abbrev S8x2x942 : Shape := ⟨3, ![8, 2, 942]⟩
abbrev S8x942 : Shape := ⟨2, ![8, 942]⟩
abbrev S8x2x941 : Shape := ⟨3, ![8, 2, 941]⟩
abbrev S8x941 : Shape := ⟨2, ![8, 941]⟩
abbrev S8x2x940 : Shape := ⟨3, ![8, 2, 940]⟩
abbrev S8x940 : Shape := ⟨2, ![8, 940]⟩
abbrev S8x2x939 : Shape := ⟨3, ![8, 2, 939]⟩
abbrev S8x939 : Shape := ⟨2, ![8, 939]⟩
abbrev S8x2x938 : Shape := ⟨3, ![8, 2, 938]⟩
abbrev S8x938 : Shape := ⟨2, ![8, 938]⟩
abbrev S8x2x937 : Shape := ⟨3, ![8, 2, 937]⟩
abbrev S8x937 : Shape := ⟨2, ![8, 937]⟩
abbrev S8x2x936 : Shape := ⟨3, ![8, 2, 936]⟩
abbrev S8x936 : Shape := ⟨2, ![8, 936]⟩
abbrev S8x2x935 : Shape := ⟨3, ![8, 2, 935]⟩
abbrev S8x935 : Shape := ⟨2, ![8, 935]⟩
abbrev S8x2x934 : Shape := ⟨3, ![8, 2, 934]⟩
abbrev S8x934 : Shape := ⟨2, ![8, 934]⟩
abbrev S8x2x933 : Shape := ⟨3, ![8, 2, 933]⟩
abbrev S8x933 : Shape := ⟨2, ![8, 933]⟩
abbrev S8x2x932 : Shape := ⟨3, ![8, 2, 932]⟩
abbrev S8x932 : Shape := ⟨2, ![8, 932]⟩
abbrev S8x2x931 : Shape := ⟨3, ![8, 2, 931]⟩
abbrev S8x931 : Shape := ⟨2, ![8, 931]⟩
abbrev S8x2x930 : Shape := ⟨3, ![8, 2, 930]⟩
abbrev S8x930 : Shape := ⟨2, ![8, 930]⟩
abbrev S8x2x929 : Shape := ⟨3, ![8, 2, 929]⟩
abbrev S8x929 : Shape := ⟨2, ![8, 929]⟩
abbrev S8x2x928 : Shape := ⟨3, ![8, 2, 928]⟩
abbrev S8x928 : Shape := ⟨2, ![8, 928]⟩
abbrev S8x2x927 : Shape := ⟨3, ![8, 2, 927]⟩
abbrev S8x927 : Shape := ⟨2, ![8, 927]⟩
abbrev S8x2x926 : Shape := ⟨3, ![8, 2, 926]⟩
abbrev S8x926 : Shape := ⟨2, ![8, 926]⟩
abbrev S8x2x925 : Shape := ⟨3, ![8, 2, 925]⟩
abbrev S8x925 : Shape := ⟨2, ![8, 925]⟩
abbrev S8x2x924 : Shape := ⟨3, ![8, 2, 924]⟩
abbrev S8x924 : Shape := ⟨2, ![8, 924]⟩
abbrev S8x2x923 : Shape := ⟨3, ![8, 2, 923]⟩
abbrev S8x923 : Shape := ⟨2, ![8, 923]⟩
abbrev S8x2x922 : Shape := ⟨3, ![8, 2, 922]⟩
abbrev S8x922 : Shape := ⟨2, ![8, 922]⟩
abbrev S8x2x921 : Shape := ⟨3, ![8, 2, 921]⟩
abbrev S8x921 : Shape := ⟨2, ![8, 921]⟩
abbrev S8x2x920 : Shape := ⟨3, ![8, 2, 920]⟩
abbrev S8x920 : Shape := ⟨2, ![8, 920]⟩
abbrev S8x2x919 : Shape := ⟨3, ![8, 2, 919]⟩
abbrev S8x919 : Shape := ⟨2, ![8, 919]⟩
abbrev S8x2x918 : Shape := ⟨3, ![8, 2, 918]⟩
abbrev S8x918 : Shape := ⟨2, ![8, 918]⟩
abbrev S8x2x917 : Shape := ⟨3, ![8, 2, 917]⟩
abbrev S8x917 : Shape := ⟨2, ![8, 917]⟩
abbrev S8x2x916 : Shape := ⟨3, ![8, 2, 916]⟩
abbrev S8x916 : Shape := ⟨2, ![8, 916]⟩
abbrev S8x2x915 : Shape := ⟨3, ![8, 2, 915]⟩
abbrev S8x915 : Shape := ⟨2, ![8, 915]⟩
abbrev S8x2x914 : Shape := ⟨3, ![8, 2, 914]⟩
abbrev S8x914 : Shape := ⟨2, ![8, 914]⟩
abbrev S8x2x913 : Shape := ⟨3, ![8, 2, 913]⟩
abbrev S8x913 : Shape := ⟨2, ![8, 913]⟩
abbrev S8x2x912 : Shape := ⟨3, ![8, 2, 912]⟩
abbrev S8x912 : Shape := ⟨2, ![8, 912]⟩
abbrev S8x2x911 : Shape := ⟨3, ![8, 2, 911]⟩
abbrev S8x911 : Shape := ⟨2, ![8, 911]⟩
abbrev S8x2x910 : Shape := ⟨3, ![8, 2, 910]⟩
abbrev S8x910 : Shape := ⟨2, ![8, 910]⟩
abbrev S8x2x909 : Shape := ⟨3, ![8, 2, 909]⟩
abbrev S8x909 : Shape := ⟨2, ![8, 909]⟩
abbrev S8x2x908 : Shape := ⟨3, ![8, 2, 908]⟩
abbrev S8x908 : Shape := ⟨2, ![8, 908]⟩
abbrev S8x2x907 : Shape := ⟨3, ![8, 2, 907]⟩
abbrev S8x907 : Shape := ⟨2, ![8, 907]⟩
abbrev S8x2x906 : Shape := ⟨3, ![8, 2, 906]⟩
abbrev S8x906 : Shape := ⟨2, ![8, 906]⟩
abbrev S8x2x905 : Shape := ⟨3, ![8, 2, 905]⟩
abbrev S8x905 : Shape := ⟨2, ![8, 905]⟩
abbrev S8x2x904 : Shape := ⟨3, ![8, 2, 904]⟩
abbrev S8x904 : Shape := ⟨2, ![8, 904]⟩
abbrev S8x2x903 : Shape := ⟨3, ![8, 2, 903]⟩
abbrev S8x903 : Shape := ⟨2, ![8, 903]⟩
abbrev S8x2x902 : Shape := ⟨3, ![8, 2, 902]⟩
abbrev S8x902 : Shape := ⟨2, ![8, 902]⟩
abbrev S8x2x901 : Shape := ⟨3, ![8, 2, 901]⟩
abbrev S8x901 : Shape := ⟨2, ![8, 901]⟩
abbrev S8x2x900 : Shape := ⟨3, ![8, 2, 900]⟩
abbrev S8x900 : Shape := ⟨2, ![8, 900]⟩
abbrev S8x2x899 : Shape := ⟨3, ![8, 2, 899]⟩
abbrev S8x899 : Shape := ⟨2, ![8, 899]⟩
abbrev S8x2x898 : Shape := ⟨3, ![8, 2, 898]⟩
abbrev S8x898 : Shape := ⟨2, ![8, 898]⟩
abbrev S8x2x897 : Shape := ⟨3, ![8, 2, 897]⟩
abbrev S8x897 : Shape := ⟨2, ![8, 897]⟩
abbrev S8x2x896 : Shape := ⟨3, ![8, 2, 896]⟩
abbrev S8x896 : Shape := ⟨2, ![8, 896]⟩
abbrev S8x2x895 : Shape := ⟨3, ![8, 2, 895]⟩
abbrev S8x895 : Shape := ⟨2, ![8, 895]⟩
abbrev S8x2x894 : Shape := ⟨3, ![8, 2, 894]⟩
abbrev S8x894 : Shape := ⟨2, ![8, 894]⟩
abbrev S8x2x893 : Shape := ⟨3, ![8, 2, 893]⟩
abbrev S8x893 : Shape := ⟨2, ![8, 893]⟩
abbrev S8x2x892 : Shape := ⟨3, ![8, 2, 892]⟩
abbrev S8x892 : Shape := ⟨2, ![8, 892]⟩
abbrev S8x2x891 : Shape := ⟨3, ![8, 2, 891]⟩
abbrev S8x891 : Shape := ⟨2, ![8, 891]⟩
abbrev S8x2x890 : Shape := ⟨3, ![8, 2, 890]⟩
abbrev S8x890 : Shape := ⟨2, ![8, 890]⟩
abbrev S8x2x889 : Shape := ⟨3, ![8, 2, 889]⟩
abbrev S8x889 : Shape := ⟨2, ![8, 889]⟩
abbrev S8x2x888 : Shape := ⟨3, ![8, 2, 888]⟩
abbrev S8x888 : Shape := ⟨2, ![8, 888]⟩
abbrev S8x2x887 : Shape := ⟨3, ![8, 2, 887]⟩
abbrev S8x887 : Shape := ⟨2, ![8, 887]⟩
abbrev S8x2x886 : Shape := ⟨3, ![8, 2, 886]⟩
abbrev S8x886 : Shape := ⟨2, ![8, 886]⟩
abbrev S8x2x885 : Shape := ⟨3, ![8, 2, 885]⟩
abbrev S8x885 : Shape := ⟨2, ![8, 885]⟩
abbrev S8x2x884 : Shape := ⟨3, ![8, 2, 884]⟩
abbrev S8x884 : Shape := ⟨2, ![8, 884]⟩
abbrev S8x2x883 : Shape := ⟨3, ![8, 2, 883]⟩
abbrev S8x883 : Shape := ⟨2, ![8, 883]⟩
abbrev S8x2x882 : Shape := ⟨3, ![8, 2, 882]⟩
abbrev S8x882 : Shape := ⟨2, ![8, 882]⟩
abbrev S8x2x881 : Shape := ⟨3, ![8, 2, 881]⟩
abbrev S8x881 : Shape := ⟨2, ![8, 881]⟩
abbrev S8x2x880 : Shape := ⟨3, ![8, 2, 880]⟩
abbrev S8x880 : Shape := ⟨2, ![8, 880]⟩
abbrev S8x2x879 : Shape := ⟨3, ![8, 2, 879]⟩
abbrev S8x879 : Shape := ⟨2, ![8, 879]⟩
abbrev S8x2x878 : Shape := ⟨3, ![8, 2, 878]⟩
abbrev S8x878 : Shape := ⟨2, ![8, 878]⟩
abbrev S8x2x877 : Shape := ⟨3, ![8, 2, 877]⟩
abbrev S8x877 : Shape := ⟨2, ![8, 877]⟩
abbrev S8x2x876 : Shape := ⟨3, ![8, 2, 876]⟩
abbrev S8x876 : Shape := ⟨2, ![8, 876]⟩
abbrev S8x2x875 : Shape := ⟨3, ![8, 2, 875]⟩
abbrev S8x875 : Shape := ⟨2, ![8, 875]⟩
abbrev S8x2x874 : Shape := ⟨3, ![8, 2, 874]⟩
abbrev S8x874 : Shape := ⟨2, ![8, 874]⟩
abbrev S8x2x873 : Shape := ⟨3, ![8, 2, 873]⟩
abbrev S8x873 : Shape := ⟨2, ![8, 873]⟩
abbrev S8x2x872 : Shape := ⟨3, ![8, 2, 872]⟩
abbrev S8x872 : Shape := ⟨2, ![8, 872]⟩
abbrev S8x2x871 : Shape := ⟨3, ![8, 2, 871]⟩
abbrev S8x871 : Shape := ⟨2, ![8, 871]⟩
abbrev S8x2x870 : Shape := ⟨3, ![8, 2, 870]⟩
abbrev S8x870 : Shape := ⟨2, ![8, 870]⟩
abbrev S8x2x869 : Shape := ⟨3, ![8, 2, 869]⟩
abbrev S8x869 : Shape := ⟨2, ![8, 869]⟩
abbrev S8x2x868 : Shape := ⟨3, ![8, 2, 868]⟩
abbrev S8x868 : Shape := ⟨2, ![8, 868]⟩
abbrev S8x2x867 : Shape := ⟨3, ![8, 2, 867]⟩
abbrev S8x867 : Shape := ⟨2, ![8, 867]⟩
abbrev S8x2x866 : Shape := ⟨3, ![8, 2, 866]⟩
abbrev S8x866 : Shape := ⟨2, ![8, 866]⟩
abbrev S8x2x865 : Shape := ⟨3, ![8, 2, 865]⟩
abbrev S8x865 : Shape := ⟨2, ![8, 865]⟩
abbrev S8x2x864 : Shape := ⟨3, ![8, 2, 864]⟩
abbrev S8x864 : Shape := ⟨2, ![8, 864]⟩
abbrev S8x2x863 : Shape := ⟨3, ![8, 2, 863]⟩
abbrev S8x863 : Shape := ⟨2, ![8, 863]⟩
abbrev S8x2x862 : Shape := ⟨3, ![8, 2, 862]⟩
abbrev S8x862 : Shape := ⟨2, ![8, 862]⟩
abbrev S8x2x861 : Shape := ⟨3, ![8, 2, 861]⟩
abbrev S8x861 : Shape := ⟨2, ![8, 861]⟩
abbrev S8x2x860 : Shape := ⟨3, ![8, 2, 860]⟩
abbrev S8x860 : Shape := ⟨2, ![8, 860]⟩
abbrev S8x2x859 : Shape := ⟨3, ![8, 2, 859]⟩
abbrev S8x859 : Shape := ⟨2, ![8, 859]⟩
abbrev S8x2x858 : Shape := ⟨3, ![8, 2, 858]⟩
abbrev S8x858 : Shape := ⟨2, ![8, 858]⟩
abbrev S8x2x857 : Shape := ⟨3, ![8, 2, 857]⟩
abbrev S8x857 : Shape := ⟨2, ![8, 857]⟩
abbrev S8x2x856 : Shape := ⟨3, ![8, 2, 856]⟩
abbrev S8x856 : Shape := ⟨2, ![8, 856]⟩
abbrev S8x2x855 : Shape := ⟨3, ![8, 2, 855]⟩
abbrev S8x855 : Shape := ⟨2, ![8, 855]⟩
abbrev S8x2x854 : Shape := ⟨3, ![8, 2, 854]⟩
abbrev S8x854 : Shape := ⟨2, ![8, 854]⟩
abbrev S8x2x853 : Shape := ⟨3, ![8, 2, 853]⟩
abbrev S8x853 : Shape := ⟨2, ![8, 853]⟩
abbrev S8x2x852 : Shape := ⟨3, ![8, 2, 852]⟩
abbrev S8x852 : Shape := ⟨2, ![8, 852]⟩
abbrev S8x2x851 : Shape := ⟨3, ![8, 2, 851]⟩
abbrev S8x851 : Shape := ⟨2, ![8, 851]⟩
abbrev S8x2x850 : Shape := ⟨3, ![8, 2, 850]⟩
abbrev S8x850 : Shape := ⟨2, ![8, 850]⟩
abbrev S8x2x849 : Shape := ⟨3, ![8, 2, 849]⟩
abbrev S8x849 : Shape := ⟨2, ![8, 849]⟩
abbrev S8x2x848 : Shape := ⟨3, ![8, 2, 848]⟩
abbrev S8x848 : Shape := ⟨2, ![8, 848]⟩
abbrev S8x2x847 : Shape := ⟨3, ![8, 2, 847]⟩
abbrev S8x847 : Shape := ⟨2, ![8, 847]⟩
abbrev S8x2x846 : Shape := ⟨3, ![8, 2, 846]⟩
abbrev S8x846 : Shape := ⟨2, ![8, 846]⟩
abbrev S8x2x845 : Shape := ⟨3, ![8, 2, 845]⟩
abbrev S8x845 : Shape := ⟨2, ![8, 845]⟩
abbrev S8x2x844 : Shape := ⟨3, ![8, 2, 844]⟩
abbrev S8x844 : Shape := ⟨2, ![8, 844]⟩
abbrev S8x2x843 : Shape := ⟨3, ![8, 2, 843]⟩
abbrev S8x843 : Shape := ⟨2, ![8, 843]⟩
abbrev S8x2x842 : Shape := ⟨3, ![8, 2, 842]⟩
abbrev S8x842 : Shape := ⟨2, ![8, 842]⟩
abbrev S8x2x841 : Shape := ⟨3, ![8, 2, 841]⟩
abbrev S8x841 : Shape := ⟨2, ![8, 841]⟩
abbrev S8x2x840 : Shape := ⟨3, ![8, 2, 840]⟩
abbrev S8x840 : Shape := ⟨2, ![8, 840]⟩
abbrev S8x2x839 : Shape := ⟨3, ![8, 2, 839]⟩
abbrev S8x839 : Shape := ⟨2, ![8, 839]⟩
abbrev S8x2x838 : Shape := ⟨3, ![8, 2, 838]⟩
abbrev S8x838 : Shape := ⟨2, ![8, 838]⟩
abbrev S8x2x837 : Shape := ⟨3, ![8, 2, 837]⟩
abbrev S8x837 : Shape := ⟨2, ![8, 837]⟩
abbrev S8x2x836 : Shape := ⟨3, ![8, 2, 836]⟩
abbrev S8x836 : Shape := ⟨2, ![8, 836]⟩
abbrev S8x2x835 : Shape := ⟨3, ![8, 2, 835]⟩
abbrev S8x835 : Shape := ⟨2, ![8, 835]⟩
abbrev S8x2x834 : Shape := ⟨3, ![8, 2, 834]⟩
abbrev S8x834 : Shape := ⟨2, ![8, 834]⟩
abbrev S8x2x833 : Shape := ⟨3, ![8, 2, 833]⟩
abbrev S8x833 : Shape := ⟨2, ![8, 833]⟩
abbrev S8x2x832 : Shape := ⟨3, ![8, 2, 832]⟩
abbrev S8x832 : Shape := ⟨2, ![8, 832]⟩
abbrev S8x2x831 : Shape := ⟨3, ![8, 2, 831]⟩
abbrev S8x831 : Shape := ⟨2, ![8, 831]⟩
abbrev S8x2x830 : Shape := ⟨3, ![8, 2, 830]⟩
abbrev S8x830 : Shape := ⟨2, ![8, 830]⟩
abbrev S8x2x829 : Shape := ⟨3, ![8, 2, 829]⟩
abbrev S8x829 : Shape := ⟨2, ![8, 829]⟩
abbrev S8x2x828 : Shape := ⟨3, ![8, 2, 828]⟩
abbrev S8x828 : Shape := ⟨2, ![8, 828]⟩
abbrev S8x2x827 : Shape := ⟨3, ![8, 2, 827]⟩
abbrev S8x827 : Shape := ⟨2, ![8, 827]⟩
abbrev S8x2x826 : Shape := ⟨3, ![8, 2, 826]⟩
abbrev S8x826 : Shape := ⟨2, ![8, 826]⟩
abbrev S8x2x825 : Shape := ⟨3, ![8, 2, 825]⟩
abbrev S8x825 : Shape := ⟨2, ![8, 825]⟩
abbrev S8x2x824 : Shape := ⟨3, ![8, 2, 824]⟩
abbrev S8x824 : Shape := ⟨2, ![8, 824]⟩
abbrev S8x2x823 : Shape := ⟨3, ![8, 2, 823]⟩
abbrev S8x823 : Shape := ⟨2, ![8, 823]⟩
abbrev S8x2x822 : Shape := ⟨3, ![8, 2, 822]⟩
abbrev S8x822 : Shape := ⟨2, ![8, 822]⟩
abbrev S8x2x821 : Shape := ⟨3, ![8, 2, 821]⟩
abbrev S8x821 : Shape := ⟨2, ![8, 821]⟩
abbrev S8x2x820 : Shape := ⟨3, ![8, 2, 820]⟩
abbrev S8x820 : Shape := ⟨2, ![8, 820]⟩
abbrev S8x2x819 : Shape := ⟨3, ![8, 2, 819]⟩
abbrev S8x819 : Shape := ⟨2, ![8, 819]⟩
abbrev S8x2x818 : Shape := ⟨3, ![8, 2, 818]⟩
abbrev S8x818 : Shape := ⟨2, ![8, 818]⟩
abbrev S8x2x817 : Shape := ⟨3, ![8, 2, 817]⟩
abbrev S8x817 : Shape := ⟨2, ![8, 817]⟩
abbrev S8x2x816 : Shape := ⟨3, ![8, 2, 816]⟩
abbrev S8x816 : Shape := ⟨2, ![8, 816]⟩
abbrev S8x2x815 : Shape := ⟨3, ![8, 2, 815]⟩
abbrev S8x815 : Shape := ⟨2, ![8, 815]⟩
abbrev S8x2x814 : Shape := ⟨3, ![8, 2, 814]⟩
abbrev S8x814 : Shape := ⟨2, ![8, 814]⟩
abbrev S8x2x813 : Shape := ⟨3, ![8, 2, 813]⟩
abbrev S8x813 : Shape := ⟨2, ![8, 813]⟩
abbrev S8x2x812 : Shape := ⟨3, ![8, 2, 812]⟩
abbrev S8x812 : Shape := ⟨2, ![8, 812]⟩
abbrev S8x2x811 : Shape := ⟨3, ![8, 2, 811]⟩
abbrev S8x811 : Shape := ⟨2, ![8, 811]⟩
abbrev S8x2x810 : Shape := ⟨3, ![8, 2, 810]⟩
abbrev S8x810 : Shape := ⟨2, ![8, 810]⟩
abbrev S8x2x809 : Shape := ⟨3, ![8, 2, 809]⟩
abbrev S8x809 : Shape := ⟨2, ![8, 809]⟩
abbrev S8x2x808 : Shape := ⟨3, ![8, 2, 808]⟩
abbrev S8x808 : Shape := ⟨2, ![8, 808]⟩
abbrev S8x2x807 : Shape := ⟨3, ![8, 2, 807]⟩
abbrev S8x807 : Shape := ⟨2, ![8, 807]⟩
abbrev S8x2x806 : Shape := ⟨3, ![8, 2, 806]⟩
abbrev S8x806 : Shape := ⟨2, ![8, 806]⟩
abbrev S8x2x805 : Shape := ⟨3, ![8, 2, 805]⟩
abbrev S8x805 : Shape := ⟨2, ![8, 805]⟩
abbrev S8x2x804 : Shape := ⟨3, ![8, 2, 804]⟩
abbrev S8x804 : Shape := ⟨2, ![8, 804]⟩
abbrev S8x2x803 : Shape := ⟨3, ![8, 2, 803]⟩
abbrev S8x803 : Shape := ⟨2, ![8, 803]⟩
abbrev S8x2x802 : Shape := ⟨3, ![8, 2, 802]⟩
abbrev S8x802 : Shape := ⟨2, ![8, 802]⟩
abbrev S8x2x801 : Shape := ⟨3, ![8, 2, 801]⟩
abbrev S8x801 : Shape := ⟨2, ![8, 801]⟩
abbrev S8x2x800 : Shape := ⟨3, ![8, 2, 800]⟩
abbrev S8x800 : Shape := ⟨2, ![8, 800]⟩
abbrev S8x2x799 : Shape := ⟨3, ![8, 2, 799]⟩
abbrev S8x799 : Shape := ⟨2, ![8, 799]⟩
abbrev S8x2x798 : Shape := ⟨3, ![8, 2, 798]⟩
abbrev S8x798 : Shape := ⟨2, ![8, 798]⟩
abbrev S8x2x797 : Shape := ⟨3, ![8, 2, 797]⟩
abbrev S8x797 : Shape := ⟨2, ![8, 797]⟩
abbrev S8x2x796 : Shape := ⟨3, ![8, 2, 796]⟩
abbrev S8x796 : Shape := ⟨2, ![8, 796]⟩
abbrev S8x2x795 : Shape := ⟨3, ![8, 2, 795]⟩
abbrev S8x795 : Shape := ⟨2, ![8, 795]⟩
abbrev S8x2x794 : Shape := ⟨3, ![8, 2, 794]⟩
abbrev S8x794 : Shape := ⟨2, ![8, 794]⟩
abbrev S8x2x793 : Shape := ⟨3, ![8, 2, 793]⟩
abbrev S8x793 : Shape := ⟨2, ![8, 793]⟩
abbrev S8x2x792 : Shape := ⟨3, ![8, 2, 792]⟩
abbrev S8x792 : Shape := ⟨2, ![8, 792]⟩
abbrev S8x2x791 : Shape := ⟨3, ![8, 2, 791]⟩
abbrev S8x791 : Shape := ⟨2, ![8, 791]⟩
abbrev S8x2x790 : Shape := ⟨3, ![8, 2, 790]⟩
abbrev S8x790 : Shape := ⟨2, ![8, 790]⟩
abbrev S8x2x789 : Shape := ⟨3, ![8, 2, 789]⟩
abbrev S8x789 : Shape := ⟨2, ![8, 789]⟩
abbrev S8x2x788 : Shape := ⟨3, ![8, 2, 788]⟩
abbrev S8x788 : Shape := ⟨2, ![8, 788]⟩
abbrev S8x2x787 : Shape := ⟨3, ![8, 2, 787]⟩
abbrev S8x787 : Shape := ⟨2, ![8, 787]⟩
abbrev S8x2x786 : Shape := ⟨3, ![8, 2, 786]⟩
abbrev S8x786 : Shape := ⟨2, ![8, 786]⟩
abbrev S8x2x785 : Shape := ⟨3, ![8, 2, 785]⟩
abbrev S8x785 : Shape := ⟨2, ![8, 785]⟩
abbrev S8x2x784 : Shape := ⟨3, ![8, 2, 784]⟩
abbrev S8x784 : Shape := ⟨2, ![8, 784]⟩
abbrev S8x2x783 : Shape := ⟨3, ![8, 2, 783]⟩
abbrev S8x783 : Shape := ⟨2, ![8, 783]⟩
abbrev S8x2x782 : Shape := ⟨3, ![8, 2, 782]⟩
abbrev S8x782 : Shape := ⟨2, ![8, 782]⟩
abbrev S8x2x781 : Shape := ⟨3, ![8, 2, 781]⟩
abbrev S8x781 : Shape := ⟨2, ![8, 781]⟩
abbrev S8x2x780 : Shape := ⟨3, ![8, 2, 780]⟩
abbrev S8x780 : Shape := ⟨2, ![8, 780]⟩
abbrev S8x2x779 : Shape := ⟨3, ![8, 2, 779]⟩
abbrev S8x779 : Shape := ⟨2, ![8, 779]⟩
abbrev S8x2x778 : Shape := ⟨3, ![8, 2, 778]⟩
abbrev S8x778 : Shape := ⟨2, ![8, 778]⟩
abbrev S8x2x777 : Shape := ⟨3, ![8, 2, 777]⟩
abbrev S8x777 : Shape := ⟨2, ![8, 777]⟩
abbrev S8x2x776 : Shape := ⟨3, ![8, 2, 776]⟩
abbrev S8x776 : Shape := ⟨2, ![8, 776]⟩
abbrev S8x2x775 : Shape := ⟨3, ![8, 2, 775]⟩
abbrev S8x775 : Shape := ⟨2, ![8, 775]⟩
abbrev S8x2x774 : Shape := ⟨3, ![8, 2, 774]⟩
abbrev S8x774 : Shape := ⟨2, ![8, 774]⟩
abbrev S8x2x773 : Shape := ⟨3, ![8, 2, 773]⟩
abbrev S8x773 : Shape := ⟨2, ![8, 773]⟩
abbrev S8x2x772 : Shape := ⟨3, ![8, 2, 772]⟩
abbrev S8x772 : Shape := ⟨2, ![8, 772]⟩
abbrev S8x2x771 : Shape := ⟨3, ![8, 2, 771]⟩
abbrev S8x771 : Shape := ⟨2, ![8, 771]⟩
abbrev S8x2x770 : Shape := ⟨3, ![8, 2, 770]⟩
abbrev S8x770 : Shape := ⟨2, ![8, 770]⟩
abbrev S8x2x769 : Shape := ⟨3, ![8, 2, 769]⟩
abbrev S8x769 : Shape := ⟨2, ![8, 769]⟩
abbrev S8x2x768 : Shape := ⟨3, ![8, 2, 768]⟩
abbrev S8x768 : Shape := ⟨2, ![8, 768]⟩
abbrev S1x8 : Shape := ⟨2, ![1, 8]⟩
abbrev S256x8 : Shape := ⟨2, ![256, 8]⟩
abbrev S256x1 : Shape := ⟨2, ![256, 1]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S64, .f32⟩
  | .hbm, ⟨1, _⟩ => ⟨S64x1024x2, .f32⟩
  | .hbm, ⟨2, _⟩ => ⟨S64, .i32⟩
  | .hbm, ⟨3, _⟩ => ⟨S64x2x1024, .f32⟩
  | .hbm, ⟨4, _⟩ => ⟨S64x1, .i32⟩
  | .hbm, ⟨5, _⟩ => ⟨S64x1, .f32⟩
  | .hbm, ⟨6, _⟩ => ⟨S64x1, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S8x2x1024, .f32⟩
  | .local _ .vmem, ⟨1, _⟩ => ⟨S8x2x1024, .f32⟩
  | .local _ .vmem, ⟨2, _⟩ => ⟨S8x1, .i32⟩
  | .local _ .vmem, ⟨3, _⟩ => ⟨S8x1, .i32⟩
  | .local _ .vmem, ⟨4, _⟩ => ⟨S8x1, .f32⟩
  | .local _ .vmem, ⟨5, _⟩ => ⟨S8x1, .f32⟩
  | .local _ .vmem, ⟨6, _⟩ => ⟨S8x1, .f32⟩
  | .local _ .vmem, ⟨7, _⟩ => ⟨S8x1, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2x1024.size a ≤ S64x2x1024.size a
  hwx0_0 : ∀ i : grid0.Coords, EltTy.bits .f32 = 32 ∨ (Rect.block (s := S64x2x1024) S8x2x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1.size a ≤ S64x1.size a
  hwx0_1 : ∀ i : grid0.Coords, EltTy.bits .i32 = 32 ∨ (Rect.block (s := S64x1) S8x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S64x1.size a
  hwx0_3 : ∀ i : grid0.Coords, EltTy.bits .f32 = 32 ∨ (Rect.block (s := S64x1) S8x1.size (cc0_transform_3 i) (hinb0_3 i)).WholeWords (EltTy.packing .f32)

class Shapes1.Facts₀ : Prop where
  transposes_S64x1024x2_S64x2x1024_0_2_1 : S64x1024x2.Transposes [0, 2, 1] S64x2x1024
  shapeCasts_S64_S64x1 : S64.ShapeCasts S64x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x1_S8 : S8x1.ShapeCasts S8
  inb_S8x2x1024_S8x2x1024_0_0_0 : ∀ a, (![0, 0, 0] : Fin 3 → Nat) a + S8x2x1024.size a ≤ S8x2x1024.size a
  h_S8x2x1024 : 0 < S8x2x1024.numel
  shapeCasts_S8x2x1024_S8x2x1024 : S8x2x1024.ShapeCasts S8x2x1024
  slices_S8x2x1024_o0_0_1_S8x2x1023 : S8x2x1024.Slices ![0, 0, 1] S8x2x1023
  slices_S8x2x1024_o0_0_0_S8x2x1023 : S8x2x1024.Slices ![0, 0, 0] S8x2x1023
  reduces_S8x2x1023_S8x1023 : S8x2x1023.Reduces [1] S8x1023
  iota_S8x1023_d1_w32 : S8x1023.Iotas .tc 32 [1]
  shapeCasts_S8_S8x1 : S8.ShapeCasts S8x1
  broadcasts_S8x1_S8x1023 : S8x1.Broadcasts S8x1023
  natLt_1_32 : 1 < 32
  reduces_S8x1023_S8 : S8x1023.Reduces [1] S8
  slices_S8x2x1024_o0_0_2_S8x2x1022 : S8x2x1024.Slices ![0, 0, 2] S8x2x1022
  slices_S8x2x1024_o0_0_0_S8x2x1022 : S8x2x1024.Slices ![0, 0, 0] S8x2x1022
  reduces_S8x2x1022_S8x1022 : S8x2x1022.Reduces [1] S8x1022
  iota_S8x1022_d1_w32 : S8x1022.Iotas .tc 32 [1]
  broadcasts_S8x1_S8x1022 : S8x1.Broadcasts S8x1022
  reduces_S8x1022_S8 : S8x1022.Reduces [1] S8
  slices_S8x2x1024_o0_0_3_S8x2x1021 : S8x2x1024.Slices ![0, 0, 3] S8x2x1021
  slices_S8x2x1024_o0_0_0_S8x2x1021 : S8x2x1024.Slices ![0, 0, 0] S8x2x1021
  reduces_S8x2x1021_S8x1021 : S8x2x1021.Reduces [1] S8x1021
  iota_S8x1021_d1_w32 : S8x1021.Iotas .tc 32 [1]
  broadcasts_S8x1_S8x1021 : S8x1.Broadcasts S8x1021
  reduces_S8x1021_S8 : S8x1021.Reduces [1] S8
  slices_S8x2x1024_o0_0_4_S8x2x1020 : S8x2x1024.Slices ![0, 0, 4] S8x2x1020
  slices_S8x2x1024_o0_0_0_S8x2x1020 : S8x2x1024.Slices ![0, 0, 0] S8x2x1020
  reduces_S8x2x1020_S8x1020 : S8x2x1020.Reduces [1] S8x1020
  iota_S8x1020_d1_w32 : S8x1020.Iotas .tc 32 [1]
  broadcasts_S8x1_S8x1020 : S8x1.Broadcasts S8x1020
  reduces_S8x1020_S8 : S8x1020.Reduces [1] S8
  slices_S8x2x1024_o0_0_5_S8x2x1019 : S8x2x1024.Slices ![0, 0, 5] S8x2x1019
  slices_S8x2x1024_o0_0_0_S8x2x1019 : S8x2x1024.Slices ![0, 0, 0] S8x2x1019
  reduces_S8x2x1019_S8x1019 : S8x2x1019.Reduces [1] S8x1019
  iota_S8x1019_d1_w32 : S8x1019.Iotas .tc 32 [1]
  broadcasts_S8x1_S8x1019 : S8x1.Broadcasts S8x1019
  reduces_S8x1019_S8 : S8x1019.Reduces [1] S8
  slices_S8x2x1024_o0_0_6_S8x2x1018 : S8x2x1024.Slices ![0, 0, 6] S8x2x1018
  slices_S8x2x1024_o0_0_0_S8x2x1018 : S8x2x1024.Slices ![0, 0, 0] S8x2x1018
  reduces_S8x2x1018_S8x1018 : S8x2x1018.Reduces [1] S8x1018
  iota_S8x1018_d1_w32 : S8x1018.Iotas .tc 32 [1]
  broadcasts_S8x1_S8x1018 : S8x1.Broadcasts S8x1018
  reduces_S8x1018_S8 : S8x1018.Reduces [1] S8
  slices_S8x2x1024_o0_0_7_S8x2x1017 : S8x2x1024.Slices ![0, 0, 7] S8x2x1017
  slices_S8x2x1024_o0_0_0_S8x2x1017 : S8x2x1024.Slices ![0, 0, 0] S8x2x1017
  reduces_S8x2x1017_S8x1017 : S8x2x1017.Reduces [1] S8x1017
  iota_S8x1017_d1_w32 : S8x1017.Iotas .tc 32 [1]
  broadcasts_S8x1_S8x1017 : S8x1.Broadcasts S8x1017
  reduces_S8x1017_S8 : S8x1017.Reduces [1] S8
  slices_S8x2x1024_o0_0_8_S8x2x1016 : S8x2x1024.Slices ![0, 0, 8] S8x2x1016
  slices_S8x2x1024_o0_0_0_S8x2x1016 : S8x2x1024.Slices ![0, 0, 0] S8x2x1016
  reduces_S8x2x1016_S8x1016 : S8x2x1016.Reduces [1] S8x1016
  iota_S8x1016_d1_w32 : S8x1016.Iotas .tc 32 [1]
  broadcasts_S8x1_S8x1016 : S8x1.Broadcasts S8x1016
  reduces_S8x1016_S8 : S8x1016.Reduces [1] S8
  slices_S8x2x1024_o0_0_9_S8x2x1015 : S8x2x1024.Slices ![0, 0, 9] S8x2x1015
  slices_S8x2x1024_o0_0_0_S8x2x1015 : S8x2x1024.Slices ![0, 0, 0] S8x2x1015
  reduces_S8x2x1015_S8x1015 : S8x2x1015.Reduces [1] S8x1015
  iota_S8x1015_d1_w32 : S8x1015.Iotas .tc 32 [1]
  broadcasts_S8x1_S8x1015 : S8x1.Broadcasts S8x1015
  reduces_S8x1015_S8 : S8x1015.Reduces [1] S8
  slices_S8x2x1024_o0_0_10_S8x2x1014 : S8x2x1024.Slices ![0, 0, 10] S8x2x1014
  slices_S8x2x1024_o0_0_0_S8x2x1014 : S8x2x1024.Slices ![0, 0, 0] S8x2x1014
  reduces_S8x2x1014_S8x1014 : S8x2x1014.Reduces [1] S8x1014
  iota_S8x1014_d1_w32 : S8x1014.Iotas .tc 32 [1]
  broadcasts_S8x1_S8x1014 : S8x1.Broadcasts S8x1014
  reduces_S8x1014_S8 : S8x1014.Reduces [1] S8
  slices_S8x2x1024_o0_0_11_S8x2x1013 : S8x2x1024.Slices ![0, 0, 11] S8x2x1013
  slices_S8x2x1024_o0_0_0_S8x2x1013 : S8x2x1024.Slices ![0, 0, 0] S8x2x1013
  reduces_S8x2x1013_S8x1013 : S8x2x1013.Reduces [1] S8x1013
  iota_S8x1013_d1_w32 : S8x1013.Iotas .tc 32 [1]
  broadcasts_S8x1_S8x1013 : S8x1.Broadcasts S8x1013
  reduces_S8x1013_S8 : S8x1013.Reduces [1] S8
  slices_S8x2x1024_o0_0_12_S8x2x1012 : S8x2x1024.Slices ![0, 0, 12] S8x2x1012
  slices_S8x2x1024_o0_0_0_S8x2x1012 : S8x2x1024.Slices ![0, 0, 0] S8x2x1012
  reduces_S8x2x1012_S8x1012 : S8x2x1012.Reduces [1] S8x1012
  iota_S8x1012_d1_w32 : S8x1012.Iotas .tc 32 [1]
  broadcasts_S8x1_S8x1012 : S8x1.Broadcasts S8x1012
  reduces_S8x1012_S8 : S8x1012.Reduces [1] S8
  slices_S8x2x1024_o0_0_13_S8x2x1011 : S8x2x1024.Slices ![0, 0, 13] S8x2x1011
  slices_S8x2x1024_o0_0_0_S8x2x1011 : S8x2x1024.Slices ![0, 0, 0] S8x2x1011
  reduces_S8x2x1011_S8x1011 : S8x2x1011.Reduces [1] S8x1011
  iota_S8x1011_d1_w32 : S8x1011.Iotas .tc 32 [1]
  broadcasts_S8x1_S8x1011 : S8x1.Broadcasts S8x1011
  reduces_S8x1011_S8 : S8x1011.Reduces [1] S8
  slices_S8x2x1024_o0_0_14_S8x2x1010 : S8x2x1024.Slices ![0, 0, 14] S8x2x1010
  slices_S8x2x1024_o0_0_0_S8x2x1010 : S8x2x1024.Slices ![0, 0, 0] S8x2x1010
  reduces_S8x2x1010_S8x1010 : S8x2x1010.Reduces [1] S8x1010
  iota_S8x1010_d1_w32 : S8x1010.Iotas .tc 32 [1]
  broadcasts_S8x1_S8x1010 : S8x1.Broadcasts S8x1010
  reduces_S8x1010_S8 : S8x1010.Reduces [1] S8
  slices_S8x2x1024_o0_0_15_S8x2x1009 : S8x2x1024.Slices ![0, 0, 15] S8x2x1009
  slices_S8x2x1024_o0_0_0_S8x2x1009 : S8x2x1024.Slices ![0, 0, 0] S8x2x1009
  reduces_S8x2x1009_S8x1009 : S8x2x1009.Reduces [1] S8x1009
  iota_S8x1009_d1_w32 : S8x1009.Iotas .tc 32 [1]
  broadcasts_S8x1_S8x1009 : S8x1.Broadcasts S8x1009
  reduces_S8x1009_S8 : S8x1009.Reduces [1] S8
  slices_S8x2x1024_o0_0_16_S8x2x1008 : S8x2x1024.Slices ![0, 0, 16] S8x2x1008
  slices_S8x2x1024_o0_0_0_S8x2x1008 : S8x2x1024.Slices ![0, 0, 0] S8x2x1008
  reduces_S8x2x1008_S8x1008 : S8x2x1008.Reduces [1] S8x1008
  iota_S8x1008_d1_w32 : S8x1008.Iotas .tc 32 [1]
  broadcasts_S8x1_S8x1008 : S8x1.Broadcasts S8x1008
  reduces_S8x1008_S8 : S8x1008.Reduces [1] S8
  slices_S8x2x1024_o0_0_17_S8x2x1007 : S8x2x1024.Slices ![0, 0, 17] S8x2x1007
  slices_S8x2x1024_o0_0_0_S8x2x1007 : S8x2x1024.Slices ![0, 0, 0] S8x2x1007
  reduces_S8x2x1007_S8x1007 : S8x2x1007.Reduces [1] S8x1007
  iota_S8x1007_d1_w32 : S8x1007.Iotas .tc 32 [1]
  broadcasts_S8x1_S8x1007 : S8x1.Broadcasts S8x1007
  reduces_S8x1007_S8 : S8x1007.Reduces [1] S8
  slices_S8x2x1024_o0_0_18_S8x2x1006 : S8x2x1024.Slices ![0, 0, 18] S8x2x1006
  slices_S8x2x1024_o0_0_0_S8x2x1006 : S8x2x1024.Slices ![0, 0, 0] S8x2x1006
  reduces_S8x2x1006_S8x1006 : S8x2x1006.Reduces [1] S8x1006
  iota_S8x1006_d1_w32 : S8x1006.Iotas .tc 32 [1]
  broadcasts_S8x1_S8x1006 : S8x1.Broadcasts S8x1006
  reduces_S8x1006_S8 : S8x1006.Reduces [1] S8
  slices_S8x2x1024_o0_0_19_S8x2x1005 : S8x2x1024.Slices ![0, 0, 19] S8x2x1005
  slices_S8x2x1024_o0_0_0_S8x2x1005 : S8x2x1024.Slices ![0, 0, 0] S8x2x1005
  reduces_S8x2x1005_S8x1005 : S8x2x1005.Reduces [1] S8x1005
  iota_S8x1005_d1_w32 : S8x1005.Iotas .tc 32 [1]
  broadcasts_S8x1_S8x1005 : S8x1.Broadcasts S8x1005
  reduces_S8x1005_S8 : S8x1005.Reduces [1] S8
  slices_S8x2x1024_o0_0_20_S8x2x1004 : S8x2x1024.Slices ![0, 0, 20] S8x2x1004
  slices_S8x2x1024_o0_0_0_S8x2x1004 : S8x2x1024.Slices ![0, 0, 0] S8x2x1004
  reduces_S8x2x1004_S8x1004 : S8x2x1004.Reduces [1] S8x1004
  iota_S8x1004_d1_w32 : S8x1004.Iotas .tc 32 [1]
  broadcasts_S8x1_S8x1004 : S8x1.Broadcasts S8x1004
  reduces_S8x1004_S8 : S8x1004.Reduces [1] S8
  slices_S8x2x1024_o0_0_21_S8x2x1003 : S8x2x1024.Slices ![0, 0, 21] S8x2x1003
  slices_S8x2x1024_o0_0_0_S8x2x1003 : S8x2x1024.Slices ![0, 0, 0] S8x2x1003
  reduces_S8x2x1003_S8x1003 : S8x2x1003.Reduces [1] S8x1003
  iota_S8x1003_d1_w32 : S8x1003.Iotas .tc 32 [1]
  broadcasts_S8x1_S8x1003 : S8x1.Broadcasts S8x1003
  reduces_S8x1003_S8 : S8x1003.Reduces [1] S8
  slices_S8x2x1024_o0_0_22_S8x2x1002 : S8x2x1024.Slices ![0, 0, 22] S8x2x1002
  slices_S8x2x1024_o0_0_0_S8x2x1002 : S8x2x1024.Slices ![0, 0, 0] S8x2x1002
  reduces_S8x2x1002_S8x1002 : S8x2x1002.Reduces [1] S8x1002
  iota_S8x1002_d1_w32 : S8x1002.Iotas .tc 32 [1]
  broadcasts_S8x1_S8x1002 : S8x1.Broadcasts S8x1002
  reduces_S8x1002_S8 : S8x1002.Reduces [1] S8
  slices_S8x2x1024_o0_0_23_S8x2x1001 : S8x2x1024.Slices ![0, 0, 23] S8x2x1001
  slices_S8x2x1024_o0_0_0_S8x2x1001 : S8x2x1024.Slices ![0, 0, 0] S8x2x1001
  reduces_S8x2x1001_S8x1001 : S8x2x1001.Reduces [1] S8x1001
  iota_S8x1001_d1_w32 : S8x1001.Iotas .tc 32 [1]
  broadcasts_S8x1_S8x1001 : S8x1.Broadcasts S8x1001
  reduces_S8x1001_S8 : S8x1001.Reduces [1] S8
  slices_S8x2x1024_o0_0_24_S8x2x1000 : S8x2x1024.Slices ![0, 0, 24] S8x2x1000
  slices_S8x2x1024_o0_0_0_S8x2x1000 : S8x2x1024.Slices ![0, 0, 0] S8x2x1000
  reduces_S8x2x1000_S8x1000 : S8x2x1000.Reduces [1] S8x1000
  iota_S8x1000_d1_w32 : S8x1000.Iotas .tc 32 [1]
  broadcasts_S8x1_S8x1000 : S8x1.Broadcasts S8x1000
  reduces_S8x1000_S8 : S8x1000.Reduces [1] S8
  slices_S8x2x1024_o0_0_25_S8x2x999 : S8x2x1024.Slices ![0, 0, 25] S8x2x999
  slices_S8x2x1024_o0_0_0_S8x2x999 : S8x2x1024.Slices ![0, 0, 0] S8x2x999
  reduces_S8x2x999_S8x999 : S8x2x999.Reduces [1] S8x999
  iota_S8x999_d1_w32 : S8x999.Iotas .tc 32 [1]
  broadcasts_S8x1_S8x999 : S8x1.Broadcasts S8x999
  reduces_S8x999_S8 : S8x999.Reduces [1] S8
  slices_S8x2x1024_o0_0_26_S8x2x998 : S8x2x1024.Slices ![0, 0, 26] S8x2x998
  slices_S8x2x1024_o0_0_0_S8x2x998 : S8x2x1024.Slices ![0, 0, 0] S8x2x998
  reduces_S8x2x998_S8x998 : S8x2x998.Reduces [1] S8x998
  iota_S8x998_d1_w32 : S8x998.Iotas .tc 32 [1]
  broadcasts_S8x1_S8x998 : S8x1.Broadcasts S8x998
  reduces_S8x998_S8 : S8x998.Reduces [1] S8
  slices_S8x2x1024_o0_0_27_S8x2x997 : S8x2x1024.Slices ![0, 0, 27] S8x2x997
  slices_S8x2x1024_o0_0_0_S8x2x997 : S8x2x1024.Slices ![0, 0, 0] S8x2x997
  reduces_S8x2x997_S8x997 : S8x2x997.Reduces [1] S8x997
  iota_S8x997_d1_w32 : S8x997.Iotas .tc 32 [1]
  broadcasts_S8x1_S8x997 : S8x1.Broadcasts S8x997
  reduces_S8x997_S8 : S8x997.Reduces [1] S8
  slices_S8x2x1024_o0_0_28_S8x2x996 : S8x2x1024.Slices ![0, 0, 28] S8x2x996
  slices_S8x2x1024_o0_0_0_S8x2x996 : S8x2x1024.Slices ![0, 0, 0] S8x2x996
  reduces_S8x2x996_S8x996 : S8x2x996.Reduces [1] S8x996
  iota_S8x996_d1_w32 : S8x996.Iotas .tc 32 [1]
  broadcasts_S8x1_S8x996 : S8x1.Broadcasts S8x996
  reduces_S8x996_S8 : S8x996.Reduces [1] S8
  slices_S8x2x1024_o0_0_29_S8x2x995 : S8x2x1024.Slices ![0, 0, 29] S8x2x995
  slices_S8x2x1024_o0_0_0_S8x2x995 : S8x2x1024.Slices ![0, 0, 0] S8x2x995
  reduces_S8x2x995_S8x995 : S8x2x995.Reduces [1] S8x995
  iota_S8x995_d1_w32 : S8x995.Iotas .tc 32 [1]
  broadcasts_S8x1_S8x995 : S8x1.Broadcasts S8x995
  reduces_S8x995_S8 : S8x995.Reduces [1] S8
  slices_S8x2x1024_o0_0_30_S8x2x994 : S8x2x1024.Slices ![0, 0, 30] S8x2x994
  slices_S8x2x1024_o0_0_0_S8x2x994 : S8x2x1024.Slices ![0, 0, 0] S8x2x994
  reduces_S8x2x994_S8x994 : S8x2x994.Reduces [1] S8x994
  iota_S8x994_d1_w32 : S8x994.Iotas .tc 32 [1]
  broadcasts_S8x1_S8x994 : S8x1.Broadcasts S8x994
  reduces_S8x994_S8 : S8x994.Reduces [1] S8
  slices_S8x2x1024_o0_0_31_S8x2x993 : S8x2x1024.Slices ![0, 0, 31] S8x2x993
  slices_S8x2x1024_o0_0_0_S8x2x993 : S8x2x1024.Slices ![0, 0, 0] S8x2x993
  reduces_S8x2x993_S8x993 : S8x2x993.Reduces [1] S8x993
  iota_S8x993_d1_w32 : S8x993.Iotas .tc 32 [1]
  broadcasts_S8x1_S8x993 : S8x1.Broadcasts S8x993
  reduces_S8x993_S8 : S8x993.Reduces [1] S8
  slices_S8x2x1024_o0_0_32_S8x2x992 : S8x2x1024.Slices ![0, 0, 32] S8x2x992
  slices_S8x2x1024_o0_0_0_S8x2x992 : S8x2x1024.Slices ![0, 0, 0] S8x2x992
  reduces_S8x2x992_S8x992 : S8x2x992.Reduces [1] S8x992
  iota_S8x992_d1_w32 : S8x992.Iotas .tc 32 [1]
  broadcasts_S8x1_S8x992 : S8x1.Broadcasts S8x992
  reduces_S8x992_S8 : S8x992.Reduces [1] S8
  slices_S8x2x1024_o0_0_33_S8x2x991 : S8x2x1024.Slices ![0, 0, 33] S8x2x991
  slices_S8x2x1024_o0_0_0_S8x2x991 : S8x2x1024.Slices ![0, 0, 0] S8x2x991
  reduces_S8x2x991_S8x991 : S8x2x991.Reduces [1] S8x991
  iota_S8x991_d1_w32 : S8x991.Iotas .tc 32 [1]
  broadcasts_S8x1_S8x991 : S8x1.Broadcasts S8x991
  reduces_S8x991_S8 : S8x991.Reduces [1] S8
  slices_S8x2x1024_o0_0_34_S8x2x990 : S8x2x1024.Slices ![0, 0, 34] S8x2x990
  slices_S8x2x1024_o0_0_0_S8x2x990 : S8x2x1024.Slices ![0, 0, 0] S8x2x990
  reduces_S8x2x990_S8x990 : S8x2x990.Reduces [1] S8x990
  iota_S8x990_d1_w32 : S8x990.Iotas .tc 32 [1]
  broadcasts_S8x1_S8x990 : S8x1.Broadcasts S8x990
  reduces_S8x990_S8 : S8x990.Reduces [1] S8
  slices_S8x2x1024_o0_0_35_S8x2x989 : S8x2x1024.Slices ![0, 0, 35] S8x2x989
  slices_S8x2x1024_o0_0_0_S8x2x989 : S8x2x1024.Slices ![0, 0, 0] S8x2x989
  reduces_S8x2x989_S8x989 : S8x2x989.Reduces [1] S8x989
  iota_S8x989_d1_w32 : S8x989.Iotas .tc 32 [1]
  broadcasts_S8x1_S8x989 : S8x1.Broadcasts S8x989
  reduces_S8x989_S8 : S8x989.Reduces [1] S8
  slices_S8x2x1024_o0_0_36_S8x2x988 : S8x2x1024.Slices ![0, 0, 36] S8x2x988
  slices_S8x2x1024_o0_0_0_S8x2x988 : S8x2x1024.Slices ![0, 0, 0] S8x2x988
  reduces_S8x2x988_S8x988 : S8x2x988.Reduces [1] S8x988
  iota_S8x988_d1_w32 : S8x988.Iotas .tc 32 [1]
  broadcasts_S8x1_S8x988 : S8x1.Broadcasts S8x988
  reduces_S8x988_S8 : S8x988.Reduces [1] S8
  slices_S8x2x1024_o0_0_37_S8x2x987 : S8x2x1024.Slices ![0, 0, 37] S8x2x987
  slices_S8x2x1024_o0_0_0_S8x2x987 : S8x2x1024.Slices ![0, 0, 0] S8x2x987
  reduces_S8x2x987_S8x987 : S8x2x987.Reduces [1] S8x987
  iota_S8x987_d1_w32 : S8x987.Iotas .tc 32 [1]
  broadcasts_S8x1_S8x987 : S8x1.Broadcasts S8x987
  reduces_S8x987_S8 : S8x987.Reduces [1] S8
  slices_S8x2x1024_o0_0_38_S8x2x986 : S8x2x1024.Slices ![0, 0, 38] S8x2x986
  slices_S8x2x1024_o0_0_0_S8x2x986 : S8x2x1024.Slices ![0, 0, 0] S8x2x986
  reduces_S8x2x986_S8x986 : S8x2x986.Reduces [1] S8x986
  iota_S8x986_d1_w32 : S8x986.Iotas .tc 32 [1]
  broadcasts_S8x1_S8x986 : S8x1.Broadcasts S8x986
  reduces_S8x986_S8 : S8x986.Reduces [1] S8
  slices_S8x2x1024_o0_0_39_S8x2x985 : S8x2x1024.Slices ![0, 0, 39] S8x2x985
  slices_S8x2x1024_o0_0_0_S8x2x985 : S8x2x1024.Slices ![0, 0, 0] S8x2x985
  reduces_S8x2x985_S8x985 : S8x2x985.Reduces [1] S8x985
  iota_S8x985_d1_w32 : S8x985.Iotas .tc 32 [1]
  broadcasts_S8x1_S8x985 : S8x1.Broadcasts S8x985
  reduces_S8x985_S8 : S8x985.Reduces [1] S8
  slices_S8x2x1024_o0_0_40_S8x2x984 : S8x2x1024.Slices ![0, 0, 40] S8x2x984
  slices_S8x2x1024_o0_0_0_S8x2x984 : S8x2x1024.Slices ![0, 0, 0] S8x2x984
  reduces_S8x2x984_S8x984 : S8x2x984.Reduces [1] S8x984
  iota_S8x984_d1_w32 : S8x984.Iotas .tc 32 [1]
  broadcasts_S8x1_S8x984 : S8x1.Broadcasts S8x984
  reduces_S8x984_S8 : S8x984.Reduces [1] S8
  slices_S8x2x1024_o0_0_41_S8x2x983 : S8x2x1024.Slices ![0, 0, 41] S8x2x983
  slices_S8x2x1024_o0_0_0_S8x2x983 : S8x2x1024.Slices ![0, 0, 0] S8x2x983
  reduces_S8x2x983_S8x983 : S8x2x983.Reduces [1] S8x983
  iota_S8x983_d1_w32 : S8x983.Iotas .tc 32 [1]
  broadcasts_S8x1_S8x983 : S8x1.Broadcasts S8x983
  reduces_S8x983_S8 : S8x983.Reduces [1] S8
  slices_S8x2x1024_o0_0_42_S8x2x982 : S8x2x1024.Slices ![0, 0, 42] S8x2x982
  slices_S8x2x1024_o0_0_0_S8x2x982 : S8x2x1024.Slices ![0, 0, 0] S8x2x982
  reduces_S8x2x982_S8x982 : S8x2x982.Reduces [1] S8x982
  iota_S8x982_d1_w32 : S8x982.Iotas .tc 32 [1]
  broadcasts_S8x1_S8x982 : S8x1.Broadcasts S8x982
  reduces_S8x982_S8 : S8x982.Reduces [1] S8
  slices_S8x2x1024_o0_0_43_S8x2x981 : S8x2x1024.Slices ![0, 0, 43] S8x2x981
  slices_S8x2x1024_o0_0_0_S8x2x981 : S8x2x1024.Slices ![0, 0, 0] S8x2x981
  reduces_S8x2x981_S8x981 : S8x2x981.Reduces [1] S8x981
  iota_S8x981_d1_w32 : S8x981.Iotas .tc 32 [1]
  broadcasts_S8x1_S8x981 : S8x1.Broadcasts S8x981
  reduces_S8x981_S8 : S8x981.Reduces [1] S8
  slices_S8x2x1024_o0_0_44_S8x2x980 : S8x2x1024.Slices ![0, 0, 44] S8x2x980
  slices_S8x2x1024_o0_0_0_S8x2x980 : S8x2x1024.Slices ![0, 0, 0] S8x2x980
  reduces_S8x2x980_S8x980 : S8x2x980.Reduces [1] S8x980
  iota_S8x980_d1_w32 : S8x980.Iotas .tc 32 [1]
  broadcasts_S8x1_S8x980 : S8x1.Broadcasts S8x980
  reduces_S8x980_S8 : S8x980.Reduces [1] S8
  slices_S8x2x1024_o0_0_45_S8x2x979 : S8x2x1024.Slices ![0, 0, 45] S8x2x979
  slices_S8x2x1024_o0_0_0_S8x2x979 : S8x2x1024.Slices ![0, 0, 0] S8x2x979
  reduces_S8x2x979_S8x979 : S8x2x979.Reduces [1] S8x979
  iota_S8x979_d1_w32 : S8x979.Iotas .tc 32 [1]
  broadcasts_S8x1_S8x979 : S8x1.Broadcasts S8x979
  reduces_S8x979_S8 : S8x979.Reduces [1] S8
  slices_S8x2x1024_o0_0_46_S8x2x978 : S8x2x1024.Slices ![0, 0, 46] S8x2x978
  slices_S8x2x1024_o0_0_0_S8x2x978 : S8x2x1024.Slices ![0, 0, 0] S8x2x978
  reduces_S8x2x978_S8x978 : S8x2x978.Reduces [1] S8x978
  iota_S8x978_d1_w32 : S8x978.Iotas .tc 32 [1]
  broadcasts_S8x1_S8x978 : S8x1.Broadcasts S8x978
  reduces_S8x978_S8 : S8x978.Reduces [1] S8
  slices_S8x2x1024_o0_0_47_S8x2x977 : S8x2x1024.Slices ![0, 0, 47] S8x2x977
  slices_S8x2x1024_o0_0_0_S8x2x977 : S8x2x1024.Slices ![0, 0, 0] S8x2x977
  reduces_S8x2x977_S8x977 : S8x2x977.Reduces [1] S8x977
  iota_S8x977_d1_w32 : S8x977.Iotas .tc 32 [1]
  broadcasts_S8x1_S8x977 : S8x1.Broadcasts S8x977
  reduces_S8x977_S8 : S8x977.Reduces [1] S8
  slices_S8x2x1024_o0_0_48_S8x2x976 : S8x2x1024.Slices ![0, 0, 48] S8x2x976
  slices_S8x2x1024_o0_0_0_S8x2x976 : S8x2x1024.Slices ![0, 0, 0] S8x2x976
  reduces_S8x2x976_S8x976 : S8x2x976.Reduces [1] S8x976
  iota_S8x976_d1_w32 : S8x976.Iotas .tc 32 [1]
  broadcasts_S8x1_S8x976 : S8x1.Broadcasts S8x976
  reduces_S8x976_S8 : S8x976.Reduces [1] S8
  slices_S8x2x1024_o0_0_49_S8x2x975 : S8x2x1024.Slices ![0, 0, 49] S8x2x975
  slices_S8x2x1024_o0_0_0_S8x2x975 : S8x2x1024.Slices ![0, 0, 0] S8x2x975
  reduces_S8x2x975_S8x975 : S8x2x975.Reduces [1] S8x975
  iota_S8x975_d1_w32 : S8x975.Iotas .tc 32 [1]
  broadcasts_S8x1_S8x975 : S8x1.Broadcasts S8x975
  reduces_S8x975_S8 : S8x975.Reduces [1] S8
  slices_S8x2x1024_o0_0_50_S8x2x974 : S8x2x1024.Slices ![0, 0, 50] S8x2x974
  slices_S8x2x1024_o0_0_0_S8x2x974 : S8x2x1024.Slices ![0, 0, 0] S8x2x974
  reduces_S8x2x974_S8x974 : S8x2x974.Reduces [1] S8x974
  iota_S8x974_d1_w32 : S8x974.Iotas .tc 32 [1]
  broadcasts_S8x1_S8x974 : S8x1.Broadcasts S8x974
  reduces_S8x974_S8 : S8x974.Reduces [1] S8
  slices_S8x2x1024_o0_0_51_S8x2x973 : S8x2x1024.Slices ![0, 0, 51] S8x2x973
  slices_S8x2x1024_o0_0_0_S8x2x973 : S8x2x1024.Slices ![0, 0, 0] S8x2x973
  reduces_S8x2x973_S8x973 : S8x2x973.Reduces [1] S8x973
  iota_S8x973_d1_w32 : S8x973.Iotas .tc 32 [1]
  broadcasts_S8x1_S8x973 : S8x1.Broadcasts S8x973
  reduces_S8x973_S8 : S8x973.Reduces [1] S8
  slices_S8x2x1024_o0_0_52_S8x2x972 : S8x2x1024.Slices ![0, 0, 52] S8x2x972
  slices_S8x2x1024_o0_0_0_S8x2x972 : S8x2x1024.Slices ![0, 0, 0] S8x2x972
  reduces_S8x2x972_S8x972 : S8x2x972.Reduces [1] S8x972
  iota_S8x972_d1_w32 : S8x972.Iotas .tc 32 [1]
  broadcasts_S8x1_S8x972 : S8x1.Broadcasts S8x972
  reduces_S8x972_S8 : S8x972.Reduces [1] S8
  slices_S8x2x1024_o0_0_53_S8x2x971 : S8x2x1024.Slices ![0, 0, 53] S8x2x971
  slices_S8x2x1024_o0_0_0_S8x2x971 : S8x2x1024.Slices ![0, 0, 0] S8x2x971
  reduces_S8x2x971_S8x971 : S8x2x971.Reduces [1] S8x971
  iota_S8x971_d1_w32 : S8x971.Iotas .tc 32 [1]
  broadcasts_S8x1_S8x971 : S8x1.Broadcasts S8x971
  reduces_S8x971_S8 : S8x971.Reduces [1] S8
  slices_S8x2x1024_o0_0_54_S8x2x970 : S8x2x1024.Slices ![0, 0, 54] S8x2x970
  slices_S8x2x1024_o0_0_0_S8x2x970 : S8x2x1024.Slices ![0, 0, 0] S8x2x970
  reduces_S8x2x970_S8x970 : S8x2x970.Reduces [1] S8x970
  iota_S8x970_d1_w32 : S8x970.Iotas .tc 32 [1]
  broadcasts_S8x1_S8x970 : S8x1.Broadcasts S8x970
  reduces_S8x970_S8 : S8x970.Reduces [1] S8
  slices_S8x2x1024_o0_0_55_S8x2x969 : S8x2x1024.Slices ![0, 0, 55] S8x2x969
  slices_S8x2x1024_o0_0_0_S8x2x969 : S8x2x1024.Slices ![0, 0, 0] S8x2x969
  reduces_S8x2x969_S8x969 : S8x2x969.Reduces [1] S8x969
  iota_S8x969_d1_w32 : S8x969.Iotas .tc 32 [1]
  broadcasts_S8x1_S8x969 : S8x1.Broadcasts S8x969
  reduces_S8x969_S8 : S8x969.Reduces [1] S8
  slices_S8x2x1024_o0_0_56_S8x2x968 : S8x2x1024.Slices ![0, 0, 56] S8x2x968
  slices_S8x2x1024_o0_0_0_S8x2x968 : S8x2x1024.Slices ![0, 0, 0] S8x2x968
  reduces_S8x2x968_S8x968 : S8x2x968.Reduces [1] S8x968
  iota_S8x968_d1_w32 : S8x968.Iotas .tc 32 [1]
  broadcasts_S8x1_S8x968 : S8x1.Broadcasts S8x968
  reduces_S8x968_S8 : S8x968.Reduces [1] S8
  slices_S8x2x1024_o0_0_57_S8x2x967 : S8x2x1024.Slices ![0, 0, 57] S8x2x967
  slices_S8x2x1024_o0_0_0_S8x2x967 : S8x2x1024.Slices ![0, 0, 0] S8x2x967
  reduces_S8x2x967_S8x967 : S8x2x967.Reduces [1] S8x967
  iota_S8x967_d1_w32 : S8x967.Iotas .tc 32 [1]
  broadcasts_S8x1_S8x967 : S8x1.Broadcasts S8x967
  reduces_S8x967_S8 : S8x967.Reduces [1] S8
  slices_S8x2x1024_o0_0_58_S8x2x966 : S8x2x1024.Slices ![0, 0, 58] S8x2x966
  slices_S8x2x1024_o0_0_0_S8x2x966 : S8x2x1024.Slices ![0, 0, 0] S8x2x966
  reduces_S8x2x966_S8x966 : S8x2x966.Reduces [1] S8x966
  iota_S8x966_d1_w32 : S8x966.Iotas .tc 32 [1]
  broadcasts_S8x1_S8x966 : S8x1.Broadcasts S8x966
  reduces_S8x966_S8 : S8x966.Reduces [1] S8
  slices_S8x2x1024_o0_0_59_S8x2x965 : S8x2x1024.Slices ![0, 0, 59] S8x2x965
  slices_S8x2x1024_o0_0_0_S8x2x965 : S8x2x1024.Slices ![0, 0, 0] S8x2x965
  reduces_S8x2x965_S8x965 : S8x2x965.Reduces [1] S8x965
  iota_S8x965_d1_w32 : S8x965.Iotas .tc 32 [1]
  broadcasts_S8x1_S8x965 : S8x1.Broadcasts S8x965
  reduces_S8x965_S8 : S8x965.Reduces [1] S8
  slices_S8x2x1024_o0_0_60_S8x2x964 : S8x2x1024.Slices ![0, 0, 60] S8x2x964
  slices_S8x2x1024_o0_0_0_S8x2x964 : S8x2x1024.Slices ![0, 0, 0] S8x2x964
  reduces_S8x2x964_S8x964 : S8x2x964.Reduces [1] S8x964
  iota_S8x964_d1_w32 : S8x964.Iotas .tc 32 [1]
  broadcasts_S8x1_S8x964 : S8x1.Broadcasts S8x964
  reduces_S8x964_S8 : S8x964.Reduces [1] S8
  slices_S8x2x1024_o0_0_61_S8x2x963 : S8x2x1024.Slices ![0, 0, 61] S8x2x963
  slices_S8x2x1024_o0_0_0_S8x2x963 : S8x2x1024.Slices ![0, 0, 0] S8x2x963
  reduces_S8x2x963_S8x963 : S8x2x963.Reduces [1] S8x963
  iota_S8x963_d1_w32 : S8x963.Iotas .tc 32 [1]
  broadcasts_S8x1_S8x963 : S8x1.Broadcasts S8x963
  reduces_S8x963_S8 : S8x963.Reduces [1] S8
  slices_S8x2x1024_o0_0_62_S8x2x962 : S8x2x1024.Slices ![0, 0, 62] S8x2x962
  slices_S8x2x1024_o0_0_0_S8x2x962 : S8x2x1024.Slices ![0, 0, 0] S8x2x962
  reduces_S8x2x962_S8x962 : S8x2x962.Reduces [1] S8x962
  iota_S8x962_d1_w32 : S8x962.Iotas .tc 32 [1]
  broadcasts_S8x1_S8x962 : S8x1.Broadcasts S8x962
  reduces_S8x962_S8 : S8x962.Reduces [1] S8
  slices_S8x2x1024_o0_0_63_S8x2x961 : S8x2x1024.Slices ![0, 0, 63] S8x2x961
  slices_S8x2x1024_o0_0_0_S8x2x961 : S8x2x1024.Slices ![0, 0, 0] S8x2x961
  reduces_S8x2x961_S8x961 : S8x2x961.Reduces [1] S8x961
  iota_S8x961_d1_w32 : S8x961.Iotas .tc 32 [1]
  broadcasts_S8x1_S8x961 : S8x1.Broadcasts S8x961
  reduces_S8x961_S8 : S8x961.Reduces [1] S8
  slices_S8x2x1024_o0_0_64_S8x2x960 : S8x2x1024.Slices ![0, 0, 64] S8x2x960
  slices_S8x2x1024_o0_0_0_S8x2x960 : S8x2x1024.Slices ![0, 0, 0] S8x2x960
  reduces_S8x2x960_S8x960 : S8x2x960.Reduces [1] S8x960
  iota_S8x960_d1_w32 : S8x960.Iotas .tc 32 [1]
  broadcasts_S8x1_S8x960 : S8x1.Broadcasts S8x960
  reduces_S8x960_S8 : S8x960.Reduces [1] S8
  slices_S8x2x1024_o0_0_65_S8x2x959 : S8x2x1024.Slices ![0, 0, 65] S8x2x959
  slices_S8x2x1024_o0_0_0_S8x2x959 : S8x2x1024.Slices ![0, 0, 0] S8x2x959
  reduces_S8x2x959_S8x959 : S8x2x959.Reduces [1] S8x959
  iota_S8x959_d1_w32 : S8x959.Iotas .tc 32 [1]
  broadcasts_S8x1_S8x959 : S8x1.Broadcasts S8x959
  reduces_S8x959_S8 : S8x959.Reduces [1] S8
  slices_S8x2x1024_o0_0_66_S8x2x958 : S8x2x1024.Slices ![0, 0, 66] S8x2x958
  slices_S8x2x1024_o0_0_0_S8x2x958 : S8x2x1024.Slices ![0, 0, 0] S8x2x958
  reduces_S8x2x958_S8x958 : S8x2x958.Reduces [1] S8x958
  iota_S8x958_d1_w32 : S8x958.Iotas .tc 32 [1]
  broadcasts_S8x1_S8x958 : S8x1.Broadcasts S8x958
  reduces_S8x958_S8 : S8x958.Reduces [1] S8
  slices_S8x2x1024_o0_0_67_S8x2x957 : S8x2x1024.Slices ![0, 0, 67] S8x2x957
  slices_S8x2x1024_o0_0_0_S8x2x957 : S8x2x1024.Slices ![0, 0, 0] S8x2x957
  reduces_S8x2x957_S8x957 : S8x2x957.Reduces [1] S8x957
  iota_S8x957_d1_w32 : S8x957.Iotas .tc 32 [1]
  broadcasts_S8x1_S8x957 : S8x1.Broadcasts S8x957
  reduces_S8x957_S8 : S8x957.Reduces [1] S8
  slices_S8x2x1024_o0_0_68_S8x2x956 : S8x2x1024.Slices ![0, 0, 68] S8x2x956
  slices_S8x2x1024_o0_0_0_S8x2x956 : S8x2x1024.Slices ![0, 0, 0] S8x2x956
  reduces_S8x2x956_S8x956 : S8x2x956.Reduces [1] S8x956
  iota_S8x956_d1_w32 : S8x956.Iotas .tc 32 [1]
  broadcasts_S8x1_S8x956 : S8x1.Broadcasts S8x956
  reduces_S8x956_S8 : S8x956.Reduces [1] S8
  slices_S8x2x1024_o0_0_69_S8x2x955 : S8x2x1024.Slices ![0, 0, 69] S8x2x955
  slices_S8x2x1024_o0_0_0_S8x2x955 : S8x2x1024.Slices ![0, 0, 0] S8x2x955
  reduces_S8x2x955_S8x955 : S8x2x955.Reduces [1] S8x955
  iota_S8x955_d1_w32 : S8x955.Iotas .tc 32 [1]
  broadcasts_S8x1_S8x955 : S8x1.Broadcasts S8x955
  reduces_S8x955_S8 : S8x955.Reduces [1] S8
  slices_S8x2x1024_o0_0_70_S8x2x954 : S8x2x1024.Slices ![0, 0, 70] S8x2x954
  slices_S8x2x1024_o0_0_0_S8x2x954 : S8x2x1024.Slices ![0, 0, 0] S8x2x954
  reduces_S8x2x954_S8x954 : S8x2x954.Reduces [1] S8x954
  iota_S8x954_d1_w32 : S8x954.Iotas .tc 32 [1]
  broadcasts_S8x1_S8x954 : S8x1.Broadcasts S8x954
  reduces_S8x954_S8 : S8x954.Reduces [1] S8
  slices_S8x2x1024_o0_0_71_S8x2x953 : S8x2x1024.Slices ![0, 0, 71] S8x2x953
  slices_S8x2x1024_o0_0_0_S8x2x953 : S8x2x1024.Slices ![0, 0, 0] S8x2x953
  reduces_S8x2x953_S8x953 : S8x2x953.Reduces [1] S8x953
  iota_S8x953_d1_w32 : S8x953.Iotas .tc 32 [1]
  broadcasts_S8x1_S8x953 : S8x1.Broadcasts S8x953
  reduces_S8x953_S8 : S8x953.Reduces [1] S8
  slices_S8x2x1024_o0_0_72_S8x2x952 : S8x2x1024.Slices ![0, 0, 72] S8x2x952
  slices_S8x2x1024_o0_0_0_S8x2x952 : S8x2x1024.Slices ![0, 0, 0] S8x2x952
  reduces_S8x2x952_S8x952 : S8x2x952.Reduces [1] S8x952
  iota_S8x952_d1_w32 : S8x952.Iotas .tc 32 [1]
  broadcasts_S8x1_S8x952 : S8x1.Broadcasts S8x952
  reduces_S8x952_S8 : S8x952.Reduces [1] S8
  slices_S8x2x1024_o0_0_73_S8x2x951 : S8x2x1024.Slices ![0, 0, 73] S8x2x951
  slices_S8x2x1024_o0_0_0_S8x2x951 : S8x2x1024.Slices ![0, 0, 0] S8x2x951
  reduces_S8x2x951_S8x951 : S8x2x951.Reduces [1] S8x951
  iota_S8x951_d1_w32 : S8x951.Iotas .tc 32 [1]
  broadcasts_S8x1_S8x951 : S8x1.Broadcasts S8x951
  reduces_S8x951_S8 : S8x951.Reduces [1] S8
  slices_S8x2x1024_o0_0_74_S8x2x950 : S8x2x1024.Slices ![0, 0, 74] S8x2x950
  slices_S8x2x1024_o0_0_0_S8x2x950 : S8x2x1024.Slices ![0, 0, 0] S8x2x950
  reduces_S8x2x950_S8x950 : S8x2x950.Reduces [1] S8x950
  iota_S8x950_d1_w32 : S8x950.Iotas .tc 32 [1]
  broadcasts_S8x1_S8x950 : S8x1.Broadcasts S8x950
  reduces_S8x950_S8 : S8x950.Reduces [1] S8
  slices_S8x2x1024_o0_0_75_S8x2x949 : S8x2x1024.Slices ![0, 0, 75] S8x2x949
  slices_S8x2x1024_o0_0_0_S8x2x949 : S8x2x1024.Slices ![0, 0, 0] S8x2x949
  reduces_S8x2x949_S8x949 : S8x2x949.Reduces [1] S8x949
  iota_S8x949_d1_w32 : S8x949.Iotas .tc 32 [1]
  broadcasts_S8x1_S8x949 : S8x1.Broadcasts S8x949
  reduces_S8x949_S8 : S8x949.Reduces [1] S8
  slices_S8x2x1024_o0_0_76_S8x2x948 : S8x2x1024.Slices ![0, 0, 76] S8x2x948
  slices_S8x2x1024_o0_0_0_S8x2x948 : S8x2x1024.Slices ![0, 0, 0] S8x2x948
  reduces_S8x2x948_S8x948 : S8x2x948.Reduces [1] S8x948
  iota_S8x948_d1_w32 : S8x948.Iotas .tc 32 [1]
  broadcasts_S8x1_S8x948 : S8x1.Broadcasts S8x948
  reduces_S8x948_S8 : S8x948.Reduces [1] S8
  slices_S8x2x1024_o0_0_77_S8x2x947 : S8x2x1024.Slices ![0, 0, 77] S8x2x947
  slices_S8x2x1024_o0_0_0_S8x2x947 : S8x2x1024.Slices ![0, 0, 0] S8x2x947
  reduces_S8x2x947_S8x947 : S8x2x947.Reduces [1] S8x947
  iota_S8x947_d1_w32 : S8x947.Iotas .tc 32 [1]
  broadcasts_S8x1_S8x947 : S8x1.Broadcasts S8x947
  reduces_S8x947_S8 : S8x947.Reduces [1] S8
  slices_S8x2x1024_o0_0_78_S8x2x946 : S8x2x1024.Slices ![0, 0, 78] S8x2x946
  slices_S8x2x1024_o0_0_0_S8x2x946 : S8x2x1024.Slices ![0, 0, 0] S8x2x946
  reduces_S8x2x946_S8x946 : S8x2x946.Reduces [1] S8x946
  iota_S8x946_d1_w32 : S8x946.Iotas .tc 32 [1]
  broadcasts_S8x1_S8x946 : S8x1.Broadcasts S8x946
  reduces_S8x946_S8 : S8x946.Reduces [1] S8
  slices_S8x2x1024_o0_0_79_S8x2x945 : S8x2x1024.Slices ![0, 0, 79] S8x2x945
  slices_S8x2x1024_o0_0_0_S8x2x945 : S8x2x1024.Slices ![0, 0, 0] S8x2x945
  reduces_S8x2x945_S8x945 : S8x2x945.Reduces [1] S8x945
  iota_S8x945_d1_w32 : S8x945.Iotas .tc 32 [1]
  broadcasts_S8x1_S8x945 : S8x1.Broadcasts S8x945
  reduces_S8x945_S8 : S8x945.Reduces [1] S8
  slices_S8x2x1024_o0_0_80_S8x2x944 : S8x2x1024.Slices ![0, 0, 80] S8x2x944
  slices_S8x2x1024_o0_0_0_S8x2x944 : S8x2x1024.Slices ![0, 0, 0] S8x2x944
  reduces_S8x2x944_S8x944 : S8x2x944.Reduces [1] S8x944
  iota_S8x944_d1_w32 : S8x944.Iotas .tc 32 [1]
  broadcasts_S8x1_S8x944 : S8x1.Broadcasts S8x944
  reduces_S8x944_S8 : S8x944.Reduces [1] S8
  slices_S8x2x1024_o0_0_81_S8x2x943 : S8x2x1024.Slices ![0, 0, 81] S8x2x943
  slices_S8x2x1024_o0_0_0_S8x2x943 : S8x2x1024.Slices ![0, 0, 0] S8x2x943
  reduces_S8x2x943_S8x943 : S8x2x943.Reduces [1] S8x943
  iota_S8x943_d1_w32 : S8x943.Iotas .tc 32 [1]
  broadcasts_S8x1_S8x943 : S8x1.Broadcasts S8x943
  reduces_S8x943_S8 : S8x943.Reduces [1] S8
  slices_S8x2x1024_o0_0_82_S8x2x942 : S8x2x1024.Slices ![0, 0, 82] S8x2x942
  slices_S8x2x1024_o0_0_0_S8x2x942 : S8x2x1024.Slices ![0, 0, 0] S8x2x942
  reduces_S8x2x942_S8x942 : S8x2x942.Reduces [1] S8x942
  iota_S8x942_d1_w32 : S8x942.Iotas .tc 32 [1]
  broadcasts_S8x1_S8x942 : S8x1.Broadcasts S8x942
  reduces_S8x942_S8 : S8x942.Reduces [1] S8
  slices_S8x2x1024_o0_0_83_S8x2x941 : S8x2x1024.Slices ![0, 0, 83] S8x2x941
  slices_S8x2x1024_o0_0_0_S8x2x941 : S8x2x1024.Slices ![0, 0, 0] S8x2x941
  reduces_S8x2x941_S8x941 : S8x2x941.Reduces [1] S8x941
  iota_S8x941_d1_w32 : S8x941.Iotas .tc 32 [1]
  broadcasts_S8x1_S8x941 : S8x1.Broadcasts S8x941
  reduces_S8x941_S8 : S8x941.Reduces [1] S8
  slices_S8x2x1024_o0_0_84_S8x2x940 : S8x2x1024.Slices ![0, 0, 84] S8x2x940
  slices_S8x2x1024_o0_0_0_S8x2x940 : S8x2x1024.Slices ![0, 0, 0] S8x2x940
  reduces_S8x2x940_S8x940 : S8x2x940.Reduces [1] S8x940
  iota_S8x940_d1_w32 : S8x940.Iotas .tc 32 [1]
  broadcasts_S8x1_S8x940 : S8x1.Broadcasts S8x940
  reduces_S8x940_S8 : S8x940.Reduces [1] S8
  slices_S8x2x1024_o0_0_85_S8x2x939 : S8x2x1024.Slices ![0, 0, 85] S8x2x939
  slices_S8x2x1024_o0_0_0_S8x2x939 : S8x2x1024.Slices ![0, 0, 0] S8x2x939
  reduces_S8x2x939_S8x939 : S8x2x939.Reduces [1] S8x939
  iota_S8x939_d1_w32 : S8x939.Iotas .tc 32 [1]
  broadcasts_S8x1_S8x939 : S8x1.Broadcasts S8x939
  reduces_S8x939_S8 : S8x939.Reduces [1] S8
  slices_S8x2x1024_o0_0_86_S8x2x938 : S8x2x1024.Slices ![0, 0, 86] S8x2x938
  slices_S8x2x1024_o0_0_0_S8x2x938 : S8x2x1024.Slices ![0, 0, 0] S8x2x938
  reduces_S8x2x938_S8x938 : S8x2x938.Reduces [1] S8x938
  iota_S8x938_d1_w32 : S8x938.Iotas .tc 32 [1]
  broadcasts_S8x1_S8x938 : S8x1.Broadcasts S8x938
  reduces_S8x938_S8 : S8x938.Reduces [1] S8
  slices_S8x2x1024_o0_0_87_S8x2x937 : S8x2x1024.Slices ![0, 0, 87] S8x2x937
  slices_S8x2x1024_o0_0_0_S8x2x937 : S8x2x1024.Slices ![0, 0, 0] S8x2x937
  reduces_S8x2x937_S8x937 : S8x2x937.Reduces [1] S8x937
  iota_S8x937_d1_w32 : S8x937.Iotas .tc 32 [1]
  broadcasts_S8x1_S8x937 : S8x1.Broadcasts S8x937
  reduces_S8x937_S8 : S8x937.Reduces [1] S8
  slices_S8x2x1024_o0_0_88_S8x2x936 : S8x2x1024.Slices ![0, 0, 88] S8x2x936
  slices_S8x2x1024_o0_0_0_S8x2x936 : S8x2x1024.Slices ![0, 0, 0] S8x2x936
  reduces_S8x2x936_S8x936 : S8x2x936.Reduces [1] S8x936
  iota_S8x936_d1_w32 : S8x936.Iotas .tc 32 [1]
  broadcasts_S8x1_S8x936 : S8x1.Broadcasts S8x936
  reduces_S8x936_S8 : S8x936.Reduces [1] S8
  slices_S8x2x1024_o0_0_89_S8x2x935 : S8x2x1024.Slices ![0, 0, 89] S8x2x935
  slices_S8x2x1024_o0_0_0_S8x2x935 : S8x2x1024.Slices ![0, 0, 0] S8x2x935
  reduces_S8x2x935_S8x935 : S8x2x935.Reduces [1] S8x935
  iota_S8x935_d1_w32 : S8x935.Iotas .tc 32 [1]
  broadcasts_S8x1_S8x935 : S8x1.Broadcasts S8x935
  reduces_S8x935_S8 : S8x935.Reduces [1] S8
  slices_S8x2x1024_o0_0_90_S8x2x934 : S8x2x1024.Slices ![0, 0, 90] S8x2x934
  slices_S8x2x1024_o0_0_0_S8x2x934 : S8x2x1024.Slices ![0, 0, 0] S8x2x934
  reduces_S8x2x934_S8x934 : S8x2x934.Reduces [1] S8x934
  iota_S8x934_d1_w32 : S8x934.Iotas .tc 32 [1]
  broadcasts_S8x1_S8x934 : S8x1.Broadcasts S8x934
  reduces_S8x934_S8 : S8x934.Reduces [1] S8
  slices_S8x2x1024_o0_0_91_S8x2x933 : S8x2x1024.Slices ![0, 0, 91] S8x2x933
  slices_S8x2x1024_o0_0_0_S8x2x933 : S8x2x1024.Slices ![0, 0, 0] S8x2x933
  reduces_S8x2x933_S8x933 : S8x2x933.Reduces [1] S8x933
  iota_S8x933_d1_w32 : S8x933.Iotas .tc 32 [1]
  broadcasts_S8x1_S8x933 : S8x1.Broadcasts S8x933
  reduces_S8x933_S8 : S8x933.Reduces [1] S8
  slices_S8x2x1024_o0_0_92_S8x2x932 : S8x2x1024.Slices ![0, 0, 92] S8x2x932
  slices_S8x2x1024_o0_0_0_S8x2x932 : S8x2x1024.Slices ![0, 0, 0] S8x2x932
  reduces_S8x2x932_S8x932 : S8x2x932.Reduces [1] S8x932
  iota_S8x932_d1_w32 : S8x932.Iotas .tc 32 [1]
  broadcasts_S8x1_S8x932 : S8x1.Broadcasts S8x932
  reduces_S8x932_S8 : S8x932.Reduces [1] S8
  slices_S8x2x1024_o0_0_93_S8x2x931 : S8x2x1024.Slices ![0, 0, 93] S8x2x931
  slices_S8x2x1024_o0_0_0_S8x2x931 : S8x2x1024.Slices ![0, 0, 0] S8x2x931
  reduces_S8x2x931_S8x931 : S8x2x931.Reduces [1] S8x931
  iota_S8x931_d1_w32 : S8x931.Iotas .tc 32 [1]
  broadcasts_S8x1_S8x931 : S8x1.Broadcasts S8x931
  reduces_S8x931_S8 : S8x931.Reduces [1] S8
  slices_S8x2x1024_o0_0_94_S8x2x930 : S8x2x1024.Slices ![0, 0, 94] S8x2x930
  slices_S8x2x1024_o0_0_0_S8x2x930 : S8x2x1024.Slices ![0, 0, 0] S8x2x930
  reduces_S8x2x930_S8x930 : S8x2x930.Reduces [1] S8x930
  iota_S8x930_d1_w32 : S8x930.Iotas .tc 32 [1]
  broadcasts_S8x1_S8x930 : S8x1.Broadcasts S8x930
  reduces_S8x930_S8 : S8x930.Reduces [1] S8
  slices_S8x2x1024_o0_0_95_S8x2x929 : S8x2x1024.Slices ![0, 0, 95] S8x2x929
  slices_S8x2x1024_o0_0_0_S8x2x929 : S8x2x1024.Slices ![0, 0, 0] S8x2x929
  reduces_S8x2x929_S8x929 : S8x2x929.Reduces [1] S8x929
  iota_S8x929_d1_w32 : S8x929.Iotas .tc 32 [1]
  broadcasts_S8x1_S8x929 : S8x1.Broadcasts S8x929
  reduces_S8x929_S8 : S8x929.Reduces [1] S8
  slices_S8x2x1024_o0_0_96_S8x2x928 : S8x2x1024.Slices ![0, 0, 96] S8x2x928
  slices_S8x2x1024_o0_0_0_S8x2x928 : S8x2x1024.Slices ![0, 0, 0] S8x2x928
  reduces_S8x2x928_S8x928 : S8x2x928.Reduces [1] S8x928
  iota_S8x928_d1_w32 : S8x928.Iotas .tc 32 [1]
  broadcasts_S8x1_S8x928 : S8x1.Broadcasts S8x928
  reduces_S8x928_S8 : S8x928.Reduces [1] S8
  slices_S8x2x1024_o0_0_97_S8x2x927 : S8x2x1024.Slices ![0, 0, 97] S8x2x927
  slices_S8x2x1024_o0_0_0_S8x2x927 : S8x2x1024.Slices ![0, 0, 0] S8x2x927
  reduces_S8x2x927_S8x927 : S8x2x927.Reduces [1] S8x927
  iota_S8x927_d1_w32 : S8x927.Iotas .tc 32 [1]
  broadcasts_S8x1_S8x927 : S8x1.Broadcasts S8x927
  reduces_S8x927_S8 : S8x927.Reduces [1] S8
  slices_S8x2x1024_o0_0_98_S8x2x926 : S8x2x1024.Slices ![0, 0, 98] S8x2x926
  slices_S8x2x1024_o0_0_0_S8x2x926 : S8x2x1024.Slices ![0, 0, 0] S8x2x926
  reduces_S8x2x926_S8x926 : S8x2x926.Reduces [1] S8x926
  iota_S8x926_d1_w32 : S8x926.Iotas .tc 32 [1]
  broadcasts_S8x1_S8x926 : S8x1.Broadcasts S8x926
  reduces_S8x926_S8 : S8x926.Reduces [1] S8
  slices_S8x2x1024_o0_0_99_S8x2x925 : S8x2x1024.Slices ![0, 0, 99] S8x2x925
  slices_S8x2x1024_o0_0_0_S8x2x925 : S8x2x1024.Slices ![0, 0, 0] S8x2x925
  reduces_S8x2x925_S8x925 : S8x2x925.Reduces [1] S8x925
  iota_S8x925_d1_w32 : S8x925.Iotas .tc 32 [1]
  broadcasts_S8x1_S8x925 : S8x1.Broadcasts S8x925
  reduces_S8x925_S8 : S8x925.Reduces [1] S8
  slices_S8x2x1024_o0_0_100_S8x2x924 : S8x2x1024.Slices ![0, 0, 100] S8x2x924
  slices_S8x2x1024_o0_0_0_S8x2x924 : S8x2x1024.Slices ![0, 0, 0] S8x2x924
  reduces_S8x2x924_S8x924 : S8x2x924.Reduces [1] S8x924
  iota_S8x924_d1_w32 : S8x924.Iotas .tc 32 [1]
  broadcasts_S8x1_S8x924 : S8x1.Broadcasts S8x924
  reduces_S8x924_S8 : S8x924.Reduces [1] S8
  slices_S8x2x1024_o0_0_101_S8x2x923 : S8x2x1024.Slices ![0, 0, 101] S8x2x923
  slices_S8x2x1024_o0_0_0_S8x2x923 : S8x2x1024.Slices ![0, 0, 0] S8x2x923
  reduces_S8x2x923_S8x923 : S8x2x923.Reduces [1] S8x923
  iota_S8x923_d1_w32 : S8x923.Iotas .tc 32 [1]
  broadcasts_S8x1_S8x923 : S8x1.Broadcasts S8x923
  reduces_S8x923_S8 : S8x923.Reduces [1] S8
  slices_S8x2x1024_o0_0_102_S8x2x922 : S8x2x1024.Slices ![0, 0, 102] S8x2x922
  slices_S8x2x1024_o0_0_0_S8x2x922 : S8x2x1024.Slices ![0, 0, 0] S8x2x922
  reduces_S8x2x922_S8x922 : S8x2x922.Reduces [1] S8x922
  iota_S8x922_d1_w32 : S8x922.Iotas .tc 32 [1]
  broadcasts_S8x1_S8x922 : S8x1.Broadcasts S8x922
  reduces_S8x922_S8 : S8x922.Reduces [1] S8
  slices_S8x2x1024_o0_0_103_S8x2x921 : S8x2x1024.Slices ![0, 0, 103] S8x2x921
  slices_S8x2x1024_o0_0_0_S8x2x921 : S8x2x1024.Slices ![0, 0, 0] S8x2x921
  reduces_S8x2x921_S8x921 : S8x2x921.Reduces [1] S8x921
  iota_S8x921_d1_w32 : S8x921.Iotas .tc 32 [1]
  broadcasts_S8x1_S8x921 : S8x1.Broadcasts S8x921
  reduces_S8x921_S8 : S8x921.Reduces [1] S8
  slices_S8x2x1024_o0_0_104_S8x2x920 : S8x2x1024.Slices ![0, 0, 104] S8x2x920
  slices_S8x2x1024_o0_0_0_S8x2x920 : S8x2x1024.Slices ![0, 0, 0] S8x2x920
  reduces_S8x2x920_S8x920 : S8x2x920.Reduces [1] S8x920
  iota_S8x920_d1_w32 : S8x920.Iotas .tc 32 [1]
  broadcasts_S8x1_S8x920 : S8x1.Broadcasts S8x920
  reduces_S8x920_S8 : S8x920.Reduces [1] S8
  slices_S8x2x1024_o0_0_105_S8x2x919 : S8x2x1024.Slices ![0, 0, 105] S8x2x919
  slices_S8x2x1024_o0_0_0_S8x2x919 : S8x2x1024.Slices ![0, 0, 0] S8x2x919
  reduces_S8x2x919_S8x919 : S8x2x919.Reduces [1] S8x919
  iota_S8x919_d1_w32 : S8x919.Iotas .tc 32 [1]
  broadcasts_S8x1_S8x919 : S8x1.Broadcasts S8x919
  reduces_S8x919_S8 : S8x919.Reduces [1] S8
  slices_S8x2x1024_o0_0_106_S8x2x918 : S8x2x1024.Slices ![0, 0, 106] S8x2x918
  slices_S8x2x1024_o0_0_0_S8x2x918 : S8x2x1024.Slices ![0, 0, 0] S8x2x918
  reduces_S8x2x918_S8x918 : S8x2x918.Reduces [1] S8x918
  iota_S8x918_d1_w32 : S8x918.Iotas .tc 32 [1]
  broadcasts_S8x1_S8x918 : S8x1.Broadcasts S8x918
  reduces_S8x918_S8 : S8x918.Reduces [1] S8
  slices_S8x2x1024_o0_0_107_S8x2x917 : S8x2x1024.Slices ![0, 0, 107] S8x2x917
  slices_S8x2x1024_o0_0_0_S8x2x917 : S8x2x1024.Slices ![0, 0, 0] S8x2x917
  reduces_S8x2x917_S8x917 : S8x2x917.Reduces [1] S8x917
  iota_S8x917_d1_w32 : S8x917.Iotas .tc 32 [1]
  broadcasts_S8x1_S8x917 : S8x1.Broadcasts S8x917
  reduces_S8x917_S8 : S8x917.Reduces [1] S8
  slices_S8x2x1024_o0_0_108_S8x2x916 : S8x2x1024.Slices ![0, 0, 108] S8x2x916
  slices_S8x2x1024_o0_0_0_S8x2x916 : S8x2x1024.Slices ![0, 0, 0] S8x2x916
  reduces_S8x2x916_S8x916 : S8x2x916.Reduces [1] S8x916
  iota_S8x916_d1_w32 : S8x916.Iotas .tc 32 [1]
  broadcasts_S8x1_S8x916 : S8x1.Broadcasts S8x916
  reduces_S8x916_S8 : S8x916.Reduces [1] S8
  slices_S8x2x1024_o0_0_109_S8x2x915 : S8x2x1024.Slices ![0, 0, 109] S8x2x915
  slices_S8x2x1024_o0_0_0_S8x2x915 : S8x2x1024.Slices ![0, 0, 0] S8x2x915
  reduces_S8x2x915_S8x915 : S8x2x915.Reduces [1] S8x915
  iota_S8x915_d1_w32 : S8x915.Iotas .tc 32 [1]
  broadcasts_S8x1_S8x915 : S8x1.Broadcasts S8x915
  reduces_S8x915_S8 : S8x915.Reduces [1] S8
  slices_S8x2x1024_o0_0_110_S8x2x914 : S8x2x1024.Slices ![0, 0, 110] S8x2x914
  slices_S8x2x1024_o0_0_0_S8x2x914 : S8x2x1024.Slices ![0, 0, 0] S8x2x914
  reduces_S8x2x914_S8x914 : S8x2x914.Reduces [1] S8x914
  iota_S8x914_d1_w32 : S8x914.Iotas .tc 32 [1]
  broadcasts_S8x1_S8x914 : S8x1.Broadcasts S8x914
  reduces_S8x914_S8 : S8x914.Reduces [1] S8
  slices_S8x2x1024_o0_0_111_S8x2x913 : S8x2x1024.Slices ![0, 0, 111] S8x2x913
  slices_S8x2x1024_o0_0_0_S8x2x913 : S8x2x1024.Slices ![0, 0, 0] S8x2x913
  reduces_S8x2x913_S8x913 : S8x2x913.Reduces [1] S8x913
  iota_S8x913_d1_w32 : S8x913.Iotas .tc 32 [1]
  broadcasts_S8x1_S8x913 : S8x1.Broadcasts S8x913
  reduces_S8x913_S8 : S8x913.Reduces [1] S8
  slices_S8x2x1024_o0_0_112_S8x2x912 : S8x2x1024.Slices ![0, 0, 112] S8x2x912
  slices_S8x2x1024_o0_0_0_S8x2x912 : S8x2x1024.Slices ![0, 0, 0] S8x2x912
  reduces_S8x2x912_S8x912 : S8x2x912.Reduces [1] S8x912
  iota_S8x912_d1_w32 : S8x912.Iotas .tc 32 [1]
  broadcasts_S8x1_S8x912 : S8x1.Broadcasts S8x912
  reduces_S8x912_S8 : S8x912.Reduces [1] S8
  slices_S8x2x1024_o0_0_113_S8x2x911 : S8x2x1024.Slices ![0, 0, 113] S8x2x911
  slices_S8x2x1024_o0_0_0_S8x2x911 : S8x2x1024.Slices ![0, 0, 0] S8x2x911
  reduces_S8x2x911_S8x911 : S8x2x911.Reduces [1] S8x911
  iota_S8x911_d1_w32 : S8x911.Iotas .tc 32 [1]
  broadcasts_S8x1_S8x911 : S8x1.Broadcasts S8x911
  reduces_S8x911_S8 : S8x911.Reduces [1] S8
  slices_S8x2x1024_o0_0_114_S8x2x910 : S8x2x1024.Slices ![0, 0, 114] S8x2x910
  slices_S8x2x1024_o0_0_0_S8x2x910 : S8x2x1024.Slices ![0, 0, 0] S8x2x910
  reduces_S8x2x910_S8x910 : S8x2x910.Reduces [1] S8x910
  iota_S8x910_d1_w32 : S8x910.Iotas .tc 32 [1]
  broadcasts_S8x1_S8x910 : S8x1.Broadcasts S8x910
  reduces_S8x910_S8 : S8x910.Reduces [1] S8
  slices_S8x2x1024_o0_0_115_S8x2x909 : S8x2x1024.Slices ![0, 0, 115] S8x2x909
  slices_S8x2x1024_o0_0_0_S8x2x909 : S8x2x1024.Slices ![0, 0, 0] S8x2x909
  reduces_S8x2x909_S8x909 : S8x2x909.Reduces [1] S8x909
  iota_S8x909_d1_w32 : S8x909.Iotas .tc 32 [1]
  broadcasts_S8x1_S8x909 : S8x1.Broadcasts S8x909
  reduces_S8x909_S8 : S8x909.Reduces [1] S8
  slices_S8x2x1024_o0_0_116_S8x2x908 : S8x2x1024.Slices ![0, 0, 116] S8x2x908
  slices_S8x2x1024_o0_0_0_S8x2x908 : S8x2x1024.Slices ![0, 0, 0] S8x2x908
  reduces_S8x2x908_S8x908 : S8x2x908.Reduces [1] S8x908
  iota_S8x908_d1_w32 : S8x908.Iotas .tc 32 [1]
  broadcasts_S8x1_S8x908 : S8x1.Broadcasts S8x908
  reduces_S8x908_S8 : S8x908.Reduces [1] S8
  slices_S8x2x1024_o0_0_117_S8x2x907 : S8x2x1024.Slices ![0, 0, 117] S8x2x907
  slices_S8x2x1024_o0_0_0_S8x2x907 : S8x2x1024.Slices ![0, 0, 0] S8x2x907
  reduces_S8x2x907_S8x907 : S8x2x907.Reduces [1] S8x907
  iota_S8x907_d1_w32 : S8x907.Iotas .tc 32 [1]
  broadcasts_S8x1_S8x907 : S8x1.Broadcasts S8x907
  reduces_S8x907_S8 : S8x907.Reduces [1] S8
  slices_S8x2x1024_o0_0_118_S8x2x906 : S8x2x1024.Slices ![0, 0, 118] S8x2x906
  slices_S8x2x1024_o0_0_0_S8x2x906 : S8x2x1024.Slices ![0, 0, 0] S8x2x906
  reduces_S8x2x906_S8x906 : S8x2x906.Reduces [1] S8x906
  iota_S8x906_d1_w32 : S8x906.Iotas .tc 32 [1]
  broadcasts_S8x1_S8x906 : S8x1.Broadcasts S8x906
  reduces_S8x906_S8 : S8x906.Reduces [1] S8
  slices_S8x2x1024_o0_0_119_S8x2x905 : S8x2x1024.Slices ![0, 0, 119] S8x2x905
  slices_S8x2x1024_o0_0_0_S8x2x905 : S8x2x1024.Slices ![0, 0, 0] S8x2x905
  reduces_S8x2x905_S8x905 : S8x2x905.Reduces [1] S8x905
  iota_S8x905_d1_w32 : S8x905.Iotas .tc 32 [1]
  broadcasts_S8x1_S8x905 : S8x1.Broadcasts S8x905
  reduces_S8x905_S8 : S8x905.Reduces [1] S8
  slices_S8x2x1024_o0_0_120_S8x2x904 : S8x2x1024.Slices ![0, 0, 120] S8x2x904
  slices_S8x2x1024_o0_0_0_S8x2x904 : S8x2x1024.Slices ![0, 0, 0] S8x2x904
  reduces_S8x2x904_S8x904 : S8x2x904.Reduces [1] S8x904
  iota_S8x904_d1_w32 : S8x904.Iotas .tc 32 [1]
  broadcasts_S8x1_S8x904 : S8x1.Broadcasts S8x904
  reduces_S8x904_S8 : S8x904.Reduces [1] S8
  slices_S8x2x1024_o0_0_121_S8x2x903 : S8x2x1024.Slices ![0, 0, 121] S8x2x903
  slices_S8x2x1024_o0_0_0_S8x2x903 : S8x2x1024.Slices ![0, 0, 0] S8x2x903
  reduces_S8x2x903_S8x903 : S8x2x903.Reduces [1] S8x903
  iota_S8x903_d1_w32 : S8x903.Iotas .tc 32 [1]
  broadcasts_S8x1_S8x903 : S8x1.Broadcasts S8x903
  reduces_S8x903_S8 : S8x903.Reduces [1] S8
  slices_S8x2x1024_o0_0_122_S8x2x902 : S8x2x1024.Slices ![0, 0, 122] S8x2x902
  slices_S8x2x1024_o0_0_0_S8x2x902 : S8x2x1024.Slices ![0, 0, 0] S8x2x902
  reduces_S8x2x902_S8x902 : S8x2x902.Reduces [1] S8x902
  iota_S8x902_d1_w32 : S8x902.Iotas .tc 32 [1]
  broadcasts_S8x1_S8x902 : S8x1.Broadcasts S8x902
  reduces_S8x902_S8 : S8x902.Reduces [1] S8
  slices_S8x2x1024_o0_0_123_S8x2x901 : S8x2x1024.Slices ![0, 0, 123] S8x2x901
  slices_S8x2x1024_o0_0_0_S8x2x901 : S8x2x1024.Slices ![0, 0, 0] S8x2x901
  reduces_S8x2x901_S8x901 : S8x2x901.Reduces [1] S8x901
  iota_S8x901_d1_w32 : S8x901.Iotas .tc 32 [1]
  broadcasts_S8x1_S8x901 : S8x1.Broadcasts S8x901
  reduces_S8x901_S8 : S8x901.Reduces [1] S8
  slices_S8x2x1024_o0_0_124_S8x2x900 : S8x2x1024.Slices ![0, 0, 124] S8x2x900
  slices_S8x2x1024_o0_0_0_S8x2x900 : S8x2x1024.Slices ![0, 0, 0] S8x2x900
  reduces_S8x2x900_S8x900 : S8x2x900.Reduces [1] S8x900
  iota_S8x900_d1_w32 : S8x900.Iotas .tc 32 [1]
  broadcasts_S8x1_S8x900 : S8x1.Broadcasts S8x900
  reduces_S8x900_S8 : S8x900.Reduces [1] S8
  slices_S8x2x1024_o0_0_125_S8x2x899 : S8x2x1024.Slices ![0, 0, 125] S8x2x899
  slices_S8x2x1024_o0_0_0_S8x2x899 : S8x2x1024.Slices ![0, 0, 0] S8x2x899
  reduces_S8x2x899_S8x899 : S8x2x899.Reduces [1] S8x899
  iota_S8x899_d1_w32 : S8x899.Iotas .tc 32 [1]
  broadcasts_S8x1_S8x899 : S8x1.Broadcasts S8x899
  reduces_S8x899_S8 : S8x899.Reduces [1] S8
  slices_S8x2x1024_o0_0_126_S8x2x898 : S8x2x1024.Slices ![0, 0, 126] S8x2x898
  slices_S8x2x1024_o0_0_0_S8x2x898 : S8x2x1024.Slices ![0, 0, 0] S8x2x898
  reduces_S8x2x898_S8x898 : S8x2x898.Reduces [1] S8x898
  iota_S8x898_d1_w32 : S8x898.Iotas .tc 32 [1]
  broadcasts_S8x1_S8x898 : S8x1.Broadcasts S8x898
  reduces_S8x898_S8 : S8x898.Reduces [1] S8
  slices_S8x2x1024_o0_0_127_S8x2x897 : S8x2x1024.Slices ![0, 0, 127] S8x2x897
  slices_S8x2x1024_o0_0_0_S8x2x897 : S8x2x1024.Slices ![0, 0, 0] S8x2x897
  reduces_S8x2x897_S8x897 : S8x2x897.Reduces [1] S8x897
  iota_S8x897_d1_w32 : S8x897.Iotas .tc 32 [1]
  broadcasts_S8x1_S8x897 : S8x1.Broadcasts S8x897
  reduces_S8x897_S8 : S8x897.Reduces [1] S8
  slices_S8x2x1024_o0_0_128_S8x2x896 : S8x2x1024.Slices ![0, 0, 128] S8x2x896
  slices_S8x2x1024_o0_0_0_S8x2x896 : S8x2x1024.Slices ![0, 0, 0] S8x2x896
  reduces_S8x2x896_S8x896 : S8x2x896.Reduces [1] S8x896
  iota_S8x896_d1_w32 : S8x896.Iotas .tc 32 [1]
  broadcasts_S8x1_S8x896 : S8x1.Broadcasts S8x896
  reduces_S8x896_S8 : S8x896.Reduces [1] S8
  slices_S8x2x1024_o0_0_129_S8x2x895 : S8x2x1024.Slices ![0, 0, 129] S8x2x895
  slices_S8x2x1024_o0_0_0_S8x2x895 : S8x2x1024.Slices ![0, 0, 0] S8x2x895
  reduces_S8x2x895_S8x895 : S8x2x895.Reduces [1] S8x895
  iota_S8x895_d1_w32 : S8x895.Iotas .tc 32 [1]
  broadcasts_S8x1_S8x895 : S8x1.Broadcasts S8x895
  reduces_S8x895_S8 : S8x895.Reduces [1] S8
  slices_S8x2x1024_o0_0_130_S8x2x894 : S8x2x1024.Slices ![0, 0, 130] S8x2x894
  slices_S8x2x1024_o0_0_0_S8x2x894 : S8x2x1024.Slices ![0, 0, 0] S8x2x894
  reduces_S8x2x894_S8x894 : S8x2x894.Reduces [1] S8x894
  iota_S8x894_d1_w32 : S8x894.Iotas .tc 32 [1]
  broadcasts_S8x1_S8x894 : S8x1.Broadcasts S8x894
  reduces_S8x894_S8 : S8x894.Reduces [1] S8
  slices_S8x2x1024_o0_0_131_S8x2x893 : S8x2x1024.Slices ![0, 0, 131] S8x2x893
  slices_S8x2x1024_o0_0_0_S8x2x893 : S8x2x1024.Slices ![0, 0, 0] S8x2x893
  reduces_S8x2x893_S8x893 : S8x2x893.Reduces [1] S8x893
  iota_S8x893_d1_w32 : S8x893.Iotas .tc 32 [1]
  broadcasts_S8x1_S8x893 : S8x1.Broadcasts S8x893
  reduces_S8x893_S8 : S8x893.Reduces [1] S8
  slices_S8x2x1024_o0_0_132_S8x2x892 : S8x2x1024.Slices ![0, 0, 132] S8x2x892
  slices_S8x2x1024_o0_0_0_S8x2x892 : S8x2x1024.Slices ![0, 0, 0] S8x2x892
  reduces_S8x2x892_S8x892 : S8x2x892.Reduces [1] S8x892
  iota_S8x892_d1_w32 : S8x892.Iotas .tc 32 [1]
  broadcasts_S8x1_S8x892 : S8x1.Broadcasts S8x892
  reduces_S8x892_S8 : S8x892.Reduces [1] S8
  slices_S8x2x1024_o0_0_133_S8x2x891 : S8x2x1024.Slices ![0, 0, 133] S8x2x891
  slices_S8x2x1024_o0_0_0_S8x2x891 : S8x2x1024.Slices ![0, 0, 0] S8x2x891
  reduces_S8x2x891_S8x891 : S8x2x891.Reduces [1] S8x891
  iota_S8x891_d1_w32 : S8x891.Iotas .tc 32 [1]
  broadcasts_S8x1_S8x891 : S8x1.Broadcasts S8x891
  reduces_S8x891_S8 : S8x891.Reduces [1] S8
  slices_S8x2x1024_o0_0_134_S8x2x890 : S8x2x1024.Slices ![0, 0, 134] S8x2x890
  slices_S8x2x1024_o0_0_0_S8x2x890 : S8x2x1024.Slices ![0, 0, 0] S8x2x890
  reduces_S8x2x890_S8x890 : S8x2x890.Reduces [1] S8x890
  iota_S8x890_d1_w32 : S8x890.Iotas .tc 32 [1]
  broadcasts_S8x1_S8x890 : S8x1.Broadcasts S8x890
  reduces_S8x890_S8 : S8x890.Reduces [1] S8
  slices_S8x2x1024_o0_0_135_S8x2x889 : S8x2x1024.Slices ![0, 0, 135] S8x2x889
  slices_S8x2x1024_o0_0_0_S8x2x889 : S8x2x1024.Slices ![0, 0, 0] S8x2x889
  reduces_S8x2x889_S8x889 : S8x2x889.Reduces [1] S8x889
  iota_S8x889_d1_w32 : S8x889.Iotas .tc 32 [1]
  broadcasts_S8x1_S8x889 : S8x1.Broadcasts S8x889
  reduces_S8x889_S8 : S8x889.Reduces [1] S8
  slices_S8x2x1024_o0_0_136_S8x2x888 : S8x2x1024.Slices ![0, 0, 136] S8x2x888
  slices_S8x2x1024_o0_0_0_S8x2x888 : S8x2x1024.Slices ![0, 0, 0] S8x2x888
  reduces_S8x2x888_S8x888 : S8x2x888.Reduces [1] S8x888
  iota_S8x888_d1_w32 : S8x888.Iotas .tc 32 [1]
  broadcasts_S8x1_S8x888 : S8x1.Broadcasts S8x888
  reduces_S8x888_S8 : S8x888.Reduces [1] S8
  slices_S8x2x1024_o0_0_137_S8x2x887 : S8x2x1024.Slices ![0, 0, 137] S8x2x887
  slices_S8x2x1024_o0_0_0_S8x2x887 : S8x2x1024.Slices ![0, 0, 0] S8x2x887
  reduces_S8x2x887_S8x887 : S8x2x887.Reduces [1] S8x887
  iota_S8x887_d1_w32 : S8x887.Iotas .tc 32 [1]
  broadcasts_S8x1_S8x887 : S8x1.Broadcasts S8x887
  reduces_S8x887_S8 : S8x887.Reduces [1] S8
  slices_S8x2x1024_o0_0_138_S8x2x886 : S8x2x1024.Slices ![0, 0, 138] S8x2x886
  slices_S8x2x1024_o0_0_0_S8x2x886 : S8x2x1024.Slices ![0, 0, 0] S8x2x886
  reduces_S8x2x886_S8x886 : S8x2x886.Reduces [1] S8x886
  iota_S8x886_d1_w32 : S8x886.Iotas .tc 32 [1]
  broadcasts_S8x1_S8x886 : S8x1.Broadcasts S8x886
  reduces_S8x886_S8 : S8x886.Reduces [1] S8
  slices_S8x2x1024_o0_0_139_S8x2x885 : S8x2x1024.Slices ![0, 0, 139] S8x2x885
  slices_S8x2x1024_o0_0_0_S8x2x885 : S8x2x1024.Slices ![0, 0, 0] S8x2x885
  reduces_S8x2x885_S8x885 : S8x2x885.Reduces [1] S8x885
  iota_S8x885_d1_w32 : S8x885.Iotas .tc 32 [1]
  broadcasts_S8x1_S8x885 : S8x1.Broadcasts S8x885
  reduces_S8x885_S8 : S8x885.Reduces [1] S8
  slices_S8x2x1024_o0_0_140_S8x2x884 : S8x2x1024.Slices ![0, 0, 140] S8x2x884
  slices_S8x2x1024_o0_0_0_S8x2x884 : S8x2x1024.Slices ![0, 0, 0] S8x2x884
  reduces_S8x2x884_S8x884 : S8x2x884.Reduces [1] S8x884
  iota_S8x884_d1_w32 : S8x884.Iotas .tc 32 [1]
  broadcasts_S8x1_S8x884 : S8x1.Broadcasts S8x884
  reduces_S8x884_S8 : S8x884.Reduces [1] S8
  slices_S8x2x1024_o0_0_141_S8x2x883 : S8x2x1024.Slices ![0, 0, 141] S8x2x883
  slices_S8x2x1024_o0_0_0_S8x2x883 : S8x2x1024.Slices ![0, 0, 0] S8x2x883
  reduces_S8x2x883_S8x883 : S8x2x883.Reduces [1] S8x883
  iota_S8x883_d1_w32 : S8x883.Iotas .tc 32 [1]
  broadcasts_S8x1_S8x883 : S8x1.Broadcasts S8x883
  reduces_S8x883_S8 : S8x883.Reduces [1] S8
  slices_S8x2x1024_o0_0_142_S8x2x882 : S8x2x1024.Slices ![0, 0, 142] S8x2x882
  slices_S8x2x1024_o0_0_0_S8x2x882 : S8x2x1024.Slices ![0, 0, 0] S8x2x882
  reduces_S8x2x882_S8x882 : S8x2x882.Reduces [1] S8x882
  iota_S8x882_d1_w32 : S8x882.Iotas .tc 32 [1]
  broadcasts_S8x1_S8x882 : S8x1.Broadcasts S8x882
  reduces_S8x882_S8 : S8x882.Reduces [1] S8
  slices_S8x2x1024_o0_0_143_S8x2x881 : S8x2x1024.Slices ![0, 0, 143] S8x2x881
  slices_S8x2x1024_o0_0_0_S8x2x881 : S8x2x1024.Slices ![0, 0, 0] S8x2x881
  reduces_S8x2x881_S8x881 : S8x2x881.Reduces [1] S8x881
  iota_S8x881_d1_w32 : S8x881.Iotas .tc 32 [1]
  broadcasts_S8x1_S8x881 : S8x1.Broadcasts S8x881
  reduces_S8x881_S8 : S8x881.Reduces [1] S8
  slices_S8x2x1024_o0_0_144_S8x2x880 : S8x2x1024.Slices ![0, 0, 144] S8x2x880
  slices_S8x2x1024_o0_0_0_S8x2x880 : S8x2x1024.Slices ![0, 0, 0] S8x2x880
  reduces_S8x2x880_S8x880 : S8x2x880.Reduces [1] S8x880
  iota_S8x880_d1_w32 : S8x880.Iotas .tc 32 [1]
  broadcasts_S8x1_S8x880 : S8x1.Broadcasts S8x880
  reduces_S8x880_S8 : S8x880.Reduces [1] S8
  slices_S8x2x1024_o0_0_145_S8x2x879 : S8x2x1024.Slices ![0, 0, 145] S8x2x879
  slices_S8x2x1024_o0_0_0_S8x2x879 : S8x2x1024.Slices ![0, 0, 0] S8x2x879
  reduces_S8x2x879_S8x879 : S8x2x879.Reduces [1] S8x879
  iota_S8x879_d1_w32 : S8x879.Iotas .tc 32 [1]
  broadcasts_S8x1_S8x879 : S8x1.Broadcasts S8x879
  reduces_S8x879_S8 : S8x879.Reduces [1] S8
  slices_S8x2x1024_o0_0_146_S8x2x878 : S8x2x1024.Slices ![0, 0, 146] S8x2x878
  slices_S8x2x1024_o0_0_0_S8x2x878 : S8x2x1024.Slices ![0, 0, 0] S8x2x878
  reduces_S8x2x878_S8x878 : S8x2x878.Reduces [1] S8x878
  iota_S8x878_d1_w32 : S8x878.Iotas .tc 32 [1]
  broadcasts_S8x1_S8x878 : S8x1.Broadcasts S8x878
  reduces_S8x878_S8 : S8x878.Reduces [1] S8
  slices_S8x2x1024_o0_0_147_S8x2x877 : S8x2x1024.Slices ![0, 0, 147] S8x2x877
  slices_S8x2x1024_o0_0_0_S8x2x877 : S8x2x1024.Slices ![0, 0, 0] S8x2x877
  reduces_S8x2x877_S8x877 : S8x2x877.Reduces [1] S8x877
  iota_S8x877_d1_w32 : S8x877.Iotas .tc 32 [1]
  broadcasts_S8x1_S8x877 : S8x1.Broadcasts S8x877
  reduces_S8x877_S8 : S8x877.Reduces [1] S8
  slices_S8x2x1024_o0_0_148_S8x2x876 : S8x2x1024.Slices ![0, 0, 148] S8x2x876
  slices_S8x2x1024_o0_0_0_S8x2x876 : S8x2x1024.Slices ![0, 0, 0] S8x2x876
  reduces_S8x2x876_S8x876 : S8x2x876.Reduces [1] S8x876
  iota_S8x876_d1_w32 : S8x876.Iotas .tc 32 [1]
  broadcasts_S8x1_S8x876 : S8x1.Broadcasts S8x876
  reduces_S8x876_S8 : S8x876.Reduces [1] S8
  slices_S8x2x1024_o0_0_149_S8x2x875 : S8x2x1024.Slices ![0, 0, 149] S8x2x875
  slices_S8x2x1024_o0_0_0_S8x2x875 : S8x2x1024.Slices ![0, 0, 0] S8x2x875
  reduces_S8x2x875_S8x875 : S8x2x875.Reduces [1] S8x875
  iota_S8x875_d1_w32 : S8x875.Iotas .tc 32 [1]
  broadcasts_S8x1_S8x875 : S8x1.Broadcasts S8x875
  reduces_S8x875_S8 : S8x875.Reduces [1] S8
  slices_S8x2x1024_o0_0_150_S8x2x874 : S8x2x1024.Slices ![0, 0, 150] S8x2x874
  slices_S8x2x1024_o0_0_0_S8x2x874 : S8x2x1024.Slices ![0, 0, 0] S8x2x874
  reduces_S8x2x874_S8x874 : S8x2x874.Reduces [1] S8x874
  iota_S8x874_d1_w32 : S8x874.Iotas .tc 32 [1]
  broadcasts_S8x1_S8x874 : S8x1.Broadcasts S8x874
  reduces_S8x874_S8 : S8x874.Reduces [1] S8
  slices_S8x2x1024_o0_0_151_S8x2x873 : S8x2x1024.Slices ![0, 0, 151] S8x2x873
  slices_S8x2x1024_o0_0_0_S8x2x873 : S8x2x1024.Slices ![0, 0, 0] S8x2x873
  reduces_S8x2x873_S8x873 : S8x2x873.Reduces [1] S8x873
  iota_S8x873_d1_w32 : S8x873.Iotas .tc 32 [1]
  broadcasts_S8x1_S8x873 : S8x1.Broadcasts S8x873
  reduces_S8x873_S8 : S8x873.Reduces [1] S8
  slices_S8x2x1024_o0_0_152_S8x2x872 : S8x2x1024.Slices ![0, 0, 152] S8x2x872
  slices_S8x2x1024_o0_0_0_S8x2x872 : S8x2x1024.Slices ![0, 0, 0] S8x2x872
  reduces_S8x2x872_S8x872 : S8x2x872.Reduces [1] S8x872
  iota_S8x872_d1_w32 : S8x872.Iotas .tc 32 [1]
  broadcasts_S8x1_S8x872 : S8x1.Broadcasts S8x872
  reduces_S8x872_S8 : S8x872.Reduces [1] S8
  slices_S8x2x1024_o0_0_153_S8x2x871 : S8x2x1024.Slices ![0, 0, 153] S8x2x871
  slices_S8x2x1024_o0_0_0_S8x2x871 : S8x2x1024.Slices ![0, 0, 0] S8x2x871
  reduces_S8x2x871_S8x871 : S8x2x871.Reduces [1] S8x871
  iota_S8x871_d1_w32 : S8x871.Iotas .tc 32 [1]
  broadcasts_S8x1_S8x871 : S8x1.Broadcasts S8x871
  reduces_S8x871_S8 : S8x871.Reduces [1] S8
  slices_S8x2x1024_o0_0_154_S8x2x870 : S8x2x1024.Slices ![0, 0, 154] S8x2x870
  slices_S8x2x1024_o0_0_0_S8x2x870 : S8x2x1024.Slices ![0, 0, 0] S8x2x870
  reduces_S8x2x870_S8x870 : S8x2x870.Reduces [1] S8x870
  iota_S8x870_d1_w32 : S8x870.Iotas .tc 32 [1]
  broadcasts_S8x1_S8x870 : S8x1.Broadcasts S8x870
  reduces_S8x870_S8 : S8x870.Reduces [1] S8
  slices_S8x2x1024_o0_0_155_S8x2x869 : S8x2x1024.Slices ![0, 0, 155] S8x2x869
  slices_S8x2x1024_o0_0_0_S8x2x869 : S8x2x1024.Slices ![0, 0, 0] S8x2x869
  reduces_S8x2x869_S8x869 : S8x2x869.Reduces [1] S8x869
  iota_S8x869_d1_w32 : S8x869.Iotas .tc 32 [1]
  broadcasts_S8x1_S8x869 : S8x1.Broadcasts S8x869
  reduces_S8x869_S8 : S8x869.Reduces [1] S8
  slices_S8x2x1024_o0_0_156_S8x2x868 : S8x2x1024.Slices ![0, 0, 156] S8x2x868
  slices_S8x2x1024_o0_0_0_S8x2x868 : S8x2x1024.Slices ![0, 0, 0] S8x2x868
  reduces_S8x2x868_S8x868 : S8x2x868.Reduces [1] S8x868
  iota_S8x868_d1_w32 : S8x868.Iotas .tc 32 [1]
  broadcasts_S8x1_S8x868 : S8x1.Broadcasts S8x868
  reduces_S8x868_S8 : S8x868.Reduces [1] S8
  slices_S8x2x1024_o0_0_157_S8x2x867 : S8x2x1024.Slices ![0, 0, 157] S8x2x867
  slices_S8x2x1024_o0_0_0_S8x2x867 : S8x2x1024.Slices ![0, 0, 0] S8x2x867
  reduces_S8x2x867_S8x867 : S8x2x867.Reduces [1] S8x867
  iota_S8x867_d1_w32 : S8x867.Iotas .tc 32 [1]
  broadcasts_S8x1_S8x867 : S8x1.Broadcasts S8x867
  reduces_S8x867_S8 : S8x867.Reduces [1] S8
  slices_S8x2x1024_o0_0_158_S8x2x866 : S8x2x1024.Slices ![0, 0, 158] S8x2x866
  slices_S8x2x1024_o0_0_0_S8x2x866 : S8x2x1024.Slices ![0, 0, 0] S8x2x866
  reduces_S8x2x866_S8x866 : S8x2x866.Reduces [1] S8x866
  iota_S8x866_d1_w32 : S8x866.Iotas .tc 32 [1]
  broadcasts_S8x1_S8x866 : S8x1.Broadcasts S8x866
  reduces_S8x866_S8 : S8x866.Reduces [1] S8
  slices_S8x2x1024_o0_0_159_S8x2x865 : S8x2x1024.Slices ![0, 0, 159] S8x2x865
  slices_S8x2x1024_o0_0_0_S8x2x865 : S8x2x1024.Slices ![0, 0, 0] S8x2x865
  reduces_S8x2x865_S8x865 : S8x2x865.Reduces [1] S8x865
  iota_S8x865_d1_w32 : S8x865.Iotas .tc 32 [1]
  broadcasts_S8x1_S8x865 : S8x1.Broadcasts S8x865
  reduces_S8x865_S8 : S8x865.Reduces [1] S8
  slices_S8x2x1024_o0_0_160_S8x2x864 : S8x2x1024.Slices ![0, 0, 160] S8x2x864
  slices_S8x2x1024_o0_0_0_S8x2x864 : S8x2x1024.Slices ![0, 0, 0] S8x2x864
  reduces_S8x2x864_S8x864 : S8x2x864.Reduces [1] S8x864
  iota_S8x864_d1_w32 : S8x864.Iotas .tc 32 [1]
  broadcasts_S8x1_S8x864 : S8x1.Broadcasts S8x864
  reduces_S8x864_S8 : S8x864.Reduces [1] S8
  slices_S8x2x1024_o0_0_161_S8x2x863 : S8x2x1024.Slices ![0, 0, 161] S8x2x863
  slices_S8x2x1024_o0_0_0_S8x2x863 : S8x2x1024.Slices ![0, 0, 0] S8x2x863
  reduces_S8x2x863_S8x863 : S8x2x863.Reduces [1] S8x863
  iota_S8x863_d1_w32 : S8x863.Iotas .tc 32 [1]
  broadcasts_S8x1_S8x863 : S8x1.Broadcasts S8x863
  reduces_S8x863_S8 : S8x863.Reduces [1] S8
  slices_S8x2x1024_o0_0_162_S8x2x862 : S8x2x1024.Slices ![0, 0, 162] S8x2x862
  slices_S8x2x1024_o0_0_0_S8x2x862 : S8x2x1024.Slices ![0, 0, 0] S8x2x862
  reduces_S8x2x862_S8x862 : S8x2x862.Reduces [1] S8x862
  iota_S8x862_d1_w32 : S8x862.Iotas .tc 32 [1]
  broadcasts_S8x1_S8x862 : S8x1.Broadcasts S8x862
  reduces_S8x862_S8 : S8x862.Reduces [1] S8
  slices_S8x2x1024_o0_0_163_S8x2x861 : S8x2x1024.Slices ![0, 0, 163] S8x2x861
  slices_S8x2x1024_o0_0_0_S8x2x861 : S8x2x1024.Slices ![0, 0, 0] S8x2x861
  reduces_S8x2x861_S8x861 : S8x2x861.Reduces [1] S8x861
  iota_S8x861_d1_w32 : S8x861.Iotas .tc 32 [1]
  broadcasts_S8x1_S8x861 : S8x1.Broadcasts S8x861
  reduces_S8x861_S8 : S8x861.Reduces [1] S8
  slices_S8x2x1024_o0_0_164_S8x2x860 : S8x2x1024.Slices ![0, 0, 164] S8x2x860
  slices_S8x2x1024_o0_0_0_S8x2x860 : S8x2x1024.Slices ![0, 0, 0] S8x2x860
  reduces_S8x2x860_S8x860 : S8x2x860.Reduces [1] S8x860
  iota_S8x860_d1_w32 : S8x860.Iotas .tc 32 [1]
  broadcasts_S8x1_S8x860 : S8x1.Broadcasts S8x860
  reduces_S8x860_S8 : S8x860.Reduces [1] S8
  slices_S8x2x1024_o0_0_165_S8x2x859 : S8x2x1024.Slices ![0, 0, 165] S8x2x859
  slices_S8x2x1024_o0_0_0_S8x2x859 : S8x2x1024.Slices ![0, 0, 0] S8x2x859
  reduces_S8x2x859_S8x859 : S8x2x859.Reduces [1] S8x859
  iota_S8x859_d1_w32 : S8x859.Iotas .tc 32 [1]
  broadcasts_S8x1_S8x859 : S8x1.Broadcasts S8x859

class Shapes2.Facts₀ : Prop where
  reduces_S8x859_S8 : S8x859.Reduces [1] S8
  slices_S8x2x1024_o0_0_166_S8x2x858 : S8x2x1024.Slices ![0, 0, 166] S8x2x858
  slices_S8x2x1024_o0_0_0_S8x2x858 : S8x2x1024.Slices ![0, 0, 0] S8x2x858
  reduces_S8x2x858_S8x858 : S8x2x858.Reduces [1] S8x858
  iota_S8x858_d1_w32 : S8x858.Iotas .tc 32 [1]
  broadcasts_S8x1_S8x858 : S8x1.Broadcasts S8x858
  reduces_S8x858_S8 : S8x858.Reduces [1] S8
  slices_S8x2x1024_o0_0_167_S8x2x857 : S8x2x1024.Slices ![0, 0, 167] S8x2x857
  slices_S8x2x1024_o0_0_0_S8x2x857 : S8x2x1024.Slices ![0, 0, 0] S8x2x857
  reduces_S8x2x857_S8x857 : S8x2x857.Reduces [1] S8x857
  iota_S8x857_d1_w32 : S8x857.Iotas .tc 32 [1]
  broadcasts_S8x1_S8x857 : S8x1.Broadcasts S8x857
  reduces_S8x857_S8 : S8x857.Reduces [1] S8
  slices_S8x2x1024_o0_0_168_S8x2x856 : S8x2x1024.Slices ![0, 0, 168] S8x2x856
  slices_S8x2x1024_o0_0_0_S8x2x856 : S8x2x1024.Slices ![0, 0, 0] S8x2x856
  reduces_S8x2x856_S8x856 : S8x2x856.Reduces [1] S8x856
  iota_S8x856_d1_w32 : S8x856.Iotas .tc 32 [1]
  broadcasts_S8x1_S8x856 : S8x1.Broadcasts S8x856
  reduces_S8x856_S8 : S8x856.Reduces [1] S8
  slices_S8x2x1024_o0_0_169_S8x2x855 : S8x2x1024.Slices ![0, 0, 169] S8x2x855
  slices_S8x2x1024_o0_0_0_S8x2x855 : S8x2x1024.Slices ![0, 0, 0] S8x2x855
  reduces_S8x2x855_S8x855 : S8x2x855.Reduces [1] S8x855
  iota_S8x855_d1_w32 : S8x855.Iotas .tc 32 [1]
  broadcasts_S8x1_S8x855 : S8x1.Broadcasts S8x855
  reduces_S8x855_S8 : S8x855.Reduces [1] S8
  slices_S8x2x1024_o0_0_170_S8x2x854 : S8x2x1024.Slices ![0, 0, 170] S8x2x854
  slices_S8x2x1024_o0_0_0_S8x2x854 : S8x2x1024.Slices ![0, 0, 0] S8x2x854
  reduces_S8x2x854_S8x854 : S8x2x854.Reduces [1] S8x854
  iota_S8x854_d1_w32 : S8x854.Iotas .tc 32 [1]
  broadcasts_S8x1_S8x854 : S8x1.Broadcasts S8x854
  reduces_S8x854_S8 : S8x854.Reduces [1] S8
  slices_S8x2x1024_o0_0_171_S8x2x853 : S8x2x1024.Slices ![0, 0, 171] S8x2x853
  slices_S8x2x1024_o0_0_0_S8x2x853 : S8x2x1024.Slices ![0, 0, 0] S8x2x853
  reduces_S8x2x853_S8x853 : S8x2x853.Reduces [1] S8x853
  iota_S8x853_d1_w32 : S8x853.Iotas .tc 32 [1]
  broadcasts_S8x1_S8x853 : S8x1.Broadcasts S8x853
  reduces_S8x853_S8 : S8x853.Reduces [1] S8
  slices_S8x2x1024_o0_0_172_S8x2x852 : S8x2x1024.Slices ![0, 0, 172] S8x2x852
  slices_S8x2x1024_o0_0_0_S8x2x852 : S8x2x1024.Slices ![0, 0, 0] S8x2x852
  reduces_S8x2x852_S8x852 : S8x2x852.Reduces [1] S8x852
  iota_S8x852_d1_w32 : S8x852.Iotas .tc 32 [1]
  broadcasts_S8x1_S8x852 : S8x1.Broadcasts S8x852
  reduces_S8x852_S8 : S8x852.Reduces [1] S8
  slices_S8x2x1024_o0_0_173_S8x2x851 : S8x2x1024.Slices ![0, 0, 173] S8x2x851
  slices_S8x2x1024_o0_0_0_S8x2x851 : S8x2x1024.Slices ![0, 0, 0] S8x2x851
  reduces_S8x2x851_S8x851 : S8x2x851.Reduces [1] S8x851
  iota_S8x851_d1_w32 : S8x851.Iotas .tc 32 [1]
  broadcasts_S8x1_S8x851 : S8x1.Broadcasts S8x851
  reduces_S8x851_S8 : S8x851.Reduces [1] S8
  slices_S8x2x1024_o0_0_174_S8x2x850 : S8x2x1024.Slices ![0, 0, 174] S8x2x850
  slices_S8x2x1024_o0_0_0_S8x2x850 : S8x2x1024.Slices ![0, 0, 0] S8x2x850
  reduces_S8x2x850_S8x850 : S8x2x850.Reduces [1] S8x850
  iota_S8x850_d1_w32 : S8x850.Iotas .tc 32 [1]
  broadcasts_S8x1_S8x850 : S8x1.Broadcasts S8x850
  reduces_S8x850_S8 : S8x850.Reduces [1] S8
  slices_S8x2x1024_o0_0_175_S8x2x849 : S8x2x1024.Slices ![0, 0, 175] S8x2x849
  slices_S8x2x1024_o0_0_0_S8x2x849 : S8x2x1024.Slices ![0, 0, 0] S8x2x849
  reduces_S8x2x849_S8x849 : S8x2x849.Reduces [1] S8x849
  iota_S8x849_d1_w32 : S8x849.Iotas .tc 32 [1]
  broadcasts_S8x1_S8x849 : S8x1.Broadcasts S8x849
  reduces_S8x849_S8 : S8x849.Reduces [1] S8
  slices_S8x2x1024_o0_0_176_S8x2x848 : S8x2x1024.Slices ![0, 0, 176] S8x2x848
  slices_S8x2x1024_o0_0_0_S8x2x848 : S8x2x1024.Slices ![0, 0, 0] S8x2x848
  reduces_S8x2x848_S8x848 : S8x2x848.Reduces [1] S8x848
  iota_S8x848_d1_w32 : S8x848.Iotas .tc 32 [1]
  broadcasts_S8x1_S8x848 : S8x1.Broadcasts S8x848
  reduces_S8x848_S8 : S8x848.Reduces [1] S8
  slices_S8x2x1024_o0_0_177_S8x2x847 : S8x2x1024.Slices ![0, 0, 177] S8x2x847
  slices_S8x2x1024_o0_0_0_S8x2x847 : S8x2x1024.Slices ![0, 0, 0] S8x2x847
  reduces_S8x2x847_S8x847 : S8x2x847.Reduces [1] S8x847
  iota_S8x847_d1_w32 : S8x847.Iotas .tc 32 [1]
  broadcasts_S8x1_S8x847 : S8x1.Broadcasts S8x847
  reduces_S8x847_S8 : S8x847.Reduces [1] S8
  slices_S8x2x1024_o0_0_178_S8x2x846 : S8x2x1024.Slices ![0, 0, 178] S8x2x846
  slices_S8x2x1024_o0_0_0_S8x2x846 : S8x2x1024.Slices ![0, 0, 0] S8x2x846
  reduces_S8x2x846_S8x846 : S8x2x846.Reduces [1] S8x846
  iota_S8x846_d1_w32 : S8x846.Iotas .tc 32 [1]
  broadcasts_S8x1_S8x846 : S8x1.Broadcasts S8x846
  reduces_S8x846_S8 : S8x846.Reduces [1] S8
  slices_S8x2x1024_o0_0_179_S8x2x845 : S8x2x1024.Slices ![0, 0, 179] S8x2x845
  slices_S8x2x1024_o0_0_0_S8x2x845 : S8x2x1024.Slices ![0, 0, 0] S8x2x845
  reduces_S8x2x845_S8x845 : S8x2x845.Reduces [1] S8x845
  iota_S8x845_d1_w32 : S8x845.Iotas .tc 32 [1]
  broadcasts_S8x1_S8x845 : S8x1.Broadcasts S8x845
  reduces_S8x845_S8 : S8x845.Reduces [1] S8
  slices_S8x2x1024_o0_0_180_S8x2x844 : S8x2x1024.Slices ![0, 0, 180] S8x2x844
  slices_S8x2x1024_o0_0_0_S8x2x844 : S8x2x1024.Slices ![0, 0, 0] S8x2x844
  reduces_S8x2x844_S8x844 : S8x2x844.Reduces [1] S8x844
  iota_S8x844_d1_w32 : S8x844.Iotas .tc 32 [1]
  broadcasts_S8x1_S8x844 : S8x1.Broadcasts S8x844
  reduces_S8x844_S8 : S8x844.Reduces [1] S8
  slices_S8x2x1024_o0_0_181_S8x2x843 : S8x2x1024.Slices ![0, 0, 181] S8x2x843
  slices_S8x2x1024_o0_0_0_S8x2x843 : S8x2x1024.Slices ![0, 0, 0] S8x2x843
  reduces_S8x2x843_S8x843 : S8x2x843.Reduces [1] S8x843
  iota_S8x843_d1_w32 : S8x843.Iotas .tc 32 [1]
  broadcasts_S8x1_S8x843 : S8x1.Broadcasts S8x843
  reduces_S8x843_S8 : S8x843.Reduces [1] S8
  slices_S8x2x1024_o0_0_182_S8x2x842 : S8x2x1024.Slices ![0, 0, 182] S8x2x842
  slices_S8x2x1024_o0_0_0_S8x2x842 : S8x2x1024.Slices ![0, 0, 0] S8x2x842
  reduces_S8x2x842_S8x842 : S8x2x842.Reduces [1] S8x842
  iota_S8x842_d1_w32 : S8x842.Iotas .tc 32 [1]
  broadcasts_S8x1_S8x842 : S8x1.Broadcasts S8x842
  reduces_S8x842_S8 : S8x842.Reduces [1] S8
  slices_S8x2x1024_o0_0_183_S8x2x841 : S8x2x1024.Slices ![0, 0, 183] S8x2x841
  slices_S8x2x1024_o0_0_0_S8x2x841 : S8x2x1024.Slices ![0, 0, 0] S8x2x841
  reduces_S8x2x841_S8x841 : S8x2x841.Reduces [1] S8x841
  iota_S8x841_d1_w32 : S8x841.Iotas .tc 32 [1]
  broadcasts_S8x1_S8x841 : S8x1.Broadcasts S8x841
  reduces_S8x841_S8 : S8x841.Reduces [1] S8
  slices_S8x2x1024_o0_0_184_S8x2x840 : S8x2x1024.Slices ![0, 0, 184] S8x2x840
  slices_S8x2x1024_o0_0_0_S8x2x840 : S8x2x1024.Slices ![0, 0, 0] S8x2x840
  reduces_S8x2x840_S8x840 : S8x2x840.Reduces [1] S8x840
  iota_S8x840_d1_w32 : S8x840.Iotas .tc 32 [1]
  broadcasts_S8x1_S8x840 : S8x1.Broadcasts S8x840
  reduces_S8x840_S8 : S8x840.Reduces [1] S8
  slices_S8x2x1024_o0_0_185_S8x2x839 : S8x2x1024.Slices ![0, 0, 185] S8x2x839
  slices_S8x2x1024_o0_0_0_S8x2x839 : S8x2x1024.Slices ![0, 0, 0] S8x2x839
  reduces_S8x2x839_S8x839 : S8x2x839.Reduces [1] S8x839
  iota_S8x839_d1_w32 : S8x839.Iotas .tc 32 [1]
  broadcasts_S8x1_S8x839 : S8x1.Broadcasts S8x839
  reduces_S8x839_S8 : S8x839.Reduces [1] S8
  slices_S8x2x1024_o0_0_186_S8x2x838 : S8x2x1024.Slices ![0, 0, 186] S8x2x838
  slices_S8x2x1024_o0_0_0_S8x2x838 : S8x2x1024.Slices ![0, 0, 0] S8x2x838
  reduces_S8x2x838_S8x838 : S8x2x838.Reduces [1] S8x838
  iota_S8x838_d1_w32 : S8x838.Iotas .tc 32 [1]
  broadcasts_S8x1_S8x838 : S8x1.Broadcasts S8x838
  reduces_S8x838_S8 : S8x838.Reduces [1] S8
  slices_S8x2x1024_o0_0_187_S8x2x837 : S8x2x1024.Slices ![0, 0, 187] S8x2x837
  slices_S8x2x1024_o0_0_0_S8x2x837 : S8x2x1024.Slices ![0, 0, 0] S8x2x837
  reduces_S8x2x837_S8x837 : S8x2x837.Reduces [1] S8x837
  iota_S8x837_d1_w32 : S8x837.Iotas .tc 32 [1]
  broadcasts_S8x1_S8x837 : S8x1.Broadcasts S8x837
  reduces_S8x837_S8 : S8x837.Reduces [1] S8
  slices_S8x2x1024_o0_0_188_S8x2x836 : S8x2x1024.Slices ![0, 0, 188] S8x2x836
  slices_S8x2x1024_o0_0_0_S8x2x836 : S8x2x1024.Slices ![0, 0, 0] S8x2x836
  reduces_S8x2x836_S8x836 : S8x2x836.Reduces [1] S8x836
  iota_S8x836_d1_w32 : S8x836.Iotas .tc 32 [1]
  broadcasts_S8x1_S8x836 : S8x1.Broadcasts S8x836
  reduces_S8x836_S8 : S8x836.Reduces [1] S8
  slices_S8x2x1024_o0_0_189_S8x2x835 : S8x2x1024.Slices ![0, 0, 189] S8x2x835
  slices_S8x2x1024_o0_0_0_S8x2x835 : S8x2x1024.Slices ![0, 0, 0] S8x2x835
  reduces_S8x2x835_S8x835 : S8x2x835.Reduces [1] S8x835
  iota_S8x835_d1_w32 : S8x835.Iotas .tc 32 [1]
  broadcasts_S8x1_S8x835 : S8x1.Broadcasts S8x835
  reduces_S8x835_S8 : S8x835.Reduces [1] S8
  slices_S8x2x1024_o0_0_190_S8x2x834 : S8x2x1024.Slices ![0, 0, 190] S8x2x834
  slices_S8x2x1024_o0_0_0_S8x2x834 : S8x2x1024.Slices ![0, 0, 0] S8x2x834
  reduces_S8x2x834_S8x834 : S8x2x834.Reduces [1] S8x834
  iota_S8x834_d1_w32 : S8x834.Iotas .tc 32 [1]
  broadcasts_S8x1_S8x834 : S8x1.Broadcasts S8x834
  reduces_S8x834_S8 : S8x834.Reduces [1] S8
  slices_S8x2x1024_o0_0_191_S8x2x833 : S8x2x1024.Slices ![0, 0, 191] S8x2x833
  slices_S8x2x1024_o0_0_0_S8x2x833 : S8x2x1024.Slices ![0, 0, 0] S8x2x833
  reduces_S8x2x833_S8x833 : S8x2x833.Reduces [1] S8x833
  iota_S8x833_d1_w32 : S8x833.Iotas .tc 32 [1]
  broadcasts_S8x1_S8x833 : S8x1.Broadcasts S8x833
  reduces_S8x833_S8 : S8x833.Reduces [1] S8
  slices_S8x2x1024_o0_0_192_S8x2x832 : S8x2x1024.Slices ![0, 0, 192] S8x2x832
  slices_S8x2x1024_o0_0_0_S8x2x832 : S8x2x1024.Slices ![0, 0, 0] S8x2x832
  reduces_S8x2x832_S8x832 : S8x2x832.Reduces [1] S8x832
  iota_S8x832_d1_w32 : S8x832.Iotas .tc 32 [1]
  broadcasts_S8x1_S8x832 : S8x1.Broadcasts S8x832
  reduces_S8x832_S8 : S8x832.Reduces [1] S8
  slices_S8x2x1024_o0_0_193_S8x2x831 : S8x2x1024.Slices ![0, 0, 193] S8x2x831
  slices_S8x2x1024_o0_0_0_S8x2x831 : S8x2x1024.Slices ![0, 0, 0] S8x2x831
  reduces_S8x2x831_S8x831 : S8x2x831.Reduces [1] S8x831
  iota_S8x831_d1_w32 : S8x831.Iotas .tc 32 [1]
  broadcasts_S8x1_S8x831 : S8x1.Broadcasts S8x831
  reduces_S8x831_S8 : S8x831.Reduces [1] S8
  slices_S8x2x1024_o0_0_194_S8x2x830 : S8x2x1024.Slices ![0, 0, 194] S8x2x830
  slices_S8x2x1024_o0_0_0_S8x2x830 : S8x2x1024.Slices ![0, 0, 0] S8x2x830
  reduces_S8x2x830_S8x830 : S8x2x830.Reduces [1] S8x830
  iota_S8x830_d1_w32 : S8x830.Iotas .tc 32 [1]
  broadcasts_S8x1_S8x830 : S8x1.Broadcasts S8x830
  reduces_S8x830_S8 : S8x830.Reduces [1] S8
  slices_S8x2x1024_o0_0_195_S8x2x829 : S8x2x1024.Slices ![0, 0, 195] S8x2x829
  slices_S8x2x1024_o0_0_0_S8x2x829 : S8x2x1024.Slices ![0, 0, 0] S8x2x829
  reduces_S8x2x829_S8x829 : S8x2x829.Reduces [1] S8x829
  iota_S8x829_d1_w32 : S8x829.Iotas .tc 32 [1]
  broadcasts_S8x1_S8x829 : S8x1.Broadcasts S8x829
  reduces_S8x829_S8 : S8x829.Reduces [1] S8
  slices_S8x2x1024_o0_0_196_S8x2x828 : S8x2x1024.Slices ![0, 0, 196] S8x2x828
  slices_S8x2x1024_o0_0_0_S8x2x828 : S8x2x1024.Slices ![0, 0, 0] S8x2x828
  reduces_S8x2x828_S8x828 : S8x2x828.Reduces [1] S8x828
  iota_S8x828_d1_w32 : S8x828.Iotas .tc 32 [1]
  broadcasts_S8x1_S8x828 : S8x1.Broadcasts S8x828
  reduces_S8x828_S8 : S8x828.Reduces [1] S8
  slices_S8x2x1024_o0_0_197_S8x2x827 : S8x2x1024.Slices ![0, 0, 197] S8x2x827
  slices_S8x2x1024_o0_0_0_S8x2x827 : S8x2x1024.Slices ![0, 0, 0] S8x2x827
  reduces_S8x2x827_S8x827 : S8x2x827.Reduces [1] S8x827
  iota_S8x827_d1_w32 : S8x827.Iotas .tc 32 [1]
  broadcasts_S8x1_S8x827 : S8x1.Broadcasts S8x827
  reduces_S8x827_S8 : S8x827.Reduces [1] S8
  slices_S8x2x1024_o0_0_198_S8x2x826 : S8x2x1024.Slices ![0, 0, 198] S8x2x826
  slices_S8x2x1024_o0_0_0_S8x2x826 : S8x2x1024.Slices ![0, 0, 0] S8x2x826
  reduces_S8x2x826_S8x826 : S8x2x826.Reduces [1] S8x826
  iota_S8x826_d1_w32 : S8x826.Iotas .tc 32 [1]
  broadcasts_S8x1_S8x826 : S8x1.Broadcasts S8x826
  reduces_S8x826_S8 : S8x826.Reduces [1] S8
  slices_S8x2x1024_o0_0_199_S8x2x825 : S8x2x1024.Slices ![0, 0, 199] S8x2x825
  slices_S8x2x1024_o0_0_0_S8x2x825 : S8x2x1024.Slices ![0, 0, 0] S8x2x825
  reduces_S8x2x825_S8x825 : S8x2x825.Reduces [1] S8x825
  iota_S8x825_d1_w32 : S8x825.Iotas .tc 32 [1]
  broadcasts_S8x1_S8x825 : S8x1.Broadcasts S8x825
  reduces_S8x825_S8 : S8x825.Reduces [1] S8
  slices_S8x2x1024_o0_0_200_S8x2x824 : S8x2x1024.Slices ![0, 0, 200] S8x2x824
  slices_S8x2x1024_o0_0_0_S8x2x824 : S8x2x1024.Slices ![0, 0, 0] S8x2x824
  reduces_S8x2x824_S8x824 : S8x2x824.Reduces [1] S8x824
  iota_S8x824_d1_w32 : S8x824.Iotas .tc 32 [1]
  broadcasts_S8x1_S8x824 : S8x1.Broadcasts S8x824
  reduces_S8x824_S8 : S8x824.Reduces [1] S8
  slices_S8x2x1024_o0_0_201_S8x2x823 : S8x2x1024.Slices ![0, 0, 201] S8x2x823
  slices_S8x2x1024_o0_0_0_S8x2x823 : S8x2x1024.Slices ![0, 0, 0] S8x2x823
  reduces_S8x2x823_S8x823 : S8x2x823.Reduces [1] S8x823
  iota_S8x823_d1_w32 : S8x823.Iotas .tc 32 [1]
  broadcasts_S8x1_S8x823 : S8x1.Broadcasts S8x823
  reduces_S8x823_S8 : S8x823.Reduces [1] S8
  slices_S8x2x1024_o0_0_202_S8x2x822 : S8x2x1024.Slices ![0, 0, 202] S8x2x822
  slices_S8x2x1024_o0_0_0_S8x2x822 : S8x2x1024.Slices ![0, 0, 0] S8x2x822
  reduces_S8x2x822_S8x822 : S8x2x822.Reduces [1] S8x822
  iota_S8x822_d1_w32 : S8x822.Iotas .tc 32 [1]
  broadcasts_S8x1_S8x822 : S8x1.Broadcasts S8x822
  reduces_S8x822_S8 : S8x822.Reduces [1] S8
  slices_S8x2x1024_o0_0_203_S8x2x821 : S8x2x1024.Slices ![0, 0, 203] S8x2x821
  slices_S8x2x1024_o0_0_0_S8x2x821 : S8x2x1024.Slices ![0, 0, 0] S8x2x821
  reduces_S8x2x821_S8x821 : S8x2x821.Reduces [1] S8x821
  iota_S8x821_d1_w32 : S8x821.Iotas .tc 32 [1]
  broadcasts_S8x1_S8x821 : S8x1.Broadcasts S8x821
  reduces_S8x821_S8 : S8x821.Reduces [1] S8
  slices_S8x2x1024_o0_0_204_S8x2x820 : S8x2x1024.Slices ![0, 0, 204] S8x2x820
  slices_S8x2x1024_o0_0_0_S8x2x820 : S8x2x1024.Slices ![0, 0, 0] S8x2x820
  reduces_S8x2x820_S8x820 : S8x2x820.Reduces [1] S8x820
  iota_S8x820_d1_w32 : S8x820.Iotas .tc 32 [1]
  broadcasts_S8x1_S8x820 : S8x1.Broadcasts S8x820
  reduces_S8x820_S8 : S8x820.Reduces [1] S8
  slices_S8x2x1024_o0_0_205_S8x2x819 : S8x2x1024.Slices ![0, 0, 205] S8x2x819
  slices_S8x2x1024_o0_0_0_S8x2x819 : S8x2x1024.Slices ![0, 0, 0] S8x2x819
  reduces_S8x2x819_S8x819 : S8x2x819.Reduces [1] S8x819
  iota_S8x819_d1_w32 : S8x819.Iotas .tc 32 [1]
  broadcasts_S8x1_S8x819 : S8x1.Broadcasts S8x819
  reduces_S8x819_S8 : S8x819.Reduces [1] S8
  slices_S8x2x1024_o0_0_206_S8x2x818 : S8x2x1024.Slices ![0, 0, 206] S8x2x818
  slices_S8x2x1024_o0_0_0_S8x2x818 : S8x2x1024.Slices ![0, 0, 0] S8x2x818
  reduces_S8x2x818_S8x818 : S8x2x818.Reduces [1] S8x818
  iota_S8x818_d1_w32 : S8x818.Iotas .tc 32 [1]
  broadcasts_S8x1_S8x818 : S8x1.Broadcasts S8x818
  reduces_S8x818_S8 : S8x818.Reduces [1] S8
  slices_S8x2x1024_o0_0_207_S8x2x817 : S8x2x1024.Slices ![0, 0, 207] S8x2x817
  slices_S8x2x1024_o0_0_0_S8x2x817 : S8x2x1024.Slices ![0, 0, 0] S8x2x817
  reduces_S8x2x817_S8x817 : S8x2x817.Reduces [1] S8x817
  iota_S8x817_d1_w32 : S8x817.Iotas .tc 32 [1]
  broadcasts_S8x1_S8x817 : S8x1.Broadcasts S8x817
  reduces_S8x817_S8 : S8x817.Reduces [1] S8
  slices_S8x2x1024_o0_0_208_S8x2x816 : S8x2x1024.Slices ![0, 0, 208] S8x2x816
  slices_S8x2x1024_o0_0_0_S8x2x816 : S8x2x1024.Slices ![0, 0, 0] S8x2x816
  reduces_S8x2x816_S8x816 : S8x2x816.Reduces [1] S8x816
  iota_S8x816_d1_w32 : S8x816.Iotas .tc 32 [1]
  broadcasts_S8x1_S8x816 : S8x1.Broadcasts S8x816
  reduces_S8x816_S8 : S8x816.Reduces [1] S8
  slices_S8x2x1024_o0_0_209_S8x2x815 : S8x2x1024.Slices ![0, 0, 209] S8x2x815
  slices_S8x2x1024_o0_0_0_S8x2x815 : S8x2x1024.Slices ![0, 0, 0] S8x2x815
  reduces_S8x2x815_S8x815 : S8x2x815.Reduces [1] S8x815
  iota_S8x815_d1_w32 : S8x815.Iotas .tc 32 [1]
  broadcasts_S8x1_S8x815 : S8x1.Broadcasts S8x815
  reduces_S8x815_S8 : S8x815.Reduces [1] S8
  slices_S8x2x1024_o0_0_210_S8x2x814 : S8x2x1024.Slices ![0, 0, 210] S8x2x814
  slices_S8x2x1024_o0_0_0_S8x2x814 : S8x2x1024.Slices ![0, 0, 0] S8x2x814
  reduces_S8x2x814_S8x814 : S8x2x814.Reduces [1] S8x814
  iota_S8x814_d1_w32 : S8x814.Iotas .tc 32 [1]
  broadcasts_S8x1_S8x814 : S8x1.Broadcasts S8x814
  reduces_S8x814_S8 : S8x814.Reduces [1] S8
  slices_S8x2x1024_o0_0_211_S8x2x813 : S8x2x1024.Slices ![0, 0, 211] S8x2x813
  slices_S8x2x1024_o0_0_0_S8x2x813 : S8x2x1024.Slices ![0, 0, 0] S8x2x813
  reduces_S8x2x813_S8x813 : S8x2x813.Reduces [1] S8x813
  iota_S8x813_d1_w32 : S8x813.Iotas .tc 32 [1]
  broadcasts_S8x1_S8x813 : S8x1.Broadcasts S8x813
  reduces_S8x813_S8 : S8x813.Reduces [1] S8
  slices_S8x2x1024_o0_0_212_S8x2x812 : S8x2x1024.Slices ![0, 0, 212] S8x2x812
  slices_S8x2x1024_o0_0_0_S8x2x812 : S8x2x1024.Slices ![0, 0, 0] S8x2x812
  reduces_S8x2x812_S8x812 : S8x2x812.Reduces [1] S8x812
  iota_S8x812_d1_w32 : S8x812.Iotas .tc 32 [1]
  broadcasts_S8x1_S8x812 : S8x1.Broadcasts S8x812
  reduces_S8x812_S8 : S8x812.Reduces [1] S8
  slices_S8x2x1024_o0_0_213_S8x2x811 : S8x2x1024.Slices ![0, 0, 213] S8x2x811
  slices_S8x2x1024_o0_0_0_S8x2x811 : S8x2x1024.Slices ![0, 0, 0] S8x2x811
  reduces_S8x2x811_S8x811 : S8x2x811.Reduces [1] S8x811
  iota_S8x811_d1_w32 : S8x811.Iotas .tc 32 [1]
  broadcasts_S8x1_S8x811 : S8x1.Broadcasts S8x811
  reduces_S8x811_S8 : S8x811.Reduces [1] S8
  slices_S8x2x1024_o0_0_214_S8x2x810 : S8x2x1024.Slices ![0, 0, 214] S8x2x810
  slices_S8x2x1024_o0_0_0_S8x2x810 : S8x2x1024.Slices ![0, 0, 0] S8x2x810
  reduces_S8x2x810_S8x810 : S8x2x810.Reduces [1] S8x810
  iota_S8x810_d1_w32 : S8x810.Iotas .tc 32 [1]
  broadcasts_S8x1_S8x810 : S8x1.Broadcasts S8x810
  reduces_S8x810_S8 : S8x810.Reduces [1] S8
  slices_S8x2x1024_o0_0_215_S8x2x809 : S8x2x1024.Slices ![0, 0, 215] S8x2x809
  slices_S8x2x1024_o0_0_0_S8x2x809 : S8x2x1024.Slices ![0, 0, 0] S8x2x809
  reduces_S8x2x809_S8x809 : S8x2x809.Reduces [1] S8x809
  iota_S8x809_d1_w32 : S8x809.Iotas .tc 32 [1]
  broadcasts_S8x1_S8x809 : S8x1.Broadcasts S8x809
  reduces_S8x809_S8 : S8x809.Reduces [1] S8
  slices_S8x2x1024_o0_0_216_S8x2x808 : S8x2x1024.Slices ![0, 0, 216] S8x2x808
  slices_S8x2x1024_o0_0_0_S8x2x808 : S8x2x1024.Slices ![0, 0, 0] S8x2x808
  reduces_S8x2x808_S8x808 : S8x2x808.Reduces [1] S8x808
  iota_S8x808_d1_w32 : S8x808.Iotas .tc 32 [1]
  broadcasts_S8x1_S8x808 : S8x1.Broadcasts S8x808
  reduces_S8x808_S8 : S8x808.Reduces [1] S8
  slices_S8x2x1024_o0_0_217_S8x2x807 : S8x2x1024.Slices ![0, 0, 217] S8x2x807
  slices_S8x2x1024_o0_0_0_S8x2x807 : S8x2x1024.Slices ![0, 0, 0] S8x2x807
  reduces_S8x2x807_S8x807 : S8x2x807.Reduces [1] S8x807
  iota_S8x807_d1_w32 : S8x807.Iotas .tc 32 [1]
  broadcasts_S8x1_S8x807 : S8x1.Broadcasts S8x807
  reduces_S8x807_S8 : S8x807.Reduces [1] S8
  slices_S8x2x1024_o0_0_218_S8x2x806 : S8x2x1024.Slices ![0, 0, 218] S8x2x806
  slices_S8x2x1024_o0_0_0_S8x2x806 : S8x2x1024.Slices ![0, 0, 0] S8x2x806
  reduces_S8x2x806_S8x806 : S8x2x806.Reduces [1] S8x806
  iota_S8x806_d1_w32 : S8x806.Iotas .tc 32 [1]
  broadcasts_S8x1_S8x806 : S8x1.Broadcasts S8x806
  reduces_S8x806_S8 : S8x806.Reduces [1] S8
  slices_S8x2x1024_o0_0_219_S8x2x805 : S8x2x1024.Slices ![0, 0, 219] S8x2x805
  slices_S8x2x1024_o0_0_0_S8x2x805 : S8x2x1024.Slices ![0, 0, 0] S8x2x805
  reduces_S8x2x805_S8x805 : S8x2x805.Reduces [1] S8x805
  iota_S8x805_d1_w32 : S8x805.Iotas .tc 32 [1]
  broadcasts_S8x1_S8x805 : S8x1.Broadcasts S8x805
  reduces_S8x805_S8 : S8x805.Reduces [1] S8
  slices_S8x2x1024_o0_0_220_S8x2x804 : S8x2x1024.Slices ![0, 0, 220] S8x2x804
  slices_S8x2x1024_o0_0_0_S8x2x804 : S8x2x1024.Slices ![0, 0, 0] S8x2x804
  reduces_S8x2x804_S8x804 : S8x2x804.Reduces [1] S8x804
  iota_S8x804_d1_w32 : S8x804.Iotas .tc 32 [1]
  broadcasts_S8x1_S8x804 : S8x1.Broadcasts S8x804
  reduces_S8x804_S8 : S8x804.Reduces [1] S8
  slices_S8x2x1024_o0_0_221_S8x2x803 : S8x2x1024.Slices ![0, 0, 221] S8x2x803
  slices_S8x2x1024_o0_0_0_S8x2x803 : S8x2x1024.Slices ![0, 0, 0] S8x2x803
  reduces_S8x2x803_S8x803 : S8x2x803.Reduces [1] S8x803
  iota_S8x803_d1_w32 : S8x803.Iotas .tc 32 [1]
  broadcasts_S8x1_S8x803 : S8x1.Broadcasts S8x803
  reduces_S8x803_S8 : S8x803.Reduces [1] S8
  slices_S8x2x1024_o0_0_222_S8x2x802 : S8x2x1024.Slices ![0, 0, 222] S8x2x802
  slices_S8x2x1024_o0_0_0_S8x2x802 : S8x2x1024.Slices ![0, 0, 0] S8x2x802
  reduces_S8x2x802_S8x802 : S8x2x802.Reduces [1] S8x802
  iota_S8x802_d1_w32 : S8x802.Iotas .tc 32 [1]
  broadcasts_S8x1_S8x802 : S8x1.Broadcasts S8x802
  reduces_S8x802_S8 : S8x802.Reduces [1] S8
  slices_S8x2x1024_o0_0_223_S8x2x801 : S8x2x1024.Slices ![0, 0, 223] S8x2x801
  slices_S8x2x1024_o0_0_0_S8x2x801 : S8x2x1024.Slices ![0, 0, 0] S8x2x801
  reduces_S8x2x801_S8x801 : S8x2x801.Reduces [1] S8x801
  iota_S8x801_d1_w32 : S8x801.Iotas .tc 32 [1]
  broadcasts_S8x1_S8x801 : S8x1.Broadcasts S8x801
  reduces_S8x801_S8 : S8x801.Reduces [1] S8
  slices_S8x2x1024_o0_0_224_S8x2x800 : S8x2x1024.Slices ![0, 0, 224] S8x2x800
  slices_S8x2x1024_o0_0_0_S8x2x800 : S8x2x1024.Slices ![0, 0, 0] S8x2x800
  reduces_S8x2x800_S8x800 : S8x2x800.Reduces [1] S8x800
  iota_S8x800_d1_w32 : S8x800.Iotas .tc 32 [1]
  broadcasts_S8x1_S8x800 : S8x1.Broadcasts S8x800
  reduces_S8x800_S8 : S8x800.Reduces [1] S8
  slices_S8x2x1024_o0_0_225_S8x2x799 : S8x2x1024.Slices ![0, 0, 225] S8x2x799
  slices_S8x2x1024_o0_0_0_S8x2x799 : S8x2x1024.Slices ![0, 0, 0] S8x2x799
  reduces_S8x2x799_S8x799 : S8x2x799.Reduces [1] S8x799
  iota_S8x799_d1_w32 : S8x799.Iotas .tc 32 [1]
  broadcasts_S8x1_S8x799 : S8x1.Broadcasts S8x799
  reduces_S8x799_S8 : S8x799.Reduces [1] S8
  slices_S8x2x1024_o0_0_226_S8x2x798 : S8x2x1024.Slices ![0, 0, 226] S8x2x798
  slices_S8x2x1024_o0_0_0_S8x2x798 : S8x2x1024.Slices ![0, 0, 0] S8x2x798
  reduces_S8x2x798_S8x798 : S8x2x798.Reduces [1] S8x798
  iota_S8x798_d1_w32 : S8x798.Iotas .tc 32 [1]
  broadcasts_S8x1_S8x798 : S8x1.Broadcasts S8x798
  reduces_S8x798_S8 : S8x798.Reduces [1] S8
  slices_S8x2x1024_o0_0_227_S8x2x797 : S8x2x1024.Slices ![0, 0, 227] S8x2x797
  slices_S8x2x1024_o0_0_0_S8x2x797 : S8x2x1024.Slices ![0, 0, 0] S8x2x797
  reduces_S8x2x797_S8x797 : S8x2x797.Reduces [1] S8x797
  iota_S8x797_d1_w32 : S8x797.Iotas .tc 32 [1]
  broadcasts_S8x1_S8x797 : S8x1.Broadcasts S8x797
  reduces_S8x797_S8 : S8x797.Reduces [1] S8
  slices_S8x2x1024_o0_0_228_S8x2x796 : S8x2x1024.Slices ![0, 0, 228] S8x2x796
  slices_S8x2x1024_o0_0_0_S8x2x796 : S8x2x1024.Slices ![0, 0, 0] S8x2x796
  reduces_S8x2x796_S8x796 : S8x2x796.Reduces [1] S8x796
  iota_S8x796_d1_w32 : S8x796.Iotas .tc 32 [1]
  broadcasts_S8x1_S8x796 : S8x1.Broadcasts S8x796
  reduces_S8x796_S8 : S8x796.Reduces [1] S8
  slices_S8x2x1024_o0_0_229_S8x2x795 : S8x2x1024.Slices ![0, 0, 229] S8x2x795
  slices_S8x2x1024_o0_0_0_S8x2x795 : S8x2x1024.Slices ![0, 0, 0] S8x2x795
  reduces_S8x2x795_S8x795 : S8x2x795.Reduces [1] S8x795
  iota_S8x795_d1_w32 : S8x795.Iotas .tc 32 [1]
  broadcasts_S8x1_S8x795 : S8x1.Broadcasts S8x795
  reduces_S8x795_S8 : S8x795.Reduces [1] S8
  slices_S8x2x1024_o0_0_230_S8x2x794 : S8x2x1024.Slices ![0, 0, 230] S8x2x794
  slices_S8x2x1024_o0_0_0_S8x2x794 : S8x2x1024.Slices ![0, 0, 0] S8x2x794
  reduces_S8x2x794_S8x794 : S8x2x794.Reduces [1] S8x794
  iota_S8x794_d1_w32 : S8x794.Iotas .tc 32 [1]
  broadcasts_S8x1_S8x794 : S8x1.Broadcasts S8x794
  reduces_S8x794_S8 : S8x794.Reduces [1] S8
  slices_S8x2x1024_o0_0_231_S8x2x793 : S8x2x1024.Slices ![0, 0, 231] S8x2x793
  slices_S8x2x1024_o0_0_0_S8x2x793 : S8x2x1024.Slices ![0, 0, 0] S8x2x793
  reduces_S8x2x793_S8x793 : S8x2x793.Reduces [1] S8x793
  iota_S8x793_d1_w32 : S8x793.Iotas .tc 32 [1]
  broadcasts_S8x1_S8x793 : S8x1.Broadcasts S8x793
  reduces_S8x793_S8 : S8x793.Reduces [1] S8
  slices_S8x2x1024_o0_0_232_S8x2x792 : S8x2x1024.Slices ![0, 0, 232] S8x2x792
  slices_S8x2x1024_o0_0_0_S8x2x792 : S8x2x1024.Slices ![0, 0, 0] S8x2x792
  reduces_S8x2x792_S8x792 : S8x2x792.Reduces [1] S8x792
  iota_S8x792_d1_w32 : S8x792.Iotas .tc 32 [1]
  broadcasts_S8x1_S8x792 : S8x1.Broadcasts S8x792
  reduces_S8x792_S8 : S8x792.Reduces [1] S8
  slices_S8x2x1024_o0_0_233_S8x2x791 : S8x2x1024.Slices ![0, 0, 233] S8x2x791
  slices_S8x2x1024_o0_0_0_S8x2x791 : S8x2x1024.Slices ![0, 0, 0] S8x2x791
  reduces_S8x2x791_S8x791 : S8x2x791.Reduces [1] S8x791
  iota_S8x791_d1_w32 : S8x791.Iotas .tc 32 [1]
  broadcasts_S8x1_S8x791 : S8x1.Broadcasts S8x791
  reduces_S8x791_S8 : S8x791.Reduces [1] S8
  slices_S8x2x1024_o0_0_234_S8x2x790 : S8x2x1024.Slices ![0, 0, 234] S8x2x790
  slices_S8x2x1024_o0_0_0_S8x2x790 : S8x2x1024.Slices ![0, 0, 0] S8x2x790
  reduces_S8x2x790_S8x790 : S8x2x790.Reduces [1] S8x790
  iota_S8x790_d1_w32 : S8x790.Iotas .tc 32 [1]
  broadcasts_S8x1_S8x790 : S8x1.Broadcasts S8x790
  reduces_S8x790_S8 : S8x790.Reduces [1] S8
  slices_S8x2x1024_o0_0_235_S8x2x789 : S8x2x1024.Slices ![0, 0, 235] S8x2x789
  slices_S8x2x1024_o0_0_0_S8x2x789 : S8x2x1024.Slices ![0, 0, 0] S8x2x789
  reduces_S8x2x789_S8x789 : S8x2x789.Reduces [1] S8x789
  iota_S8x789_d1_w32 : S8x789.Iotas .tc 32 [1]
  broadcasts_S8x1_S8x789 : S8x1.Broadcasts S8x789
  reduces_S8x789_S8 : S8x789.Reduces [1] S8
  slices_S8x2x1024_o0_0_236_S8x2x788 : S8x2x1024.Slices ![0, 0, 236] S8x2x788
  slices_S8x2x1024_o0_0_0_S8x2x788 : S8x2x1024.Slices ![0, 0, 0] S8x2x788
  reduces_S8x2x788_S8x788 : S8x2x788.Reduces [1] S8x788
  iota_S8x788_d1_w32 : S8x788.Iotas .tc 32 [1]
  broadcasts_S8x1_S8x788 : S8x1.Broadcasts S8x788
  reduces_S8x788_S8 : S8x788.Reduces [1] S8
  slices_S8x2x1024_o0_0_237_S8x2x787 : S8x2x1024.Slices ![0, 0, 237] S8x2x787
  slices_S8x2x1024_o0_0_0_S8x2x787 : S8x2x1024.Slices ![0, 0, 0] S8x2x787
  reduces_S8x2x787_S8x787 : S8x2x787.Reduces [1] S8x787
  iota_S8x787_d1_w32 : S8x787.Iotas .tc 32 [1]
  broadcasts_S8x1_S8x787 : S8x1.Broadcasts S8x787
  reduces_S8x787_S8 : S8x787.Reduces [1] S8
  slices_S8x2x1024_o0_0_238_S8x2x786 : S8x2x1024.Slices ![0, 0, 238] S8x2x786
  slices_S8x2x1024_o0_0_0_S8x2x786 : S8x2x1024.Slices ![0, 0, 0] S8x2x786
  reduces_S8x2x786_S8x786 : S8x2x786.Reduces [1] S8x786
  iota_S8x786_d1_w32 : S8x786.Iotas .tc 32 [1]
  broadcasts_S8x1_S8x786 : S8x1.Broadcasts S8x786
  reduces_S8x786_S8 : S8x786.Reduces [1] S8
  slices_S8x2x1024_o0_0_239_S8x2x785 : S8x2x1024.Slices ![0, 0, 239] S8x2x785
  slices_S8x2x1024_o0_0_0_S8x2x785 : S8x2x1024.Slices ![0, 0, 0] S8x2x785
  reduces_S8x2x785_S8x785 : S8x2x785.Reduces [1] S8x785
  iota_S8x785_d1_w32 : S8x785.Iotas .tc 32 [1]
  broadcasts_S8x1_S8x785 : S8x1.Broadcasts S8x785
  reduces_S8x785_S8 : S8x785.Reduces [1] S8
  slices_S8x2x1024_o0_0_240_S8x2x784 : S8x2x1024.Slices ![0, 0, 240] S8x2x784
  slices_S8x2x1024_o0_0_0_S8x2x784 : S8x2x1024.Slices ![0, 0, 0] S8x2x784
  reduces_S8x2x784_S8x784 : S8x2x784.Reduces [1] S8x784
  iota_S8x784_d1_w32 : S8x784.Iotas .tc 32 [1]
  broadcasts_S8x1_S8x784 : S8x1.Broadcasts S8x784
  reduces_S8x784_S8 : S8x784.Reduces [1] S8
  slices_S8x2x1024_o0_0_241_S8x2x783 : S8x2x1024.Slices ![0, 0, 241] S8x2x783
  slices_S8x2x1024_o0_0_0_S8x2x783 : S8x2x1024.Slices ![0, 0, 0] S8x2x783
  reduces_S8x2x783_S8x783 : S8x2x783.Reduces [1] S8x783
  iota_S8x783_d1_w32 : S8x783.Iotas .tc 32 [1]
  broadcasts_S8x1_S8x783 : S8x1.Broadcasts S8x783
  reduces_S8x783_S8 : S8x783.Reduces [1] S8
  slices_S8x2x1024_o0_0_242_S8x2x782 : S8x2x1024.Slices ![0, 0, 242] S8x2x782
  slices_S8x2x1024_o0_0_0_S8x2x782 : S8x2x1024.Slices ![0, 0, 0] S8x2x782
  reduces_S8x2x782_S8x782 : S8x2x782.Reduces [1] S8x782
  iota_S8x782_d1_w32 : S8x782.Iotas .tc 32 [1]
  broadcasts_S8x1_S8x782 : S8x1.Broadcasts S8x782
  reduces_S8x782_S8 : S8x782.Reduces [1] S8
  slices_S8x2x1024_o0_0_243_S8x2x781 : S8x2x1024.Slices ![0, 0, 243] S8x2x781
  slices_S8x2x1024_o0_0_0_S8x2x781 : S8x2x1024.Slices ![0, 0, 0] S8x2x781
  reduces_S8x2x781_S8x781 : S8x2x781.Reduces [1] S8x781
  iota_S8x781_d1_w32 : S8x781.Iotas .tc 32 [1]
  broadcasts_S8x1_S8x781 : S8x1.Broadcasts S8x781
  reduces_S8x781_S8 : S8x781.Reduces [1] S8
  slices_S8x2x1024_o0_0_244_S8x2x780 : S8x2x1024.Slices ![0, 0, 244] S8x2x780
  slices_S8x2x1024_o0_0_0_S8x2x780 : S8x2x1024.Slices ![0, 0, 0] S8x2x780
  reduces_S8x2x780_S8x780 : S8x2x780.Reduces [1] S8x780
  iota_S8x780_d1_w32 : S8x780.Iotas .tc 32 [1]
  broadcasts_S8x1_S8x780 : S8x1.Broadcasts S8x780
  reduces_S8x780_S8 : S8x780.Reduces [1] S8
  slices_S8x2x1024_o0_0_245_S8x2x779 : S8x2x1024.Slices ![0, 0, 245] S8x2x779
  slices_S8x2x1024_o0_0_0_S8x2x779 : S8x2x1024.Slices ![0, 0, 0] S8x2x779
  reduces_S8x2x779_S8x779 : S8x2x779.Reduces [1] S8x779
  iota_S8x779_d1_w32 : S8x779.Iotas .tc 32 [1]
  broadcasts_S8x1_S8x779 : S8x1.Broadcasts S8x779
  reduces_S8x779_S8 : S8x779.Reduces [1] S8
  slices_S8x2x1024_o0_0_246_S8x2x778 : S8x2x1024.Slices ![0, 0, 246] S8x2x778
  slices_S8x2x1024_o0_0_0_S8x2x778 : S8x2x1024.Slices ![0, 0, 0] S8x2x778
  reduces_S8x2x778_S8x778 : S8x2x778.Reduces [1] S8x778
  iota_S8x778_d1_w32 : S8x778.Iotas .tc 32 [1]
  broadcasts_S8x1_S8x778 : S8x1.Broadcasts S8x778
  reduces_S8x778_S8 : S8x778.Reduces [1] S8
  slices_S8x2x1024_o0_0_247_S8x2x777 : S8x2x1024.Slices ![0, 0, 247] S8x2x777
  slices_S8x2x1024_o0_0_0_S8x2x777 : S8x2x1024.Slices ![0, 0, 0] S8x2x777
  reduces_S8x2x777_S8x777 : S8x2x777.Reduces [1] S8x777
  iota_S8x777_d1_w32 : S8x777.Iotas .tc 32 [1]
  broadcasts_S8x1_S8x777 : S8x1.Broadcasts S8x777
  reduces_S8x777_S8 : S8x777.Reduces [1] S8
  slices_S8x2x1024_o0_0_248_S8x2x776 : S8x2x1024.Slices ![0, 0, 248] S8x2x776
  slices_S8x2x1024_o0_0_0_S8x2x776 : S8x2x1024.Slices ![0, 0, 0] S8x2x776
  reduces_S8x2x776_S8x776 : S8x2x776.Reduces [1] S8x776
  iota_S8x776_d1_w32 : S8x776.Iotas .tc 32 [1]
  broadcasts_S8x1_S8x776 : S8x1.Broadcasts S8x776
  reduces_S8x776_S8 : S8x776.Reduces [1] S8
  slices_S8x2x1024_o0_0_249_S8x2x775 : S8x2x1024.Slices ![0, 0, 249] S8x2x775
  slices_S8x2x1024_o0_0_0_S8x2x775 : S8x2x1024.Slices ![0, 0, 0] S8x2x775
  reduces_S8x2x775_S8x775 : S8x2x775.Reduces [1] S8x775
  iota_S8x775_d1_w32 : S8x775.Iotas .tc 32 [1]
  broadcasts_S8x1_S8x775 : S8x1.Broadcasts S8x775
  reduces_S8x775_S8 : S8x775.Reduces [1] S8
  slices_S8x2x1024_o0_0_250_S8x2x774 : S8x2x1024.Slices ![0, 0, 250] S8x2x774
  slices_S8x2x1024_o0_0_0_S8x2x774 : S8x2x1024.Slices ![0, 0, 0] S8x2x774
  reduces_S8x2x774_S8x774 : S8x2x774.Reduces [1] S8x774
  iota_S8x774_d1_w32 : S8x774.Iotas .tc 32 [1]
  broadcasts_S8x1_S8x774 : S8x1.Broadcasts S8x774
  reduces_S8x774_S8 : S8x774.Reduces [1] S8
  slices_S8x2x1024_o0_0_251_S8x2x773 : S8x2x1024.Slices ![0, 0, 251] S8x2x773
  slices_S8x2x1024_o0_0_0_S8x2x773 : S8x2x1024.Slices ![0, 0, 0] S8x2x773
  reduces_S8x2x773_S8x773 : S8x2x773.Reduces [1] S8x773
  iota_S8x773_d1_w32 : S8x773.Iotas .tc 32 [1]
  broadcasts_S8x1_S8x773 : S8x1.Broadcasts S8x773
  reduces_S8x773_S8 : S8x773.Reduces [1] S8
  slices_S8x2x1024_o0_0_252_S8x2x772 : S8x2x1024.Slices ![0, 0, 252] S8x2x772
  slices_S8x2x1024_o0_0_0_S8x2x772 : S8x2x1024.Slices ![0, 0, 0] S8x2x772
  reduces_S8x2x772_S8x772 : S8x2x772.Reduces [1] S8x772
  iota_S8x772_d1_w32 : S8x772.Iotas .tc 32 [1]
  broadcasts_S8x1_S8x772 : S8x1.Broadcasts S8x772
  reduces_S8x772_S8 : S8x772.Reduces [1] S8
  slices_S8x2x1024_o0_0_253_S8x2x771 : S8x2x1024.Slices ![0, 0, 253] S8x2x771
  slices_S8x2x1024_o0_0_0_S8x2x771 : S8x2x1024.Slices ![0, 0, 0] S8x2x771
  reduces_S8x2x771_S8x771 : S8x2x771.Reduces [1] S8x771
  iota_S8x771_d1_w32 : S8x771.Iotas .tc 32 [1]
  broadcasts_S8x1_S8x771 : S8x1.Broadcasts S8x771
  reduces_S8x771_S8 : S8x771.Reduces [1] S8
  slices_S8x2x1024_o0_0_254_S8x2x770 : S8x2x1024.Slices ![0, 0, 254] S8x2x770
  slices_S8x2x1024_o0_0_0_S8x2x770 : S8x2x1024.Slices ![0, 0, 0] S8x2x770
  reduces_S8x2x770_S8x770 : S8x2x770.Reduces [1] S8x770
  iota_S8x770_d1_w32 : S8x770.Iotas .tc 32 [1]
  broadcasts_S8x1_S8x770 : S8x1.Broadcasts S8x770
  reduces_S8x770_S8 : S8x770.Reduces [1] S8
  slices_S8x2x1024_o0_0_255_S8x2x769 : S8x2x1024.Slices ![0, 0, 255] S8x2x769
  slices_S8x2x1024_o0_0_0_S8x2x769 : S8x2x1024.Slices ![0, 0, 0] S8x2x769
  reduces_S8x2x769_S8x769 : S8x2x769.Reduces [1] S8x769
  iota_S8x769_d1_w32 : S8x769.Iotas .tc 32 [1]
  broadcasts_S8x1_S8x769 : S8x1.Broadcasts S8x769
  reduces_S8x769_S8 : S8x769.Reduces [1] S8
  slices_S8x2x1024_o0_0_256_S8x2x768 : S8x2x1024.Slices ![0, 0, 256] S8x2x768
  slices_S8x2x1024_o0_0_0_S8x2x768 : S8x2x1024.Slices ![0, 0, 0] S8x2x768
  reduces_S8x2x768_S8x768 : S8x2x768.Reduces [1] S8x768
  iota_S8x768_d1_w32 : S8x768.Iotas .tc 32 [1]
  broadcasts_S8x1_S8x768 : S8x1.Broadcasts S8x768
  reduces_S8x768_S8 : S8x768.Reduces [1] S8
  shapeCasts_S8_S1x8 : S8.ShapeCasts S1x8
  concatenates_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S1x8_S256x8_d0 : Shape.Concatenates (S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: S1x8 :: []) S256x8 0
  iota_S256x8_d0_w32 : S256x8.Iotas .tc 32 [0]
  broadcasts_S1x8_S256x8 : S1x8.Broadcasts S256x8
  iota_S256x1_d0_w32 : S256x1.Iotas .tc 32 [0]
  broadcasts_S256x1_S256x8 : S256x1.Broadcasts S256x8
  reduces_S256x8_S8 : S256x8.Reduces [0] S8
  shapeCasts_S64x1_S64 : S64x1.ShapeCasts S64
  reducesTo_S64_S_d0 : S64.ReducesTo [0] S_
  h_S_ : 0 < S_.numel

class Facts₀ : Prop where
  k0 : K0.Facts₀
  shapes1 : Shapes1.Facts₀
  shapes2 : Shapes2.Facts₀
attribute [instance] Facts₀.k0 Facts₀.shapes1 Facts₀.shapes2

variable [Facts₀]

abbrev win0_0 : Pipeline.Window sig grid0 :=
  Pipeline.Window.ofSpec (Memref.whole main_v0) S8x2x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64 : Shape := ⟨1, ![64]⟩
abbrev S64x1024x2 : Shape := ⟨3, ![64, 1024, 2]⟩
abbrev S256 : Shape := ⟨1, ![256]⟩
abbrev S_ : Shape := ⟨0, ![]⟩
abbrev S1023 : Shape := ⟨1, ![1023]⟩
abbrev S1x1023 : Shape := ⟨2, ![1, 1023]⟩
abbrev S256x1 : Shape := ⟨2, ![256, 1]⟩
abbrev S256x1023 : Shape := ⟨2, ![256, 1023]⟩
abbrev S256x1023x1 : Shape := ⟨3, ![256, 1023, 1]⟩
abbrev S64x256x1023x2 : Shape := ⟨4, ![64, 256, 1023, 2]⟩
abbrev S64x1023x2 : Shape := ⟨3, ![64, 1023, 2]⟩
abbrev S64x1x1023x2 : Shape := ⟨4, ![64, 1, 1023, 2]⟩
abbrev S1x1x1023 : Shape := ⟨3, ![1, 1, 1023]⟩
abbrev S64x1x1 : Shape := ⟨3, ![64, 1, 1]⟩
abbrev S1x256x1 : Shape := ⟨3, ![1, 256, 1]⟩
abbrev S64x256x1 : Shape := ⟨3, ![64, 256, 1]⟩
abbrev S64x256x1023 : Shape := ⟨3, ![64, 256, 1023]⟩
abbrev S1x256x1023 : Shape := ⟨3, ![1, 256, 1023]⟩
abbrev S64x256 : Shape := ⟨2, ![64, 256]⟩
abbrev S64x1 : Shape := ⟨2, ![64, 1]⟩
abbrev S1x256 : Shape := ⟨2, ![1, 256]⟩

abbrev nBuf : Space → Nat
  | .hbm => 101
  | .vmem => 0
  | .smem => 0
  | _ => 0

abbrev bufTy : (tb : Table) → Fin (tcTables nBuf tb) → BufTy
  | .hbm, ⟨0, _⟩ => ⟨S64, .f32⟩
  | .hbm, ⟨1, _⟩ => ⟨S64x1024x2, .f32⟩
  | .hbm, ⟨2, _⟩ => ⟨S64, .i32⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S256, .f32⟩
  | .hbm, ⟨8, _⟩ => ⟨S256, .f32⟩
  | .hbm, ⟨9, _⟩ => ⟨S1023, .i32⟩
  | .hbm, ⟨10, _⟩ => ⟨S1x1023, .i32⟩
  | .hbm, ⟨11, _⟩ => ⟨S256x1, .i32⟩
  | .hbm, ⟨12, _⟩ => ⟨S256x1023, .i32⟩
  | .hbm, ⟨13, _⟩ => ⟨S256x1023, .i32⟩
  | .hbm, ⟨14, _⟩ => ⟨S256x1023, .i32⟩
  | .hbm, ⟨15, _⟩ => ⟨S_, .i32⟩
  | .hbm, ⟨16, _⟩ => ⟨S256x1023, .i32⟩
  | .hbm, ⟨17, _⟩ => ⟨S256x1023, .i1⟩
  | .hbm, ⟨18, _⟩ => ⟨S_, .i32⟩
  | .hbm, ⟨19, _⟩ => ⟨S256x1023, .i32⟩
  | .hbm, ⟨20, _⟩ => ⟨S256x1023, .i32⟩
  | .hbm, ⟨21, _⟩ => ⟨S_, .i32⟩
  | .hbm, ⟨22, _⟩ => ⟨S256x1023, .i32⟩
  | .hbm, ⟨23, _⟩ => ⟨S256x1023, .i1⟩
  | .hbm, ⟨24, _⟩ => ⟨S_, .i32⟩
  | .hbm, ⟨25, _⟩ => ⟨S256x1023, .i32⟩
  | .hbm, ⟨26, _⟩ => ⟨S256x1023, .i32⟩
  | .hbm, ⟨27, _⟩ => ⟨S256x1023, .i32⟩
  | .hbm, ⟨28, _⟩ => ⟨S256x1023x1, .i32⟩
  | .hbm, ⟨29, _⟩ => ⟨S64x256x1023x2, .f32⟩
  | .hbm, ⟨30, _⟩ => ⟨S64x1023x2, .f32⟩
  | .hbm, ⟨31, _⟩ => ⟨S64x1x1023x2, .f32⟩
  | .hbm, ⟨32, _⟩ => ⟨S64x256x1023x2, .f32⟩
  | .hbm, ⟨33, _⟩ => ⟨S64x256x1023x2, .f32⟩
  | .hbm, ⟨34, _⟩ => ⟨S1x1x1023, .i32⟩
  | .hbm, ⟨35, _⟩ => ⟨S64x1x1, .i32⟩
  | .hbm, ⟨36, _⟩ => ⟨S1x256x1, .i32⟩
  | .hbm, ⟨37, _⟩ => ⟨S64x256x1, .i32⟩
  | .hbm, ⟨38, _⟩ => ⟨S64x256x1, .i32⟩
  | .hbm, ⟨39, _⟩ => ⟨S64x256x1, .i32⟩
  | .hbm, ⟨40, _⟩ => ⟨S64x256x1023, .i32⟩
  | .hbm, ⟨41, _⟩ => ⟨S64x256x1023, .i32⟩
  | .hbm, ⟨42, _⟩ => ⟨S64x256x1023, .i1⟩
  | .hbm, ⟨43, _⟩ => ⟨S1x256x1023, .i1⟩
  | .hbm, ⟨44, _⟩ => ⟨S64x256x1023, .i1⟩
  | .hbm, ⟨45, _⟩ => ⟨S64x256x1023, .i1⟩
  | .hbm, ⟨46, _⟩ => ⟨S64x256x1023, .f32⟩
  | .hbm, ⟨47, _⟩ => ⟨S64x256x1023x2, .f32⟩
  | .hbm, ⟨48, _⟩ => ⟨S_, .f32⟩
  | .hbm, ⟨49, _⟩ => ⟨S64x256x1023, .f32⟩
  | .hbm, ⟨50, _⟩ => ⟨S_, .f32⟩
  | .hbm, ⟨51, _⟩ => ⟨S64x256, .f32⟩
  | .hbm, ⟨52, _⟩ => ⟨S_, .f32⟩
  | .hbm, ⟨53, _⟩ => ⟨S64x256, .f32⟩
  | .hbm, ⟨54, _⟩ => ⟨S64x256, .f32⟩
  | .hbm, ⟨55, _⟩ => ⟨S64x256x1023, .f32⟩
  | .hbm, ⟨56, _⟩ => ⟨S_, .f32⟩
  | .hbm, ⟨57, _⟩ => ⟨S64x256, .f32⟩
  | .hbm, ⟨58, _⟩ => ⟨S64x256, .f32⟩
  | .hbm, ⟨59, _⟩ => ⟨S64x1, .i32⟩
  | .hbm, ⟨60, _⟩ => ⟨S1x256, .i32⟩
  | .hbm, ⟨61, _⟩ => ⟨S64x256, .i32⟩
  | .hbm, ⟨62, _⟩ => ⟨S64x256, .i32⟩
  | .hbm, ⟨63, _⟩ => ⟨S64x256, .i1⟩
  | .hbm, ⟨64, _⟩ => ⟨S64x256, .f32⟩
  | .hbm, ⟨65, _⟩ => ⟨S_, .f32⟩
  | .hbm, ⟨66, _⟩ => ⟨S64x256, .f32⟩
  | .hbm, ⟨67, _⟩ => ⟨S64x256, .f32⟩
  | .hbm, ⟨68, _⟩ => ⟨S64x256, .f32⟩
  | .hbm, ⟨69, _⟩ => ⟨S64x1, .f32⟩
  | .hbm, ⟨70, _⟩ => ⟨S1x256, .f32⟩
  | .hbm, ⟨71, _⟩ => ⟨S64x256, .f32⟩
  | .hbm, ⟨72, _⟩ => ⟨S64x256, .f32⟩
  | .hbm, ⟨73, _⟩ => ⟨S64x256, .f32⟩
  | .hbm, ⟨74, _⟩ => ⟨S64x256, .f32⟩
  | .hbm, ⟨75, _⟩ => ⟨S_, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64x256, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S1x256, .f32⟩
  | .hbm, ⟨85, _⟩ => ⟨S64x256, .f32⟩
  | .hbm, ⟨86, _⟩ => ⟨S64x256, .f32⟩
  | .hbm, ⟨87, _⟩ => ⟨S64x256, .f32⟩
  | .hbm, ⟨88, _⟩ => ⟨S64x1, .f32⟩
  | .hbm, ⟨89, _⟩ => ⟨S64x256, .f32⟩
  | .hbm, ⟨90, _⟩ => ⟨S64x256, .f32⟩
  | .hbm, ⟨91, _⟩ => ⟨S64x256, .f32⟩
  | .hbm, ⟨92, _⟩ => ⟨S64x256, .f32⟩
  | .hbm, ⟨93, _⟩ => ⟨S64x256, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_v62 : Ref sig .tc := ⟨.hbm, 76, rfl⟩
abbrev main_cst_9 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_11 : Ref sig .tc := ⟨.hbm, 94, rfl⟩
abbrev main_v78 : Ref sig .tc := ⟨.hbm, 95, rfl⟩
abbrev main_v79 : Ref sig .tc := ⟨.hbm, 96, rfl⟩
abbrev main_cst_12 : Ref sig .tc := ⟨.hbm, 97, rfl⟩
abbrev main_v80 : Ref sig .tc := ⟨.hbm, 98, rfl⟩
abbrev main_cst_13 : Ref sig .tc := ⟨.hbm, 99, rfl⟩
abbrev main_v81 : Ref sig .tc := ⟨.hbm, 100, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S1023_S1x1023_1 : S1023.BroadcastsInDim S1x1023 (![1] : Fin 1 → Fin S1x1023.rank)
  bcast_S256_S256x1_0 : S256.BroadcastsInDim S256x1 (![0] : Fin 1 → Fin S256x1.rank)
  bcast_S1x1023_S256x1023_0_1 : S1x1023.BroadcastsInDim S256x1023 (![0, 1] : Fin 2 → Fin S256x1023.rank)
  bcast_S256x1_S256x1023_0_1 : S256x1.BroadcastsInDim S256x1023 (![0, 1] : Fin 2 → Fin S256x1023.rank)
  bcast_S_S256x1023 : S_.BroadcastsInDim S256x1023 (![] : Fin 0 → Fin S256x1023.rank)
  bcast_S256x1023_S256x1023x1_0_1 : S256x1023.BroadcastsInDim S256x1023x1 (![0, 1] : Fin 2 → Fin S256x1023x1.rank)
  slices_S64x1024x2_S64x1023x2_0_0_0 : S64x1024x2.Slices ![0, 0, 0] S64x1023x2
  bcast_S64x1023x2_S64x1x1023x2_0_2_3 : S64x1023x2.BroadcastsInDim S64x1x1023x2 (![0, 2, 3] : Fin 3 → Fin S64x1x1023x2.rank)
  bcast_S64x1x1023x2_S64x256x1023x2_0_1_2_3 : S64x1x1023x2.BroadcastsInDim S64x256x1023x2 (![0, 1, 2, 3] : Fin 4 → Fin S64x256x1023x2.rank)
  bcast_S1023_S1x1x1023_2 : S1023.BroadcastsInDim S1x1x1023 (![2] : Fin 1 → Fin S1x1x1023.rank)
  bcast_S64_S64x1x1_0 : S64.BroadcastsInDim S64x1x1 (![0] : Fin 1 → Fin S64x1x1.rank)
  bcast_S256_S1x256x1_1 : S256.BroadcastsInDim S1x256x1 (![1] : Fin 1 → Fin S1x256x1.rank)
  bcast_S64x1x1_S64x256x1_0_1_2 : S64x1x1.BroadcastsInDim S64x256x1 (![0, 1, 2] : Fin 3 → Fin S64x256x1.rank)
  bcast_S1x256x1_S64x256x1_0_1_2 : S1x256x1.BroadcastsInDim S64x256x1 (![0, 1, 2] : Fin 3 → Fin S64x256x1.rank)
  bcast_S1x1x1023_S64x256x1023_0_1_2 : S1x1x1023.BroadcastsInDim S64x256x1023 (![0, 1, 2] : Fin 3 → Fin S64x256x1023.rank)
  bcast_S64x256x1_S64x256x1023_0_1_2 : S64x256x1.BroadcastsInDim S64x256x1023 (![0, 1, 2] : Fin 3 → Fin S64x256x1023.rank)
  bcast_S256x1023_S1x256x1023_1_2 : S256x1023.BroadcastsInDim S1x256x1023 (![1, 2] : Fin 2 → Fin S1x256x1023.rank)
  bcast_S1x256x1023_S64x256x1023_0_1_2 : S1x256x1023.BroadcastsInDim S64x256x1023 (![0, 1, 2] : Fin 3 → Fin S64x256x1023.rank)
  reducesTo_S64x256x1023x2_S64x256x1023_d3 : S64x256x1023x2.ReducesTo [3] S64x256x1023
  h_S_ : 0 < S_.numel
  reducesTo_S64x256x1023_S64x256_d2 : S64x256x1023.ReducesTo [2] S64x256
  bcast_S_S64x256 : S_.BroadcastsInDim S64x256 (![] : Fin 0 → Fin S64x256.rank)
  bcast_S64_S64x1_0 : S64.BroadcastsInDim S64x1 (![0] : Fin 1 → Fin S64x1.rank)
  bcast_S256_S1x256_1 : S256.BroadcastsInDim S1x256 (![1] : Fin 1 → Fin S1x256.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  reducesTo_S64x256_S64_d1 : S64x256.ReducesTo [1] S64
  bcast_S_S64 : S_.BroadcastsInDim S64 (![] : Fin 0 → Fin S64.rank)
  reducesTo_S64_S_d0 : S64.ReducesTo [0] S_
  gather_S64x1024x2_S256x1023x1_S64x256x1023x2_03_1_n_n_1_2_6412_wf : GatherDims.WF S64x1024x2 S256x1023x1 S64x256x1023x2 [0, 3] [1] [] [1] [] 2 ![64, 1, 2]

variable [Facts₀]

def gather_S64x1024x2_S256x1023x1_S64x256x1023x2_03_1_n_n_1_2_6412 : GatherDims S64x1024x2 S256x1023x1 S64x256x1023x2 where
  offsetDims := [0, 3]
  collapsedSliceDims := [1]
  operandBatchingDims := []
  startIndicesBatchingDims := []
  startIndexMap := [1]
  indexVectorDim := 2
  sliceSizes := ![64, 1, 2]
  wf := gather_S64x1024x2_S256x1023x1_S64x256x1023x2_03_1_n_n_1_2_6412_wf

class Facts : Prop extends Facts₀ where

variable [Facts]
-- ==== Proof.LagTerm.lean ====
/-
  One lag of the kernel body as a single term, for ANY lag `l` and slice length `n`.

  The kernel's body repeats one computation 256 times, once per lag `l = 1 … 256`, on slices of length
  `n = 1024 - l` of the block of 8 trajectories (laid out coordinate-major: [8, 2, 1024]):
  the slice shifted by `l` minus the unshifted one, squared, summed over the 2 coordinates; the positions
  `p < len - l` as a 0/1 mask; and the masked sum over the count (at least 1).  `lagTerm n l` is that computation
  with `n` and `l` as parameters; the shape conditions of its operations are hypotheses, and
  the lemmas below give them for every `l ≤ 1024`.
-/
import Idealize.ShloMosaic.PureOps

noncomputable section

namespace PhysLoss

open Idealize.ShloMosaic

variable {F : FTy → Type} [FloatOps F]

/-- The mean squared displacement of lag `l` for each of the 8 trajectories of a block, as the body computes it. -/
def lagTerm (n l : ℕ)
    (hs1 : (⟨3, ![8, 2, 1024]⟩ : Shape).Slices ![0, 0, l] ⟨3, ![8, 2, n]⟩)
    (hs0 : (⟨3, ![8, 2, 1024]⟩ : Shape).Slices ![0, 0, 0] ⟨3, ![8, 2, n]⟩)
    (hr3 : (⟨3, ![8, 2, n]⟩ : Shape).Reduces [1] ⟨2, ![8, n]⟩)
    (hio : (⟨2, ![8, n]⟩ : Shape).Iotas .tc 32 [1])
    (hsc : (⟨1, ![8]⟩ : Shape).ShapeCasts ⟨2, ![8, 1]⟩)
    (hbc : (⟨2, ![8, 1]⟩ : Shape).Broadcasts ⟨2, ![8, n]⟩)
    (hr2 : (⟨2, ![8, n]⟩ : Shape).Reduces [1] ⟨1, ![8]⟩)
    (v2 : IVec ⟨1, ![8]⟩ 32) (v7 : FVec F ⟨3, ![8, 2, 1024]⟩ .f32) : FVec F ⟨1, ![8]⟩ .f32 :=
  have a : FVec F ⟨3, ![8, 2, n]⟩ .f32 := extractStridedSlice ⟨3, ![8, 2, n]⟩ ![0, 0, l] v7 hs1
  have b : FVec F ⟨3, ![8, 2, n]⟩ .f32 := extractStridedSlice ⟨3, ![8, 2, n]⟩ ![0, 0, 0] v7 hs0
  have d : FVec F ⟨3, ![8, 2, n]⟩ .f32 := subf a b
  have d2 : FVec F ⟨3, ![8, 2, n]⟩ .f32 := mulf d d
  have sq : FVec F ⟨2, ![8, n]⟩ .f32 := multiReduction .add [1] ⟨2, ![8, n]⟩ d2 0x00000000#32 hr3 (.inl rfl) rfl
  have io : IVec ⟨2, ![8, n]⟩ 32 := iota .tc ⟨2, ![8, n]⟩ 32 [1] hio
  have lw : IVec ⟨1, ![8]⟩ 32 := broadcast ⟨1, ![8]⟩ (BitVec.ofNat 32 l)
  have th : IVec ⟨1, ![8]⟩ 32 := subi v2 lw
  have th1 : IVec ⟨2, ![8, 1]⟩ 32 := shapeCast ⟨2, ![8, 1]⟩ th hsc
  have thb : IVec ⟨2, ![8, n]⟩ 32 := broadcastTo ⟨2, ![8, n]⟩ th1 hbc
  have c : IVec ⟨2, ![8, n]⟩ 1 := cmpi .slt io thb
  have ci : IVec ⟨2, ![8, n]⟩ 32 := extui 32 c (by decide)
  have m : FVec F ⟨2, ![8, n]⟩ .f32 := sitofp .f32 ci
  have cnt : FVec F ⟨1, ![8]⟩ .f32 := multiReduction .add [1] ⟨1, ![8]⟩ m 0x00000000#32 hr2 (.inl rfl) rfl
  have o : F .f32 := Scalar.ofBits .f32 0x3F800000#32
  have ob : FVec F ⟨1, ![8]⟩ .f32 := broadcast ⟨1, ![8]⟩ o
  have cnt1 : FVec F ⟨1, ![8]⟩ .f32 := maximumf cnt ob
  have sm : FVec F ⟨2, ![8, n]⟩ .f32 := mulf sq m
  have tot : FVec F ⟨1, ![8]⟩ .f32 := multiReduction .add [1] ⟨1, ![8]⟩ sm 0x00000000#32 hr2 (.inl rfl) rfl
  divf tot cnt1

/-! ## The shape conditions, for every lag -/

theorem slices_shift (n l : ℕ) (h : l + n ≤ 1024) :
    (⟨3, ![8, 2, 1024]⟩ : Shape).Slices ![0, 0, l] ⟨3, ![8, 2, n]⟩ :=
  ⟨rfl, fun a => by
    match a with
    | ⟨0, _⟩ => exact Nat.le_refl _
    | ⟨1, _⟩ => exact Nat.le_refl _
    | ⟨2, _⟩ => exact h⟩

theorem slices_zero (n : ℕ) (h : n ≤ 1024) :
    (⟨3, ![8, 2, 1024]⟩ : Shape).Slices ![0, 0, 0] ⟨3, ![8, 2, n]⟩ :=
  ⟨rfl, fun a => by
    match a with
    | ⟨0, _⟩ => exact Nat.le_refl _
    | ⟨1, _⟩ => exact Nat.le_refl _
    | ⟨2, _⟩ => exact (Nat.zero_add n).le.trans h⟩

theorem reduces_coord (n : ℕ) : (⟨3, ![8, 2, n]⟩ : Shape).Reduces [1] ⟨2, ![8, n]⟩ :=
  ⟨rfl, Nat.zero_lt_succ 1, fun b => by
    match b with
    | ⟨0, _⟩ => rfl
    | ⟨1, _⟩ => rfl⟩

theorem iotas_pos (n : ℕ) : (⟨2, ![8, n]⟩ : Shape).Iotas .tc 32 [1] :=
  ⟨List.nodup_singleton _, fun _ => ⟨Or.inr rfl, Nat.le_refl _⟩, fun h => absurd rfl h⟩

theorem casts_col : (⟨1, ![8]⟩ : Shape).ShapeCasts ⟨2, ![8, 1]⟩ := by decide

theorem broadcasts_col (n : ℕ) : (⟨2, ![8, 1]⟩ : Shape).Broadcasts ⟨2, ![8, n]⟩ :=
  ⟨Nat.le_refl _, fun a => by
    match a with
    | ⟨0, _⟩ => exact Or.inr fun _ => rfl
    | ⟨1, _⟩ => exact Or.inl rfl⟩

theorem reduces_pos (n : ℕ) : (⟨2, ![8, n]⟩ : Shape).Reduces [1] ⟨1, ![8]⟩ :=
  ⟨rfl, Nat.zero_lt_succ 0, fun b => by
    match b with
    | ⟨0, _⟩ => rfl⟩

/-- The body's term for the lag `k + 1`, `k : Fin 256`: slices of length `1023 - k`. -/
def lagAt (k : Fin 256) (v2 : IVec ⟨1, ![8]⟩ 32) (v7 : FVec F ⟨3, ![8, 2, 1024]⟩ .f32) : FVec F ⟨1, ![8]⟩ .f32 :=
  lagTerm (1023 - k.val) (k.val + 1) (slices_shift _ _ (by omega)) (slices_zero _ (by omega)) (reduces_coord _)
    (iotas_pos _) casts_col (broadcasts_col _) (reduces_pos _) v2 v7

end PhysLoss

end
-- ==== Proof.FitTerm.lean ====
/-
  The second half of the kernel body as terms of their inputs: from the [256, 8] stack of mean squared
  displacements (lag-major), the lengths and the exponents of the 8 trajectories of a block,
  * `maskTerm`: the 0/1 array of the lags shorter than each trajectory, `len > lag`;
  * `logLagTerm`: the column `log (lag)`, lags 1 … 256;
  * `fitTerm`: per trajectory, the mean over the counted lags of the squared residual of `log (msd + ε)` against the
    line of slope `α` in `log lag` whose intercept is the mean residual.
  The shapes are the literal ones of the body; the shape conditions of the operations are decided once here.
-/
import Idealize.ShloMosaic.PureOps

noncomputable section

namespace PhysLoss

open Idealize.ShloMosaic

abbrev T8 : Shape := ⟨1, ![8]⟩
abbrev T1x8 : Shape := ⟨2, ![1, 8]⟩
abbrev T8x1 : Shape := ⟨2, ![8, 1]⟩
abbrev T256x8 : Shape := ⟨2, ![256, 8]⟩
abbrev T256x1 : Shape := ⟨2, ![256, 1]⟩

theorem casts_row : T8.ShapeCasts T1x8 := by decide
theorem casts_T8_T8x1 : T8.ShapeCasts T8x1 := by decide
theorem bc_row : T1x8.Broadcasts T256x8 := by decide
theorem bc_lagcol : T256x1.Broadcasts T256x8 := by decide
theorem red_lags : T256x8.Reduces [0] T8 := by decide
theorem iota_lag8 : T256x8.Iotas .tc 32 [0] := by decide
theorem iota_lag1 : T256x1.Iotas .tc 32 [0] := by decide

variable {F : FTy → Type} [FloatOps F]

/-- 1 where the trajectory's length exceeds the lag (row `l` is lag `l + 1`), else 0. -/
def maskTerm (v2 : IVec T8 32) : FVec F T256x8 .f32 :=
  have io : IVec T256x8 32 := iota .tc T256x8 32 [0] iota_lag8
  have o : IVec T256x8 32 := broadcast T256x8 1#32
  have lag : IVec T256x8 32 := addi io o
  have r : IVec T1x8 32 := shapeCast T1x8 v2 casts_row
  have rb : IVec T256x8 32 := broadcastTo T256x8 r bc_row
  have c : IVec T256x8 1 := cmpi .sgt rb lag
  have ci : IVec T256x8 32 := extui 32 c (by decide)
  sitofp .f32 ci

/-- The column of `log (l + 1)`, `l = 0 … 255`. -/
def logLagTerm : FVec F T256x1 .f32 :=
  have io : IVec T256x1 32 := iota .tc T256x1 32 [0] iota_lag1
  have o : IVec T256x1 32 := broadcast T256x1 1#32
  have lag : IVec T256x1 32 := addi io o
  have lf : FVec F T256x1 .f32 := sitofp .f32 lag
  log lf

/-- The sum over the lag axis of a [256, 8] array, per trajectory. -/
def lagSum (x : FVec F T256x8 .f32) : FVec F T8 .f32 :=
  multiReduction .add [0] T8 x 0x00000000#32 red_lags (.inl rfl) rfl

/-- The fit: from the exponents `v5`, the stack `S`, the lag mask `M`, the log-lag column `L` and `ε`, the loss of each of
    the 8 trajectories, as a column. -/
def fitTerm (v5 : FVec F T8 .f32) (S : FVec F T256x8 .f32) (M : FVec F T256x8 .f32) (L : FVec F T256x1 .f32)
    (e : F .f32) : FVec F T8x1 .f32 :=
  have eb : FVec F T256x8 .f32 := broadcast T256x8 e
  have se : FVec F T256x8 .f32 := addf S eb
  have lmsd : FVec F T256x8 .f32 := log se
  have a1 : FVec F T1x8 .f32 := shapeCast T1x8 v5 casts_row
  have ab : FVec F T256x8 .f32 := broadcastTo T256x8 a1 bc_row
  have lb : FVec F T256x8 .f32 := broadcastTo T256x8 L bc_lagcol
  have al : FVec F T256x8 .f32 := mulf ab lb
  have r0 : FVec F T256x8 .f32 := subf lmsd al
  have cnt : FVec F T8 .f32 := lagSum M
  have o : F .f32 := Scalar.ofBits .f32 0x3F800000#32
  have ob : FVec F T8 .f32 := broadcast T8 o
  have den : FVec F T8 .f32 := maximumf cnt ob
  have r0m : FVec F T256x8 .f32 := mulf r0 M
  have s0 : FVec F T8 .f32 := lagSum r0m
  have ic : FVec F T8 .f32 := divf s0 den
  have a2 : FVec F T1x8 .f32 := shapeCast T1x8 v5 casts_row
  have ab2 : FVec F T256x8 .f32 := broadcastTo T256x8 a2 bc_row
  have lb2 : FVec F T256x8 .f32 := broadcastTo T256x8 L bc_lagcol
  have al2 : FVec F T256x8 .f32 := mulf ab2 lb2
  have ic1 : FVec F T1x8 .f32 := shapeCast T1x8 ic casts_row
  have icb : FVec F T256x8 .f32 := broadcastTo T256x8 ic1 bc_row
  have ln : FVec F T256x8 .f32 := addf al2 icb
  have rs : FVec F T256x8 .f32 := subf ln lmsd
  have rs2 : FVec F T256x8 .f32 := mulf rs rs
  have rs2m : FVec F T256x8 .f32 := mulf rs2 M
  have s1 : FVec F T8 .f32 := lagSum rs2m
  have res : FVec F T8 .f32 := divf s1 den
  shapeCast T8x1 res casts_T8_T8x1

end PhysLoss

end
-- ==== Proof.BodyTerm.lean ====
/-
  The value the kernel body stores, as ONE term over the per-lag computation.

  The body computes the mean squared displacement of each of the 256 lags for the 8 trajectories of its block
  (`lagAt k`, lag `k + 1`), stacks them as the rows of a [256, 8] array, and fits the line to their logarithms.
  The printed body spells the 256 lags out one after the other; here the stack is the concatenation of the
  family `k ↦ lagAt k`, and the stored value is the fit applied to it.  The two are the same term once every
  definition is unfolded.
-/
import proofs.«168760_j63350767616155_1_alg».proof.Proof.LagTerm
import proofs.«168760_j63350767616155_1_alg».proof.Proof.FitTerm

noncomputable section

namespace PhysLoss

open Idealize.ShloMosaic

variable {F : FTy → Type} [FloatOps F]

abbrev T8x2x1024 : Shape := ⟨3, ![8, 2, 1024]⟩

theorem casts_T8x1_self : T8x1.ShapeCasts T8x1 := by decide
theorem casts_T8x1_T8 : T8x1.ShapeCasts T8 := by decide
theorem casts_block_self : T8x2x1024.ShapeCasts T8x2x1024 := by decide

/-- A loaded column [8, 1] as a vector [8]. -/
def colVec {α : Type} (v : T8x1.Idx → α) : T8.Idx → α :=
  shapeCast T8 (shapeCast T8x1 v casts_T8x1_self) casts_T8x1_T8

/-- The loaded block of trajectories, as loaded. -/
def blockVec {α : Type} (v : T8x2x1024.Idx → α) : T8x2x1024.Idx → α := shapeCast T8x2x1024 v casts_block_self

/-- The rows of the stack: row `k` is the mean squared displacement of lag `k + 1`, as a [1, 8] array. -/
def msdRows (v2 : IVec T8 32) (v7 : FVec F T8x2x1024 .f32) : List ((s : Shape) × (s.Idx → F .f32)) :=
  List.ofFn fun k : Fin 256 => ⟨T1x8, shapeCast T1x8 (lagAt k v2 v7) casts_row⟩

theorem msdRows_cat (v2 : IVec T8 32) (v7 : FVec F T8x2x1024 .f32) :
    Shape.Concatenates ((msdRows v2 v7).map (·.1)) T256x8 0 := by
  unfold msdRows
  rw [List.map_ofFn]
  refine ⟨by rw [List.length_ofFn]; decide, ?_, ?_⟩
  · intro s hs
    rw [List.mem_ofFn] at hs
    obtain ⟨k, rfl⟩ := hs
    exact ⟨rfl, fun b hb => by
      match b, hb with
      | ⟨0, _⟩, hb => exact absurd rfl hb
      | ⟨1, _⟩, _ => rfl⟩
  · rw [List.map_ofFn]
    show (List.ofFn fun _ : Fin 256 => 1).sum = 256
    rw [List.sum_ofFn]; simp

/-- The mean squared displacements of all lags, lag-major: a [256, 8] array. -/
def msdStack (v2 : IVec T8 32) (v7 : FVec F T8x2x1024 .f32) : FVec F T256x8 .f32 :=
  concatenate T256x8 0 (msdRows v2 v7) (msdRows_cat v2 v7)

/-- The column of losses of the block's 8 trajectories, from the three loaded blocks: the trajectories `x0` (coordinate-major,
    [8, 2, 1024]), their lengths `x1` and their exponents `x2` (columns [8, 1]). -/
def bodyVal (x0 : FVec F T8x2x1024 .f32) (x1 : IVec T8x1 32) (x2 : FVec F T8x1 .f32) : FVec F T8x1 .f32 :=
  fitTerm (colVec x2) (msdStack (colVec x1) (blockVec x0)) (maskTerm (colVec x1)) logLagTerm
    (Scalar.ofBits .f32 0x322BCC77#32)

end PhysLoss

end
-- ==== Proof.FlatBodyBits.lean ====
/-
  The kernel body as the five memory operations it performs.  Between its three loads (lengths, exponents,
  trajectories) and its store the body only computes: every intermediate value is a term of the three loaded blocks.
  So the printed body — the 256 lags one after the other, cut into parts — is, once its parts are unfolded, the
  program that loads the three blocks, loads the output block, and stores the column of losses `PhysLoss.bodyVal` of what
  it loaded.
-/
import proofs.«168760_j63350767616155_1_alg».proof.Proof.Gen.Kernel
import proofs.«168760_j63350767616155_1_alg».proof.Proof.BodyTerm

set_option synthInstance.maxSize 4096
set_option maxRecDepth 65536

noncomputable section

namespace Cert.Kernel.Flat

open Idealize.ShloMosaic Idealize.SL.Sem
open Cert.Kernel Cert.Kernel.Shapes1.Facts₀ Cert.Kernel.Shapes2.Facts₀

variable {F : FTy → Type} [FloatOps F]

/-- The body's memory operations, with the stored value as one term of the loaded blocks. -/
def flatBody (arg1 : Memref sig .tc .vmem S8x2x1024 .f32) (arg2 : Memref sig .tc .vmem S8x1 .i32)
    (arg3 : Memref sig .tc .vmem S8x1 .f32) (arg4 : Memref sig .tc .vmem S8x1 .f32) :
    Prog (TpuEff nD τ sig (Elt F) Λ₀ .tc) PUnit := do
  let v0 : Vec F S8x1 .i32 ← Prog.lift (.load arg2 (Rect.unit (s := S8x1) ![0, 0] S8x1.size inb_S8x1_S8x1_0_0).toLoadRect (View.loadsAt_vmem h_S8x1))
  let v3 : Vec F S8x1 .f32 ← Prog.lift (.load arg3 (Rect.unit (s := S8x1) ![0, 0] S8x1.size inb_S8x1_S8x1_0_0).toLoadRect (View.loadsAt_vmem h_S8x1))
  let v6 : Vec F S8x2x1024 .f32 ← Prog.lift (.load arg1 (Rect.unit (s := S8x2x1024) ![0, 0, 0] S8x2x1024.size inb_S8x2x1024_S8x2x1024_0_0_0).toLoadRect (View.loadsAt_vmem h_S8x2x1024))
  let v5169 : Vec F S8x1 .f32 ← Prog.lift (.load arg4 (Rect.unit (s := S8x1) ![0, 0] S8x1.size inb_S8x1_S8x1_0_0).toLoadRect (View.loadsAt_vmem h_S8x1))
  Prog.lift (.store arg4 (Rect.unit (s := S8x1) ![0, 0] S8x1.size inb_S8x1_S8x1_0_0) (PhysLoss.bodyVal v6 v0 v3) Finset.univ (View.stores_vmem_bits_univ h_S8x1 rfl) (.inl rfl))
  pure ⟨⟩

set_option maxHeartbeats 8000000 in
/-- The printed body is that program: by unfolding its parts and the per-lag and fit terms. -/
theorem body_flat (i : grid0.Coords) (arg1 : Memref sig .tc .vmem S8x2x1024 .f32) (harg1 : arg1.IsWhole)
    (arg2 : Memref sig .tc .vmem S8x1 .i32) (harg2 : arg2.IsWhole) (arg3 : Memref sig .tc .vmem S8x1 .f32) (harg3 : arg3.IsWhole)
    (arg4 : Memref sig .tc .vmem S8x1 .f32) (harg4 : arg4.IsWhole) :
    cc0__physics_loss_kernel (F := F) i arg1 harg1 arg2 harg2 arg3 harg3 arg4 harg4 = flatBody arg1 arg2 arg3 arg4 := rfl

end Cert.Kernel.Flat

end
-- ==== Proof.FlatBodyIdeal.lean ====
/-
  The kernel body as the five memory operations it performs.  Between its three loads (lengths, exponents,
  trajectories) and its store the body only computes: every intermediate value is a term of the three loaded blocks.
  So the printed body — the 256 lags one after the other, cut into parts — is, once its parts are unfolded, the
  program that loads the three blocks, loads the output block, and stores the column of losses `PhysLoss.bodyVal` of what
  it loaded.
-/
import proofs.«168760_j63350767616155_1_alg».proof.Proof.Gen.KernelIdeal
import proofs.«168760_j63350767616155_1_alg».proof.Proof.BodyTerm

set_option synthInstance.maxSize 4096
set_option maxRecDepth 65536

noncomputable section

namespace Cert.KernelIdeal.Flat

open Idealize.ShloMosaic Idealize.SL.Sem
open Cert.KernelIdeal Cert.KernelIdeal.Shapes1.Facts₀ Cert.KernelIdeal.Shapes2.Facts₀

variable {F : FTy → Type} [FloatOps F]

/-- The body's memory operations, with the stored value as one term of the loaded blocks. -/
def flatBody (arg1 : Memref sig .tc .vmem S8x2x1024 .f32) (arg2 : Memref sig .tc .vmem S8x1 .i32)
    (arg3 : Memref sig .tc .vmem S8x1 .f32) (arg4 : Memref sig .tc .vmem S8x1 .f32) :
    Prog (TpuEff nD τ sig (Elt F) Λ₀ .tc) PUnit := do
  let v0 : Vec F S8x1 .i32 ← Prog.lift (.load arg2 (Rect.unit (s := S8x1) ![0, 0] S8x1.size inb_S8x1_S8x1_0_0).toLoadRect (View.loadsAt_vmem h_S8x1))
  let v3 : Vec F S8x1 .f32 ← Prog.lift (.load arg3 (Rect.unit (s := S8x1) ![0, 0] S8x1.size inb_S8x1_S8x1_0_0).toLoadRect (View.loadsAt_vmem h_S8x1))
  let v6 : Vec F S8x2x1024 .f32 ← Prog.lift (.load arg1 (Rect.unit (s := S8x2x1024) ![0, 0, 0] S8x2x1024.size inb_S8x2x1024_S8x2x1024_0_0_0).toLoadRect (View.loadsAt_vmem h_S8x2x1024))
  let v5169 : Vec F S8x1 .f32 ← Prog.lift (.load arg4 (Rect.unit (s := S8x1) ![0, 0] S8x1.size inb_S8x1_S8x1_0_0).toLoadRect (View.loadsAt_vmem h_S8x1))
  Prog.lift (.store arg4 (Rect.unit (s := S8x1) ![0, 0] S8x1.size inb_S8x1_S8x1_0_0) (PhysLoss.bodyVal v6 v0 v3) Finset.univ (View.stores_vmem_bits_univ h_S8x1 rfl) (.inl rfl))
  pure ⟨⟩

set_option maxHeartbeats 8000000 in
/-- The printed body is that program: by unfolding its parts and the per-lag and fit terms. -/
theorem body_flat (i : grid0.Coords) (arg1 : Memref sig .tc .vmem S8x2x1024 .f32) (harg1 : arg1.IsWhole)
    (arg2 : Memref sig .tc .vmem S8x1 .i32) (harg2 : arg2.IsWhole) (arg3 : Memref sig .tc .vmem S8x1 .f32) (harg3 : arg3.IsWhole)
    (arg4 : Memref sig .tc .vmem S8x1 .f32) (harg4 : arg4.IsWhole) :
    cc0__physics_loss_kernel (F := F) i arg1 harg1 arg2 harg2 arg3 harg3 arg4 harg4 = flatBody arg1 arg2 arg3 arg4 := rfl

end Cert.KernelIdeal.Flat

end
-- ==== Proof.Spec.lean ====
/-
  The quantity both programs compute, for ONE trajectory, as a function on the extended reals.

  A trajectory is `X : Fin 1024 → Fin 2 → EReal` (time, coordinate), with a length word `len` and a predicted
  exponent `α`.  For the lag `l + 1` (`l : Fin 256`) and a start position `p : Fin 1023`:
  * `endPos l p` is the end position `p + (l + 1)`, clamped to the last sample;
  * `sqd X l p` is the squared displacement `∑ d, (X (p + l + 1) d - X p d)²`;
  * `valid len l p` is 1 when the end position is a sample (`p + (l + 1) < 1024`) and `p < len - (l + 1)` as signed
    32-bit words, else 0;
  * `msd X len l` is the masked mean `(∑ p, sqd · valid) / max (∑ p, valid) 1`.
  The loss of the trajectory is the mean squared residual of `log (msd + ε)` against the line `α · log lag + c`, over
  the lags shorter than the trajectory (`lagMask`), with the intercept `c` the mean residual at slope `α`.
  A position whose end falls outside the trajectory contributes `sqd · 0 = 0`: on the extended reals a product
  with zero is zero whatever the other factor, so nothing here needs the inputs to be finite.
-/
import Idealize.ShloMosaic.PureOps.Ideal
import Mathlib.Algebra.BigOperators.Fin

noncomputable section

namespace PhysLoss

open Idealize.ShloMosaic

/-- The 32-bit word of the lag `l + 1`. -/
def lagW (l : Fin 256) : BitVec 32 := BitVec.ofNat 32 (l.val + 1)

/-- A one-bit word as an extended real: 0 or 1. -/
def bitE (c : BitVec 1) : EReal := ((c.toNat : ℝ) : EReal)

/-- The float words 1.0, 1e-8 (as rounded to f32) and 0.0, read as extended reals. -/
def one : EReal := Ideal.ofBits .f32 0x3F800000#32
def eps : EReal := Ideal.ofBits .f32 0x322BCC77#32
def zero : EReal := Ideal.ofBits .f32 0x00000000#32

/-- The end position of the displacement of lag `l + 1` from `p`, clamped to the last sample. -/
def endPos (l : Fin 256) (p : Fin 1023) : Fin 1024 := ⟨min (p.val + (l.val + 1)) 1023, by omega⟩

/-- A start position as a sample index. -/
def startPos (p : Fin 1023) : Fin 1024 := ⟨p.val, by omega⟩

/-- The squared displacement over lag `l + 1` from position `p`. -/
def sqd (X : Fin 1024 → Fin 2 → EReal) (l : Fin 256) (p : Fin 1023) : EReal :=
  ∑ d : Fin 2, (X (endPos l p) d - X (startPos p) d) * (X (endPos l p) d - X (startPos p) d)

/-- 1 when the displacement from `p` over lag `l + 1` lies inside the trajectory of length `len`, else 0. -/
def valid (len : BitVec 32) (l : Fin 256) (p : Fin 1023) : EReal :=
  if p.val + (l.val + 1) < 1024 then bitE (IntOp.cmpi .slt (BitVec.ofNat 32 p.val) (len - lagW l)) else 0

/-- The mean squared displacement at lag `l + 1`. -/
def msd (X : Fin 1024 → Fin 2 → EReal) (len : BitVec 32) (l : Fin 256) : EReal :=
  Ideal.div (∑ p : Fin 1023, sqd X l p * valid len l p) (max (∑ p : Fin 1023, valid len l p) one)

/-- 1 when the lag `l + 1` is shorter than the trajectory, else 0. -/
def lagMask (len : BitVec 32) (l : Fin 256) : EReal := bitE (IntOp.cmpi .sgt len (lagW l))

/-- `log (l + 1)`. -/
def logLag (l : Fin 256) : EReal := Ideal.log (((lagW l).toInt : ℝ) : EReal)

/-- `log (msd + ε)`. -/
def logMsd (X : Fin 1024 → Fin 2 → EReal) (len : BitVec 32) (l : Fin 256) : EReal := Ideal.log (msd X len l + eps)

/-- The number of lags counted, at least 1. -/
def denom (len : BitVec 32) : EReal := max (∑ l : Fin 256, lagMask len l) one

/-- The intercept: the mean over the counted lags of `log msd - α · log lag`. -/
def intercept (α : EReal) (X : Fin 1024 → Fin 2 → EReal) (len : BitVec 32) : EReal :=
  Ideal.div (∑ l : Fin 256, (logMsd X len l - α * logLag l) * lagMask len l) (denom len)

/-- The residual of lag `l + 1` against the fitted line. -/
def resid (α : EReal) (X : Fin 1024 → Fin 2 → EReal) (len : BitVec 32) (l : Fin 256) : EReal :=
  α * logLag l + intercept α X len - logMsd X len l

/-- The loss of one trajectory: the mean squared residual over the counted lags. -/
def perTraj (α : EReal) (X : Fin 1024 → Fin 2 → EReal) (len : BitVec 32) : EReal :=
  Ideal.div (∑ l : Fin 256, (resid α X len l * resid α X len l) * lagMask len l) (denom len)

end PhysLoss

end
-- ==== Proof.LagValue.lean ====
/-
  The value of one lag of the kernel body, at one trajectory.

  For the lag `l` and the slice length `n` (`l + n ≤ 1024`) the body's term at trajectory `b` is the quotient
    (∑ p < n, (∑ d < 2, (x[b, d, l + p] - x[b, d, p])²) · m p) / max (∑ p < n, m p) 1,
  where `m p` is 1 when `p < len b - l` as signed 32-bit words and 0 otherwise.  Every operation of the term is a
  pointwise function of the index, and each of the two kinds of sum over one axis is the sum over that axis's
  coordinates, so the term is read off index by index (`lagTerm_apply`).
  For the lag `k + 1` the slice length is `n = 1023 - k`.  The mean squared displacement `msd` sums over all 1023 start
  positions with a mask that is 0 from position `n` on (there the end position `p + k + 1` is not a sample), and a
  term `sqd · 0` is 0 on the extended reals; for `p < n` the clamped end position is `p + k + 1` itself.  So the two
  quotients are the same (`msd_eq`, `lagAt_apply`).
-/
import proofs.«168760_j63350767616155_1_alg».proof.Proof.Spec
import proofs.«168760_j63350767616155_1_alg».proof.Proof.LagTerm
import Idealize.ShloMosaic.Lib.ValueIdx
import Idealize.ShloMosaic.PureOps.Ideal.Laws

noncomputable section

namespace PhysLoss

open Idealize.ShloMosaic

/-! ## Two general facts -/

/-- A sum over `Fin N` of a function that vanishes from `n` on is the sum over `Fin n`. -/
theorem sum_fin_trunc {M : Type*} [AddCommMonoid M] {n N : ℕ} (h : n ≤ N) (f : Fin N → M)
    (hf : ∀ p : Fin N, n ≤ p.val → f p = 0) : ∑ p : Fin N, f p = ∑ p : Fin n, f (Fin.castLE h p) := by
  classical
  have e : ∑ p ∈ Finset.univ.map (Fin.castLEEmb h), f p = ∑ p : Fin N, f p := by
    apply Finset.sum_subset (Finset.subset_univ _)
    intro p _ hp
    apply hf
    by_contra hlt
    exact hp (Finset.mem_map.2 ⟨⟨p.val, by omega⟩, Finset.mem_univ _, Fin.ext rfl⟩)
  rw [← e, Finset.sum_map]
  rfl

/-- A one-bit word widened to 32 bits and read as a signed integer is its value, 0 or 1. -/
theorem bit_toInt (c : BitVec 1) : (((c.setWidth 32).toInt : ℝ) : EReal) = bitE c := by
  unfold bitE
  rcases BitVec.eq_zero_or_eq_one c with h | h <;> subst h <;> simp

/-! ## The operations of the term, read at an index -/

/-- The index over `b` with the position `p` inserted on the reduced axis. -/
theorem lift_pos (n : ℕ) (h : (⟨2, ![8, n]⟩ : Shape).Reduces [1] ⟨1, ![8]⟩) (b : Fin 8) (p : Fin n) :
    h.lift (ValueIdx.ix1 b) p = ValueIdx.ix2 b p := by
  funext c
  match c with
  | ⟨0, _⟩ => exact Fin.ext rfl
  | ⟨1, _⟩ => exact Fin.ext rfl

/-- The index over `(b, p)` with the coordinate `d` inserted on the reduced axis. -/
theorem lift_coord (n : ℕ) (h : (⟨3, ![8, 2, n]⟩ : Shape).Reduces [1] ⟨2, ![8, n]⟩) (b : Fin 8) (p : Fin n)
    (d : Fin 2) : h.lift (ValueIdx.ix2 b p) d = ValueIdx.ix3 b d p := by
  funext c
  match c with
  | ⟨0, _⟩ => exact Fin.ext rfl
  | ⟨1, _⟩ => exact Fin.ext rfl
  | ⟨2, _⟩ => exact Fin.ext rfl

open ValueIdx in
/-- The sum over the positions, at trajectory `b`. -/
theorem reduce_pos_apply (n : ℕ) (h : (⟨2, ![8, n]⟩ : Shape).Reduces [1] ⟨1, ![8]⟩)
    (x : FVec Ideal ⟨2, ![8, n]⟩ .f32) (b : Fin 8) :
    multiReduction .add [1] ⟨1, ![8]⟩ x 0x00000000#32 h (.inl rfl) rfl (ix1 b) = ∑ p : Fin n, x (ix2 b p) :=
  (Ideal.multiReduction_add_single x _ h _ _ (ix1 b)).trans
    (Finset.sum_congr rfl fun p _ => congrArg x (lift_pos n h b p))

open ValueIdx in
/-- The sum over the two coordinates, at trajectory `b` and position `p`. -/
theorem reduce_coord_apply (n : ℕ) (h : (⟨3, ![8, 2, n]⟩ : Shape).Reduces [1] ⟨2, ![8, n]⟩)
    (x : FVec Ideal ⟨3, ![8, 2, n]⟩ .f32) (b : Fin 8) (p : Fin n) :
    multiReduction .add [1] ⟨2, ![8, n]⟩ x 0x00000000#32 h (.inl rfl) rfl (ix2 b p) = ∑ d : Fin 2, x (ix3 b d p) :=
  (Ideal.multiReduction_add_single x _ h _ _ (ix2 b p)).trans
    (Finset.sum_congr rfl fun d _ => congrArg x (lift_coord n h b p d))

open ValueIdx in
/-- The slice shifted by `l` reads the block at time `l + p`. -/
theorem slice_apply (n l : ℕ) (hl : l + n ≤ 1024)
    (hs : (⟨3, ![8, 2, 1024]⟩ : Shape).Slices ![0, 0, l] ⟨3, ![8, 2, n]⟩)
    (v7 : FVec Ideal ⟨3, ![8, 2, 1024]⟩ .f32) (b : Fin 8) (d : Fin 2) (p : Fin n) :
    extractStridedSlice ⟨3, ![8, 2, n]⟩ ![0, 0, l] v7 hs (ix3 b d p) = v7 (ix3 b d ⟨l + p.val, by omega⟩) := by
  unfold extractStridedSlice
  congr 1
  funext a
  match a with
  | ⟨0, _⟩ => exact Fin.ext (Nat.zero_add _)
  | ⟨1, _⟩ => exact Fin.ext (Nat.zero_add _)
  | ⟨2, _⟩ => exact Fin.ext rfl

open ValueIdx in
/-- The unshifted slice reads the block at time `p`. -/
theorem slice0_apply (n : ℕ) (hn : n ≤ 1024)
    (hs : (⟨3, ![8, 2, 1024]⟩ : Shape).Slices ![0, 0, 0] ⟨3, ![8, 2, n]⟩)
    (v7 : FVec Ideal ⟨3, ![8, 2, 1024]⟩ .f32) (b : Fin 8) (d : Fin 2) (p : Fin n) :
    extractStridedSlice ⟨3, ![8, 2, n]⟩ ![0, 0, 0] v7 hs (ix3 b d p) = v7 (ix3 b d ⟨p.val, by omega⟩) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

open ValueIdx in
/-- A per-trajectory word, laid out as a column and repeated along the positions, reads the trajectory's word:
    the column's entry `(b, 0)` and the vector's entry `b` have the same row-major position `b`. -/
theorem col_apply (n : ℕ) (hsc : (⟨1, ![8]⟩ : Shape).ShapeCasts ⟨2, ![8, 1]⟩)
    (hbc : (⟨2, ![8, 1]⟩ : Shape).Broadcasts ⟨2, ![8, n]⟩) (th : IVec ⟨1, ![8]⟩ 32) (b : Fin 8) (p : Fin n) :
    broadcastTo ⟨2, ![8, n]⟩ (shapeCast ⟨2, ![8, 1]⟩ th hsc) hbc (ix2 b p) = th (ix1 b) := by
  unfold broadcastTo shapeCast
  congr 1
  apply Shape.reshapeEquiv_eq_of_rowMajor
  rw [Shape.rowMajor_val_one, Shape.rowMajor_val_two]
  show b.val = b.val * 1 + 0
  omega

open ValueIdx in
/-- The mask at trajectory `b` and position `p`: the position counter there is `0 · n + p`, the threshold is the
    trajectory's length less the lag, and the comparison bit, widened and converted, is 0 or 1. -/
theorem mask_apply (n l : ℕ)
    (hio : (⟨2, ![8, n]⟩ : Shape).Iotas .tc 32 [1])
    (hsc : (⟨1, ![8]⟩ : Shape).ShapeCasts ⟨2, ![8, 1]⟩)
    (hbc : (⟨2, ![8, 1]⟩ : Shape).Broadcasts ⟨2, ![8, n]⟩)
    (v2 : IVec ⟨1, ![8]⟩ 32) (b : Fin 8) (p : Fin n) :
    (sitofp .f32 (extui 32 (cmpi .slt (iota .tc ⟨2, ![8, n]⟩ 32 [1] hio)
        (broadcastTo ⟨2, ![8, n]⟩ (shapeCast ⟨2, ![8, 1]⟩ (subi v2 (broadcast ⟨1, ![8]⟩ (BitVec.ofNat 32 l))) hsc) hbc))
        (by decide)) : FVec Ideal ⟨2, ![8, n]⟩ .f32) (ix2 b p)
      = bitE (IntOp.cmpi .slt (BitVec.ofNat 32 p.val) (v2 (ix1 b) - BitVec.ofNat 32 l)) := by
  show ((((IntOp.cmpi .slt (BitVec.ofNat 32 (0 * n + p.val))
      (broadcastTo ⟨2, ![8, n]⟩ (shapeCast ⟨2, ![8, 1]⟩ (subi v2 (broadcast ⟨1, ![8]⟩ (BitVec.ofNat 32 l))) hsc) hbc
        (ix2 b p))).setWidth 32).toInt : ℝ) : EReal) = _
  rw [col_apply, bit_toInt, Nat.zero_mul, Nat.zero_add]
  rfl

/-! ## One lag of the body, for any lag and slice length -/

open ValueIdx in
/-- One lag of the body at trajectory `b`: the masked sum of the squared displacements over the slice positions,
    over the number of unmasked positions (at least 1). -/
theorem lagTerm_apply (n l : ℕ) (hl : l + n ≤ 1024)
    (hs1 : (⟨3, ![8, 2, 1024]⟩ : Shape).Slices ![0, 0, l] ⟨3, ![8, 2, n]⟩)
    (hs0 : (⟨3, ![8, 2, 1024]⟩ : Shape).Slices ![0, 0, 0] ⟨3, ![8, 2, n]⟩)
    (hr3 : (⟨3, ![8, 2, n]⟩ : Shape).Reduces [1] ⟨2, ![8, n]⟩)
    (hio : (⟨2, ![8, n]⟩ : Shape).Iotas .tc 32 [1])
    (hsc : (⟨1, ![8]⟩ : Shape).ShapeCasts ⟨2, ![8, 1]⟩)
    (hbc : (⟨2, ![8, 1]⟩ : Shape).Broadcasts ⟨2, ![8, n]⟩)
    (hr2 : (⟨2, ![8, n]⟩ : Shape).Reduces [1] ⟨1, ![8]⟩)
    (v2 : IVec ⟨1, ![8]⟩ 32) (v7 : FVec Ideal ⟨3, ![8, 2, 1024]⟩ .f32) (b : Fin 8) :
    lagTerm (F := Ideal) n l hs1 hs0 hr3 hio hsc hbc hr2 v2 v7 (ix1 b)
      = Ideal.div
          (∑ p : Fin n,
            (∑ d : Fin 2,
              (v7 (ix3 b d ⟨l + p.val, by omega⟩) - v7 (ix3 b d ⟨p.val, by omega⟩))
                * (v7 (ix3 b d ⟨l + p.val, by omega⟩) - v7 (ix3 b d ⟨p.val, by omega⟩)))
              * bitE (IntOp.cmpi .slt (BitVec.ofNat 32 p.val) (v2 (ix1 b) - BitVec.ofNat 32 l)))
          (max (∑ p : Fin n, bitE (IntOp.cmpi .slt (BitVec.ofNat 32 p.val) (v2 (ix1 b) - BitVec.ofNat 32 l))) one) := by
  unfold lagTerm
  simp only [divf_apply, maximumf_apply, broadcast_apply]
  rw [reduce_pos_apply, reduce_pos_apply]
  refine congrArg₂ Ideal.div (Finset.sum_congr rfl fun p _ => ?_)
    (congrArg (max · one) (Finset.sum_congr rfl fun p _ => mask_apply n l hio hsc hbc v2 b p))
  rw [mulf_apply, mask_apply, reduce_coord_apply]
  refine congrArg (· * _) (Finset.sum_congr rfl fun d _ => ?_)
  rw [mulf_apply, subf_apply, slice_apply n l hl, slice0_apply n (by omega)]

/-! ## The mean squared displacement, over the start positions whose end is a sample -/

/-- From the first start position whose end is past the last sample on, the mask is 0. -/
theorem valid_ge (len : BitVec 32) (k : Fin 256) (p : Fin 1023) (h : 1023 - k.val ≤ p.val) : valid len k p = 0 := by
  unfold valid
  exact if_neg (by omega)

/-- Before it, the mask is the comparison of the position with the length less the lag. -/
theorem valid_lt (len : BitVec 32) (k : Fin 256) (p : Fin 1023) (h : p.val < 1023 - k.val) :
    valid len k p = bitE (IntOp.cmpi .slt (BitVec.ofNat 32 p.val) (len - BitVec.ofNat 32 (k.val + 1))) := by
  unfold valid
  rw [if_pos (by omega)]
  rfl

/-- Before it, the end position `p + k + 1` is at most 1023, so the clamp leaves it. -/
theorem sqd_lt (X : Fin 1024 → Fin 2 → EReal) (k : Fin 256) (p : Fin 1023) (h : p.val < 1023 - k.val) :
    sqd X k p = ∑ d : Fin 2, (X ⟨k.val + 1 + p.val, by omega⟩ d - X ⟨p.val, by omega⟩ d)
      * (X ⟨k.val + 1 + p.val, by omega⟩ d - X ⟨p.val, by omega⟩ d) := by
  unfold sqd
  have e1 : endPos k p = ⟨k.val + 1 + p.val, by omega⟩ :=
    Fin.ext (by show min (p.val + (k.val + 1)) 1023 = k.val + 1 + p.val; omega)
  have e2 : startPos p = ⟨p.val, by omega⟩ := rfl
  rw [e1, e2]

/-- The masked mean over the 1023 start positions is the one over the first `1023 - k`: every other term is
    `sqd · 0 = 0`, resp. `0`. -/
theorem msd_eq (X : Fin 1024 → Fin 2 → EReal) (len : BitVec 32) (k : Fin 256) :
    msd X len k = Ideal.div
      (∑ p : Fin (1023 - k.val),
        (∑ d : Fin 2, (X ⟨k.val + 1 + p.val, by omega⟩ d - X ⟨p.val, by omega⟩ d)
          * (X ⟨k.val + 1 + p.val, by omega⟩ d - X ⟨p.val, by omega⟩ d))
          * bitE (IntOp.cmpi .slt (BitVec.ofNat 32 p.val) (len - BitVec.ofNat 32 (k.val + 1))))
      (max (∑ p : Fin (1023 - k.val),
        bitE (IntOp.cmpi .slt (BitVec.ofNat 32 p.val) (len - BitVec.ofNat 32 (k.val + 1)))) one) := by
  have hle : 1023 - k.val ≤ 1023 := Nat.sub_le _ _
  unfold msd
  rw [sum_fin_trunc hle (fun p => sqd X k p * valid len k p) (fun p hp => by rw [valid_ge len k p hp, mul_zero]),
    sum_fin_trunc hle (fun p => valid len k p) (fun p hp => valid_ge len k p hp)]
  refine congrArg₂ Ideal.div (Finset.sum_congr rfl fun p _ => ?_)
    (congrArg (max · one) (Finset.sum_congr rfl fun p _ => valid_lt len k (Fin.castLE hle p) p.isLt))
  show sqd X k (Fin.castLE hle p) * valid len k (Fin.castLE hle p) = _
  rw [sqd_lt X k (Fin.castLE hle p) p.isLt, valid_lt len k (Fin.castLE hle p) p.isLt]
  rfl

/-! ## The lag `k + 1` of the body is the mean squared displacement at that lag -/

theorem lagAt_apply (k : Fin 256) (v2 : IVec ⟨1, ![8]⟩ 32) (v7 : FVec Ideal ⟨3, ![8, 2, 1024]⟩ .f32) (b : Fin 8) :
    lagAt (F := Ideal) k v2 v7 (ValueIdx.ix1 b)
      = msd (fun t d => v7 (ValueIdx.ix3 b d t)) (v2 (ValueIdx.ix1 b)) k := by
  unfold lagAt
  rw [lagTerm_apply (1023 - k.val) (k.val + 1) (by omega), msd_eq]

end PhysLoss

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.FitValue.lean ====
/-
  The fit read at an index, on the extended reals.

  `fit α ms lm ll e` is the loss of one trajectory as a function of its per-lag quantities: the mean squared
  displacements `ms`, the 0/1 lag mask `lm`, the log-lags `ll` and `ε`.  The loss of the specification is this function
  of the specification's per-lag quantities, and the body's column of losses, at trajectory `b`, is this function of
  column `b` of its lag-major arrays: a sum over the lag axis of a [256, 8] array at column `b` is the sum over
  `l : Fin 256` of the entries `(l, b)`.
-/
import proofs.«168760_j63350767616155_1_alg».proof.Proof.Spec
import proofs.«168760_j63350767616155_1_alg».proof.Proof.FitTerm
import proofs.«168760_j63350767616155_1_alg».proof.Proof.LibColumnLayout
import Idealize.ShloMosaic.PureOps.Ideal.Laws
import Idealize.ShloMosaic.Lib.ValueIdx

noncomputable section

namespace PhysLoss

open Idealize.ShloMosaic Idealize.ShloMosaic.ValueIdx

/-- The loss of one trajectory from its per-lag quantities. -/
def fit (α : EReal) (ms lm ll : Fin 256 → EReal) (e : EReal) : EReal :=
  Ideal.div (∑ l : Fin 256,
      ((α * ll l + Ideal.div (∑ l : Fin 256, (Ideal.log (ms l + e) - α * ll l) * lm l) (max (∑ l : Fin 256, lm l) one)
          - Ideal.log (ms l + e))
        * (α * ll l + Ideal.div (∑ l : Fin 256, (Ideal.log (ms l + e) - α * ll l) * lm l) (max (∑ l : Fin 256, lm l) one)
          - Ideal.log (ms l + e))) * lm l)
    (max (∑ l : Fin 256, lm l) one)

theorem perTraj_eq_fit (α : EReal) (X : Fin 1024 → Fin 2 → EReal) (len : BitVec 32) :
    perTraj α X len = fit α (msd X len) (lagMask len) logLag eps := rfl

/-- The index of a [256, 8] array that reduces, along the lag axis, to column `b` at lag coordinate `l`. -/
theorem lift_lags (b : Fin 8) (l : Fin 256) : red_lags.lift (ix1 b) l = ix2 l b := by
  funext a
  match a with
  | ⟨0, _⟩ => exact Fin.ext rfl
  | ⟨1, _⟩ => exact Fin.ext rfl

/-- A one-bit word widened to 32 bits and read as a signed integer is 0 or 1, the bit. -/
theorem bitE_of_ext (c : BitVec 1) : (((c.setWidth 32).toInt : ℝ) : EReal) = bitE c := by
  have h : c = 0#1 ∨ c = 1#1 := by
    have := c.isLt
    rcases Nat.lt_or_ge c.toNat 1 with h | h
    · left; apply BitVec.eq_of_toNat_eq; simp; omega
    · right; apply BitVec.eq_of_toNat_eq; simp; omega
  rcases h with rfl | rfl <;> simp [bitE]

/-- The word of lag coordinate `l` plus one is the lag's word. -/
theorem lag_word (l : Fin 256) (n : ℕ) : BitVec.ofNat 32 (0 * n + l.val) + 1#32 = lagW l := by
  unfold lagW
  rw [Nat.zero_mul, Nat.zero_add]
  apply BitVec.eq_of_toNat_eq
  simp [BitVec.toNat_add, BitVec.toNat_ofNat]

/-- A sum over the lag axis, at trajectory `b`: the sum over the 256 lags of the entries of column `b`. -/
theorem lagSum_apply (x : FVec Ideal T256x8 .f32) (b : Fin 8) : lagSum (F := Ideal) x (ix1 b) = ∑ l : Fin 256, x (ix2 l b) := by
  unfold lagSum
  refine (Ideal.multiReduction_add_single x _ red_lags _ _ (ix1 b)).trans ?_
  exact Finset.sum_congr rfl fun l _ => congrArg x (lift_lags b l)

theorem log_apply {s : Shape} (x : FVec Ideal s .f32) (i : s.Idx) : log x i = Ideal.log (x i) := rfl

theorem maskTerm_apply (v2 : IVec T8 32) (l : Fin 256) (b : Fin 8) :
    maskTerm (F := Ideal) v2 (ix2 l b) = lagMask (v2 (ix1 b)) l := by
  unfold maskTerm lagMask
  show ((((IntOp.cmpi .sgt (broadcastTo T256x8 (shapeCast T1x8 v2 casts_row) bc_row (ix2 l b))
      (BitVec.ofNat 32 (0 * 256 + l.val) + 1#32)).setWidth 32).toInt : ℝ) : EReal) = _
  rw [bitE_of_ext, broadcastTo_1b_ab_apply, shapeCast_a_1a_apply, lag_word]

theorem logLagTerm_apply (l : Fin 256) : logLagTerm (F := Ideal) (ix2 l (0 : Fin 1)) = logLag l := by
  unfold logLagTerm logLag
  show Ideal.log (((BitVec.ofNat 32 (0 * 256 + l.val) + 1#32).toInt : ℝ) : EReal) = _
  rw [lag_word]

theorem fitTerm_apply (v5 : FVec Ideal T8 .f32) (S M : FVec Ideal T256x8 .f32) (L : FVec Ideal T256x1 .f32)
    (e : Ideal .f32) (b : Fin 8) :
    fitTerm (F := Ideal) v5 S M L e (ix2 b (0 : Fin 1))
      = fit (v5 (ix1 b)) (fun l => S (ix2 l b)) (fun l => M (ix2 l b)) (fun l => L (ix2 l (0 : Fin 1))) e := by
  unfold fitTerm fit
  rw [shapeCast_a_a1_apply]
  simp only [divf_apply, maximumf_apply, broadcast_apply, lagSum_apply, mulf_apply,
    subf_apply, addf_apply, log_apply, broadcastTo_1b_ab_apply, shapeCast_a_1a_apply, broadcastTo_a1_ab_apply,
    Ideal.maximumf_def, Ideal.divf_def]
  rfl

end PhysLoss

end
-- ==== Proof.BodyValue.lean ====
/-
  The column of losses the body stores, read at a trajectory of the block, on the extended reals: entry `b` is the
  specification's loss of trajectory `b` of the block — of its exponent, its samples and its length as loaded.

  Row `l` of the stack is the mean squared displacement of lag `l + 1` (one lag of the body, read at an index); the
  lag mask and the log-lags are the specification's; the fit is the specification's function of the three.
-/
import proofs.«168760_j63350767616155_1_alg».proof.Proof.BodyTerm
import proofs.«168760_j63350767616155_1_alg».proof.Proof.LagValue
import proofs.«168760_j63350767616155_1_alg».proof.Proof.FitValue
import Idealize.ShloMosaic.Lib.Pipeline.Value
import Idealize.ShloMosaic.Lib.ValueLayout

noncomputable section

namespace PhysLoss

open Idealize.ShloMosaic Idealize.ShloMosaic.ValueIdx

/-- Row `l` of the stack at trajectory `b`: the mean squared displacement of lag `l + 1`. -/
theorem msdStack_apply (v2 : IVec T8 32) (v7 : FVec Ideal T8x2x1024 .f32) (l : Fin 256) (b : Fin 8) :
    msdStack (F := Ideal) v2 v7 (ix2 l b) = msd (fun t d => v7 (ix3 b d t)) (v2 (ix1 b)) l := by
  unfold msdStack msdRows
  refine (concatenate_ofFn_unit_apply (t := T256x8) (s₁ := T1x8) 0
    (fun k : Fin 256 => shapeCast T1x8 (lagAt k v2 v7) casts_row) _ rfl rfl (ix2 l b) l rfl
    (ix2 (0 : Fin 1) b) ?_).trans ?_
  · intro a ha
    match a, ha with
    | ⟨0, _⟩, ha => exact absurd rfl ha
    | ⟨1, _⟩, _ => rfl
  · rw [shapeCast_a_1a_apply, lagAt_apply]

/-- A loaded column read as a vector. -/
theorem colVec_apply {α : Type} (x : T8x1.Idx → α) (b : Fin 8) : colVec x (ix1 b) = x (ix2 b (0 : Fin 1)) := by
  unfold colVec
  rw [shapeCast_a1_a_apply, shapeCast_self]

/-- The trajectories as loaded. -/
theorem blockVec_eq {α : Type} (x0 : T8x2x1024.Idx → α) : blockVec x0 = x0 := by
  unfold blockVec
  exact shapeCast_self _ _

/-- Entry `b` of the stored column is the loss of trajectory `b` of the block. -/
theorem bodyVal_apply (x0 : FVec Ideal T8x2x1024 .f32) (x1 : IVec T8x1 32) (x2 : FVec Ideal T8x1 .f32) (b : Fin 8) :
    bodyVal (F := Ideal) x0 x1 x2 (ix2 b (0 : Fin 1))
      = perTraj (x2 (ix2 b (0 : Fin 1))) (fun t d => x0 (ix3 b d t)) (x1 (ix2 b (0 : Fin 1))) := by
  have hms : (fun l : Fin 256 => msdStack (F := Ideal) (colVec x1) (blockVec x0) (ix2 l b))
      = msd (fun t d => x0 (ix3 b d t)) (x1 (ix2 b (0 : Fin 1))) :=
    funext fun l => by rw [msdStack_apply, blockVec_eq, colVec_apply]
  have hlm : (fun l : Fin 256 => maskTerm (F := Ideal) (colVec x1) (ix2 l b)) = lagMask (x1 (ix2 b (0 : Fin 1))) :=
    funext fun l => by rw [maskTerm_apply, colVec_apply]
  have hll : (fun l : Fin 256 => logLagTerm (F := Ideal) (ix2 l (0 : Fin 1))) = logLag :=
    funext fun l => logLagTerm_apply l
  unfold bodyVal
  rw [fitTerm_apply, perTraj_eq_fit, colVec_apply, hms, hlm, hll]
  rfl

end PhysLoss

end
-- ==== Proof.MeanTerm.lean ====
/-
  The last step of both programs: the mean of the 64 per-trajectory losses, `(0 + ∑ b, y b) / 64`, as one term of
  the vector of losses; and the value both programs end at, as a function of the three argument arrays
  (exponents [64], trajectories [64, 1024, 2], lengths [64]).
-/
import proofs.«168760_j63350767616155_1_alg».proof.Proof.Spec
import Idealize.ShloMosaic.PureOps
import Idealize.ShloMosaic.Lib.ValueIdx

noncomputable section

namespace PhysLoss

open Idealize.ShloMosaic Idealize.ShloMosaic.ValueIdx

abbrev T64 : Shape := ⟨1, ![64]⟩
abbrev T0 : Shape := ⟨0, ![]⟩
abbrev T64x1024x2 : Shape := ⟨3, ![64, 1024, 2]⟩

theorem red_batch : T64.ReducesTo [0] T0 := by decide
theorem pos_T0 : 0 < T0.numel := by decide

variable {F : FTy → Type} [FloatOps F]

/-- The mean of a vector of 64 losses: the host's sum from 0.0, divided by 64.0. -/
def meanOf (y : FVec F T64 .f32) : FVec F T0 .f32 :=
  Host.divf (Host.reduceAdd y (constant T0 .f32 0x00000000#32) red_batch pos_T0) (constant T0 .f32 0x42800000#32)

/-- The per-trajectory losses of a batch: trajectory `b` has exponent `a0 b`, samples `a1 (b, t, d)` and length `a2 b`. -/
def lossVec (a0 : T64.Idx → EReal) (a1 : T64x1024x2.Idx → EReal) (a2 : T64.Idx → BitVec 32) : T64.Idx → EReal :=
  fun i => perTraj (a0 (ix1 (i 0))) (fun t d => a1 (ix3 (i 0) t d)) (a2 (ix1 (i 0)))

/-- The loss of the batch: what both programs compute. -/
def lossOf (a0 : T64.Idx → EReal) (a1 : T64x1024x2.Idx → EReal) (a2 : T64.Idx → BitVec 32) : T0.Idx → EReal :=
  meanOf (F := Ideal) (lossVec a0 a1 a2)

end PhysLoss

end
-- ==== Proof.KernelArray.lean ====
/-
  The kernel's run read as a value: the final scalar is the mean of the 64 per-trajectory losses of the specification.

  Before the region the host lays the arguments out for the kernel: the trajectories transposed to coordinate-major
  `[64, 2, 1024]`, the lengths and the exponents cast to columns `[64, 1]`.  The region's grid has 8 points; point `t`
  loads the 8 trajectories `8 t … 8 t + 7` (their samples, lengths and exponents) and stores the column of their 8
  losses into rows `8 t … 8 t + 7` of the output column `[64, 1]`.  The 8 blocks tile the column, so after the region
  the output column holds, at row `b`, the loss of trajectory `b`.  After the region the host casts the column back to
  a vector `[64]`, sums it from 0.0 and divides by 64.0: the mean of the losses.
-/
import proofs.«168760_j63350767616155_1_alg».proof.Proof.FrameIdealP
import proofs.«168760_j63350767616155_1_alg».proof.Proof.BodyValue
import proofs.«168760_j63350767616155_1_alg».proof.Proof.MeanTerm
import proofs.«168760_j63350767616155_1_alg».proof.Proof.LibColumnLayout
import Idealize.ShloMosaic.Lib.Pipeline.Value
import Idealize.ShloMosaic.Lib.ValueLayout
import Idealize.ShloMosaic.Lib.StableHlo.Run

noncomputable section

namespace Cert.KernelIdeal.ArrayValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays as the region finds them -/

/-- The trajectories, coordinate-major: entry `(b, d, t)` is the argument's `(b, t, d)`. -/
theorem samples_at (c : Dev nD) (b : Fin 64) (d : Fin 2) (t : Fin 1024) :
    V m c main_v0 (ix3 b d t) = m ((c : Thread nD τ).loc main_arg1) (ix3 b t d) := by
  show StableHlo.after hostOps0 (fun b => m (c, b)) (Proc.devRef .tc main_v0) (ix3 b d t) = _
  after_results
  exact transpose_ix3_021_apply _ _ b d t

/-- The lengths as a column: row `b` is the argument's entry `b`. -/
theorem lengths_at (c : Dev nD) (b : Fin 64) :
    V m c main_v1 (ix2 b (0 : Fin 1)) = m ((c : Thread nD τ).loc main_arg2) (ix1 b) := by
  show StableHlo.after hostOps0 (fun b => m (c, b)) (Proc.devRef .tc main_v1) (ix2 b (0 : Fin 1)) = _
  after_results
  exact PhysLoss.shapeCast_a_a1_apply _ _ b 0

/-- The exponents as a column: row `b` is the argument's entry `b`. -/
theorem exponents_at (c : Dev nD) (b : Fin 64) :
    V m c main_v2 (ix2 b (0 : Fin 1)) = m ((c : Thread nD τ).loc main_arg0) (ix1 b) := by
  show StableHlo.after hostOps0 (fun b => m (c, b)) (Proc.devRef .tc main_v2) (ix2 b (0 : Fin 1)) = _
  after_results
  exact PhysLoss.shapeCast_a_a1_apply _ _ b 0

/-! ## The column of losses, and one block of it -/

/-- The row of an index of the column `[64, 1]`. -/
abbrev rowOf (i : S64x1.Idx) : Fin 64 := i 0
/-- The row of an index of a block `[8, 1]`. -/
abbrev blkRow (j : S8x1.Idx) : Fin 8 := j 0

/-- The column of the 64 losses, from the coordinate-major trajectories `A0`, the column of lengths `A1` and the column of
    exponents `A2`: row `b` is the loss of trajectory `b`. -/
abbrev lossCol (A0 : S64x2x1024.Idx → EReal) (A1 : S64x1.Idx → BitVec 32) (A2 : S64x1.Idx → EReal) : S64x1.Idx → EReal :=
  fun i => PhysLoss.perTraj (A2 (ix2 (rowOf i) (0 : Fin 1))) (fun t d => A0 (ix3 (rowOf i) d t)) (A1 (ix2 (rowOf i) (0 : Fin 1)))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The stored block at any index `j` of the block: the loss of trajectory `j 0` of the block. -/
theorem bodyVal_at (x0 : Vec Ideal S8x2x1024 .f32) (x1 : Vec Ideal S8x1 .i32) (x2 : Vec Ideal S8x1 .f32) (j : S8x1.Idx) :
    PhysLoss.bodyVal (F := Ideal) x0 x1 x2 j
      = PhysLoss.perTraj (x2 (ix2 (blkRow j) (0 : Fin 1))) (fun t d => x0 (ix3 (blkRow j) d t)) (x1 (ix2 (blkRow j) (0 : Fin 1))) := by
  have hj : j = ix2 (blkRow j) (0 : Fin 1) := by
    funext a
    match a with
    | ⟨0, _⟩ => rfl
    | ⟨1, _⟩ => exact Fin.ext (by have h : (j 1).val < 1 := (j 1).isLt; show (j 1).val = 0; omega)
  exact (congrArg (PhysLoss.bodyVal (F := Ideal) x0 x1 x2) hj).trans (PhysLoss.bodyVal_apply x0 x1 x2 (blkRow j))

/-- The index maps, decided over the 8 grid points: every window's block moves with the output's along the batch axis
    and sits at 0 on the other axes; the output's block index is at most 7. -/
theorem blocks_aligned : ∀ t : Fin cfg0.N, win0_0.index t (0 : Fin 3) = win0_3.index t (0 : Fin 2)
    ∧ win0_0.index t (1 : Fin 3) = 0 ∧ win0_0.index t (2 : Fin 3) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (0 : Fin 2) ≤ 7 ∧ win0_3.index t (1 : Fin 2) = 0 :=
  (by decide +kernel : ∀ t : Fin grid0.N, _)

/-- Every block of the output column is some point's. -/
theorem every_block_hit : ∀ q : Fin 8, ∃ t : Fin cfg0.N, win0_3.index t = ![q.val, 0] :=
  (by decide +kernel : ∀ q : Fin 8, ∃ t : Fin grid0.N, win0_3.index t = ![q.val, 0])

/-- WHAT POINT `t` WRITES BACK is block `t` of the column of losses of the arrays as the region finds them. -/
theorem written_back (c : Dev nD) (t : Fin cfg0.N) :
    (dats m 0 c).flushed 3 t
      = ((cfg0.win 3).blk t).view.read (Elt Ideal) (lossCol (V m c main_v0) (V m c main_v1) (V m c main_v2)) := by
  show (cfg0.win 3).cut (grid0.coords t) ((dats m 0 c).after 3 t) = _
  rw [after0_3]
  unfold out0_3
  rw [View.canon_unit_zero zeros2]
  simp only [View.ld_unit_zero (S := S8x2x1024) zeros3, View.ld_unit_zero (S := S8x1) zeros2]
  obtain ⟨e00, e01, e02, e10, e11, e20, e21, e3le, e31⟩ := blocks_aligned t
  funext j
  have hj0 : (j 0).val < 8 := (j 0).isLt
  show PhysLoss.bodyVal (F := Ideal) (iblk m c 0 t) (iblk m c 1 t) (iblk m c 2 t) j
    = lossCol (V m c main_v0) (V m c main_v1) (V m c main_v2) (((cfg0.win 3).blk t).view.emb j)
  refine (bodyVal_at (iblk m c 0 t) (iblk m c 1 t) (iblk m c 2 t) j).trans ?_
  have h2 : iblk m c 2 t (ix2 (blkRow j) (0 : Fin 1))
      = V m c main_v2 (ix2 (rowOf (((cfg0.win 3).blk t).view.emb j)) (0 : Fin 1)) := by
    show V m c main_v2 (((cfg0.win 2).blk t).view.emb (ix2 (blkRow j) (0 : Fin 1))) = _
    refine congrArg (V m c main_v2) (funext fun a => Fin.ext ?_)
    match a with
    | ⟨0, _⟩ => show win0_2.index t (0 : Fin 2) * 8 + 1 * (j 0).val = win0_3.index t (0 : Fin 2) * 8 + 1 * (j 0).val; omega
    | ⟨1, _⟩ => show win0_2.index t (1 : Fin 2) * 1 + 1 * 0 = 0; omega
  have h1 : iblk m c 1 t (ix2 (blkRow j) (0 : Fin 1))
      = V m c main_v1 (ix2 (rowOf (((cfg0.win 3).blk t).view.emb j)) (0 : Fin 1)) := by
    show V m c main_v1 (((cfg0.win 1).blk t).view.emb (ix2 (blkRow j) (0 : Fin 1))) = _
    refine congrArg (V m c main_v1) (funext fun a => Fin.ext ?_)
    match a with
    | ⟨0, _⟩ => show win0_1.index t (0 : Fin 2) * 8 + 1 * (j 0).val = win0_3.index t (0 : Fin 2) * 8 + 1 * (j 0).val; omega
    | ⟨1, _⟩ => show win0_1.index t (1 : Fin 2) * 1 + 1 * 0 = 0; omega
  have h0 : (fun (s : Fin 1024) (d : Fin 2) => iblk m c 0 t (ix3 (blkRow j) d s))
      = fun s d => V m c main_v0 (ix3 (rowOf (((cfg0.win 3).blk t).view.emb j)) d s) := by
    funext s d
    show V m c main_v0 (((cfg0.win 0).blk t).view.emb (ix3 (blkRow j) d s)) = _
    refine congrArg (V m c main_v0) (funext fun a => Fin.ext ?_)
    match a with
    | ⟨0, _⟩ => show win0_0.index t (0 : Fin 3) * 8 + 1 * (j 0).val = win0_3.index t (0 : Fin 2) * 8 + 1 * (j 0).val; omega
    | ⟨1, _⟩ => show win0_0.index t (1 : Fin 3) * 2 + 1 * d.val = d.val; omega
    | ⟨2, _⟩ => show win0_0.index t (2 : Fin 3) * 1024 + 1 * s.val = s.val; omega
  rw [h2, h1, h0]

/-- An index of the column is in point `t`'s block iff each coordinate is in the block's range on its axis. -/
theorem mem_block_iff (t : Fin cfg0.N) (i : S64x1.Idx) :
    i ∈ ((cfg0.win 3).blk t).view.set ↔ ∀ a : Fin 2, win0_3.index t a * S8x1.size a ≤ (i a).val ∧ (i a).val < win0_3.index t a * S8x1.size a + S8x1.size a := by
  show i ∈ ((View.whole main_v3).slice (win0_3.rect t)).set ↔ _
  rw [View.set_slice_whole, Rect.mem_set_unit]
  exact Iff.rfl

/-- The 8 blocks tile the column: row `r` is in the block of the point whose block index is `r / 8`. -/
theorem covered (i : S64x1.Idx) :
    ∃ t : Fin cfg0.N, (cfg0.win 3).flush t = true ∧ i ∈ ((cfg0.win 3).blk t).view.set := by
  have hi0 : (i 0).val < 64 := (i 0).isLt
  have hi1 : (i 1).val < 1 := (i 1).isLt
  obtain ⟨t, ht⟩ := every_block_hit ⟨(i 0).val / 8, by omega⟩
  have q0 : win0_3.index t (0 : Fin 2) = (i 0).val / 8 := congrFun ht 0
  have q1 : win0_3.index t (1 : Fin 2) = 0 := congrFun ht 1
  refine ⟨t, flush0_3 t, ?_⟩
  rw [mem_block_iff]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 1 ≤ (i 1).val ∧ (i 1).val < win0_3.index t (1 : Fin 2) * 1 + 1; omega

/-- THE OUTPUT COLUMN after the region: the column of losses. -/
theorem final_col (c : Dev nD) :
    (dats m 0 c).arrAt 3 cfg0.N = lossCol (V m c main_v0) (V m c main_v1) (V m c main_v2) :=
  (dats m 0 c).arrAt_eq_of_cover 3 (lossCol (V m c main_v0) (V m c main_v1) (V m c main_v2))
    (fun t _ => written_back m c t) covered

/-! ## The host operations after the region -/

/-- From any buffer contents `W` whose output column is `A`, the lines after the region leave the mean of `A` read as a vector. -/
theorem tail_of (W : Valuation τ sig (Elt Ideal)) (A : S64x1.Idx → EReal) (hW : W (Proc.devRef .tc main_v3) = A) :
    StableHlo.after hostOps1 W (Proc.devRef .tc main_v6)
      = PhysLoss.meanOf (F := Ideal) (shapeCast S64 A shapeCasts_S64x1_S64) := by
  subst hW
  after_results
  rfl

/-- The column of losses read as a vector is the specification's vector of losses of the arguments. -/
theorem lossCol_vec (c : Dev nD) :
    shapeCast S64 (lossCol (V m c main_v0) (V m c main_v1) (V m c main_v2)) shapeCasts_S64x1_S64
      = PhysLoss.lossVec (m ((c : Thread nD τ).loc main_arg0)) (m ((c : Thread nD τ).loc main_arg1)) (m ((c : Thread nD τ).loc main_arg2)) := by
  funext i
  obtain ⟨b, rfl⟩ : ∃ b : Fin 64, i = ix1 b := ⟨i 0, eq_ix1 i⟩
  rw [PhysLoss.shapeCast_a1_a_apply]
  have h0 : (fun (s : Fin 1024) (d : Fin 2) => V m c main_v0 (ix3 b d s))
      = fun s d => m ((c : Thread nD τ).loc main_arg1) (ix3 b s d) :=
    funext fun s => funext fun d => samples_at m c b d s
  show PhysLoss.perTraj (V m c main_v2 (ix2 b (0 : Fin 1))) (fun s d => V m c main_v0 (ix3 b d s)) (V m c main_v1 (ix2 b (0 : Fin 1)))
    = PhysLoss.perTraj (m ((c : Thread nD τ).loc main_arg0) (ix1 b)) (fun s d => m ((c : Thread nD τ).loc main_arg1) (ix3 b s d))
        (m ((c : Thread nD τ).loc main_arg2) (ix1 b))
  rw [exponents_at, lengths_at, h0]

/-- THE FINAL SCALAR: the loss of the batch. -/
theorem tail_value (c : Dev nD) :
    Pipeline.afterTail₀ cfgs (dats m) 0 (V0 m) [hostOps1] c main_v6
      = PhysLoss.lossOf (m ((c : Thread nD τ).loc main_arg0)) (m ((c : Thread nD τ).loc main_arg1)) (m ((c : Thread nD τ).loc main_arg2)) := by
  unfold Pipeline.afterTail₀
  show StableHlo.after hostOps1 _ (Proc.devRef .tc main_v6) = _
  refine (tail_of _ _ ((Pipeline.withArrays_arr spec0 launch0.win.arr_inj c _ _ 3).trans (final_col m c))).trans ?_
  unfold PhysLoss.lossOf
  exact congrArg (PhysLoss.meanOf (F := Ideal)) (lossCol_vec m c)

/-! ## The run, read -/

/-- THE KERNEL'S RUN: every weakly fair execution terminates with the result at the loss of the batch and the arguments
    unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = PhysLoss.lossOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrayValue

end
-- ==== Proof.RefValue.lean ====
/-
  The reference program read one trajectory at a time.  For a trajectory `b` the reference's value just before its final
  mean, `main_v79` at `b`, is `PhysLoss.perTraj` of the trajectory's exponent, samples and length word.  The proof walks
  the program's operations in order and identifies each named intermediate with its counterpart in the specification:
  the lag words `l + 1`, the end position `min (p + (l + 1)) 1023` (every word on the way is a small non-negative number,
  so the signed comparisons and the signed minimum are the natural-number ones and the negative-index wrap is never
  taken), the gathered end sample and the sliced start sample, the squared displacement, the validity mask (the in-range
  bit ANDed with `p < len - (l + 1)`), the masked mean, the lag mask, the two logarithms, the count of lags, the
  intercept, the residual, and the mean squared residual.
-/
import proofs.«168760_j63350767616155_1_alg».proof.Proof.Spec
import proofs.«168760_j63350767616155_1_alg».proof.Proof.Gen.ReferenceIdeal.Read
import Idealize.ShloMosaic.Lib.ValueIdx

noncomputable section

namespace Cert.ReferenceIdeal.RefValue
open Cert.ReferenceIdeal Cert.ReferenceIdeal.Gen Idealize.ShloMosaic Idealize.ShloMosaic.ValueIdx

/-! ## Words: small natural numbers as signed 32-bit words -/

/-- A natural number below `2 ^ 31`, as a 32-bit word read signed, is itself. -/
theorem toInt_ofNat_small (n : ℕ) (h : n < 2 ^ 31) : (BitVec.ofNat 32 n).toInt = (n : Int) := by
  rw [BitVec.toInt_eq_toNat_of_lt (by rw [BitVec.toNat_ofNat]; omega), BitVec.toNat_ofNat]
  have : n % 2 ^ 32 = n := Nat.mod_eq_of_lt (by omega)
  rw [this]

/-- `1 + n` on words is the word of `n + 1`. -/
theorem one_add_ofNat (n : ℕ) : IntOp.addi 1#32 (BitVec.ofNat 32 n) = BitVec.ofNat 32 (n + 1) := by
  show BitVec.ofNat 32 1 + BitVec.ofNat 32 n = _
  rw [← BitVec.ofNat_add, Nat.add_comm]

/-- The sum of two words of natural numbers is the word of the sum. -/
theorem ofNat_add_ofNat (a b : ℕ) : IntOp.addi (BitVec.ofNat 32 a) (BitVec.ofNat 32 b) = BitVec.ofNat 32 (a + b) := by
  show BitVec.ofNat 32 a + BitVec.ofNat 32 b = _
  rw [← BitVec.ofNat_add]

/-- The signed comparison of two small words is the comparison of the numbers. -/
theorem slt_ofNat (a b : ℕ) (ha : a < 2 ^ 31) (hb : b < 2 ^ 31) :
    IntOp.cmpi .slt (BitVec.ofNat 32 a) (BitVec.ofNat 32 b) = if a < b then 1#1 else 0#1 := by
  unfold IntOp.cmpi
  simp only [BitVec.slt, toInt_ofNat_small a ha, toInt_ofNat_small b hb]
  by_cases h : a < b
  · simp [h]
  · simp [h]

/-- The signed minimum of two small words is the word of the minimum. -/
theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  simp only [BitVec.slt, toInt_ofNat_small a ha, toInt_ofNat_small b hb]
  by_cases h : a < b
  · simp [h, Nat.min_eq_left (Nat.le_of_lt h)]
  · simp [h, Nat.min_eq_right (Nat.le_of_not_lt h)]

/-- A decided bit ANDed with a bit `c`, as an extended real: `c` when the bit is set, else 0. -/
theorem andi_ite (P : Prop) [Decidable P] (c : BitVec 1) :
    (((IntOp.andi (if P then 1#1 else 0#1) c).toNat : ℝ) : EReal) = if P then PhysLoss.bitE c else 0 := by
  by_cases h : P
  · rw [if_pos h, if_pos h]
    rcases BitVec.eq_zero_or_eq_one c with hc | hc <;> subst hc <;> rfl
  · rw [if_neg h, if_neg h]
    rcases BitVec.eq_zero_or_eq_one c with hc | hc <;> subst hc <;> simp [IntOp.andi]

/-! ## The gather of the end samples, read at an index -/

/-- The gather's dimension numbers over an arbitrary proof of their side conditions. -/
abbrev gDims (wf : GatherDims.WF S64x1024x2 S256x1023x1 S64x256x1023x2 [0, 3] [1] [] [1] [] 2 ![64, 1, 2]) :
    GatherDims S64x1024x2 S256x1023x1 S64x256x1023x2 where
  offsetDims := [0, 3]
  collapsedSliceDims := [1]
  operandBatchingDims := []
  startIndicesBatchingDims := []
  startIndexMap := [1]
  indexVectorDim := 2
  sliceSizes := ![64, 1, 2]
  wf := wf

/-- Result element `(b, l, p, d)` of the gather is the operand at `(b, t, d)`, `t` the start index `idx[l, p, 0]` read
    signed and clamped into `[0, 1023]`: axis 0 and axis 2 of the operand are offset axes (the result's axes 0 and 3),
    axis 1 is collapsed and is the one the start index addresses. -/
theorem gather_apply {α : Type} (wf : GatherDims.WF S64x1024x2 S256x1023x1 S64x256x1023x2 [0, 3] [1] [] [1] [] 2 ![64, 1, 2])
    (x : S64x1024x2.Idx → α) (idx : IVec S256x1023x1 32) (b : Fin 64) (l : Fin 256) (p : Fin 1023) (d : Fin 2) :
    Host.gather (gDims wf) x idx (ix4 b l p d)
      = x (ix3 b ⟨min (idx (ix3 l p (0 : Fin 1))).toInt.toNat 1023, by omega⟩ d) := by
  unfold Host.gather
  congr 1
  funext a
  refine Fin.ext ?_
  show (gDims wf).start (ix4 b l p d) idx a + (gDims wf).batchCoord (ix4 b l p d) a + (gDims wf).offCoord (ix4 b l p d) a = _
  rw [GatherDims.batchCoord_eq_zero _ _ _ List.not_mem_nil, Nat.add_zero]
  match a with
  | ⟨0, _⟩ =>
    have hs : (gDims wf).start (ix4 b l p d) idx ⟨0, by decide⟩ = 0 := by
      unfold GatherDims.start; exact dif_neg (show (⟨0, by decide⟩ : Fin 3) ∉ ([1] : List (Fin 3)) by decide)
    rw [hs, Nat.zero_add]
    rfl
  | ⟨1, _⟩ =>
    rw [GatherDims.offCoord_eq_zero _ _ _ (fun h => ((GatherDims.mem_sKept _ _).mp h).1 (List.mem_singleton.mpr rfl)), Nat.add_zero]
    unfold GatherDims.start
    rw [dif_pos (show (⟨1, by decide⟩ : Fin 3) ∈ (gDims wf).startIndexMap from List.mem_singleton.mpr rfl)]
    have hsi : (gDims wf).siIdx (ix4 b l p d) ⟨List.idxOf (⟨1, by decide⟩ : Fin 3) (gDims wf).startIndexMap,
        List.idxOf_lt_length_iff.2 (List.mem_singleton.mpr rfl)⟩ = ix3 l p (0 : Fin 1) := by
      funext c; refine Fin.ext ?_
      match c with
      | ⟨0, _⟩ => rfl
      | ⟨1, _⟩ => rfl
      | ⟨2, _⟩ => rfl
    rw [hsi]
    rfl
  | ⟨2, _⟩ =>
    have hs : (gDims wf).start (ix4 b l p d) idx ⟨2, by decide⟩ = 0 := by
      unfold GatherDims.start; exact dif_neg (show (⟨2, by decide⟩ : Fin 3) ∉ ([1] : List (Fin 3)) by decide)
    rw [hs, Nat.zero_add]
    rfl

/-! ## The integer stages: lags, end positions, the in-range bit -/

/-- The lag word at `l` is the word of `l + 1`. -/
theorem v2_at (i : S256.Idx) : Read.val_main_v2 (F := Ideal) i = BitVec.ofNat 32 ((i 0).val + 1) := by
  rw [Read.val_main_v2_apply, Read.val_main_v1_apply, Read.val_main_c_apply, Read.val_main_v0_apply]
  exact one_add_ofNat _

/-- The unclamped end position at `(l, p)` is the word of `p + (l + 1)`. -/
theorem v10_at (i : S256x1023.Idx) :
    Read.val_main_v10 (F := Ideal) i = BitVec.ofNat 32 ((i 1).val + ((i 0).val + 1)) := by
  rw [Read.val_main_v10_apply, Read.val_main_v8_apply, Read.val_main_v6_apply, Read.val_main_v5_apply,
    Read.val_main_v9_apply, Read.val_main_v7_apply, v2_at]
  exact ofNat_add_ofNat _ _

/-- The in-range bit at `(l, p)`: `p + (l + 1) < 1024`. -/
theorem v12_at (i : S256x1023.Idx) :
    Read.val_main_v12 (F := Ideal) i = if (i 1).val + ((i 0).val + 1) < 1024 then 1#1 else 0#1 := by
  have h0 : (i 0).val < 256 := (i 0).isLt
  have h1 : (i 1).val < 1023 := (i 1).isLt
  rw [Read.val_main_v12_apply, v10_at, Read.val_main_v11_apply, Read.val_main_c_0_apply]
  exact slt_ofNat _ 1024 (by omega) (by omega)

/-- The clamped end position at `(l, p)` is the word of `min (p + (l + 1)) 1023`. -/
theorem v14_at (i : S256x1023.Idx) :
    Read.val_main_v14 (F := Ideal) i = BitVec.ofNat 32 (min ((i 1).val + ((i 0).val + 1)) 1023) := by
  have h0 : (i 0).val < 256 := (i 0).isLt
  have h1 : (i 1).val < 1023 := (i 1).isLt
  rw [Read.val_main_v14_apply, v10_at, Read.val_main_v13_apply, Read.val_main_c_1_apply]
  exact minsi_ofNat _ 1023 (by omega) (by omega)

/-- The clamped end position is not negative, so the wrap of a negative index is not taken. -/
theorem v19_at (i : S256x1023.Idx) :
    Read.val_main_v19 (F := Ideal) i = BitVec.ofNat 32 (min ((i 1).val + ((i 0).val + 1)) 1023) := by
  rw [Read.val_main_v19_apply, Read.val_main_v16_apply, v14_at, Read.val_main_v15_apply, Read.val_main_c_2_apply,
    show (0#32 : BitVec 32) = BitVec.ofNat 32 0 from rfl, slt_ofNat _ 0 (by omega) (by omega), if_neg (Nat.not_lt_zero _)]
  exact select_zero _ _

/-! ## The float stages, for one trajectory `b` -/

section
variable (x0 : (⟨S64, .f32⟩ : BufTy).Contents (Elt Ideal)) (x1 : (⟨S64x1024x2, .f32⟩ : BufTy).Contents (Elt Ideal))
  (x2 : (⟨S64, .i32⟩ : BufTy).Contents (Elt Ideal)) (b : Fin 64)

/-- The samples of trajectory `b`. -/
abbrev traj : Fin 1024 → Fin 2 → EReal := fun t d => x1 (ix3 b t d)

/-- The gathered sample at `(b, l, p, d)` is the trajectory's at the clamped end position. -/
theorem v21_at (l : Fin 256) (p : Fin 1023) (d : Fin 2) :
    Read.val_main_v21 (F := Ideal) x1 (ix4 b l p d) = x1 (ix3 b (PhysLoss.endPos l p) d) := by
  unfold Read.val_main_v21
  refine (gather_apply (gather_S64x1024x2_S256x1023x1_S64x256x1023x2_03_1_n_n_1_2_6412).wf x1
    (Read.val_main_v20 (F := Ideal)) b l p d).trans ?_
  have hA : min (Read.val_main_v20 (F := Ideal) (ix3 l p (0 : Fin 1))).toInt.toNat 1023 = (PhysLoss.endPos l p).val := by
    have h0 : l.val < 256 := l.isLt
    have h1 : p.val < 1023 := p.isLt
    rw [Read.val_main_v20_apply, v19_at]
    show min (BitVec.ofNat 32 (min (p.val + (l.val + 1)) 1023)).toInt.toNat 1023 = min (p.val + (l.val + 1)) 1023
    rw [toInt_ofNat_small _ (by omega), Int.toNat_natCast]
    omega
  exact congrArg (fun t => x1 (ix3 b t d)) (Fin.ext hA)

/-- The broadcast slice at `(b, l, p, d)` is the trajectory's sample at the start position. -/
theorem v24_at (l : Fin 256) (p : Fin 1023) (d : Fin 2) :
    Read.val_main_v24 (F := Ideal) x1 (ix4 b l p d) = x1 (ix3 b (PhysLoss.startPos p) d) := by
  rw [Read.val_main_v24_apply, Read.val_main_v23_apply, Read.val_main_v22_apply]
  exact congrArg x1 (funext fun a => by match a with | ⟨0, _⟩ => rfl | ⟨1, _⟩ => rfl | ⟨2, _⟩ => rfl)

/-- The displacement. -/
theorem v25_at (l : Fin 256) (p : Fin 1023) (d : Fin 2) :
    Read.val_main_v25 (F := Ideal) x1 (ix4 b l p d)
      = x1 (ix3 b (PhysLoss.endPos l p) d) - x1 (ix3 b (PhysLoss.startPos p) d) := by
  rw [Read.val_main_v25_apply, v21_at, v24_at]
  rfl

/-- The squared displacement: the sum over the two coordinates, from the zero word. -/
theorem v40_at (l : Fin 256) (p : Fin 1023) :
    Read.val_main_v40 (F := Ideal) x1 (ix3 b l p) = PhysLoss.sqd (traj x1 b) l p := by
  rw [Read.val_main_v40_apply, Read.val_main_cst_apply, Ideal.ofBits_def, Ideal.ofBits_zero_f32, zero_add]
  unfold PhysLoss.sqd
  refine Finset.sum_congr rfl fun k _ => ?_
  have hk : Read.idx_main_v40 (ix3 b l p) k = ix4 b l p k :=
    funext fun a => by match a with | ⟨0, _⟩ => rfl | ⟨1, _⟩ => rfl | ⟨2, _⟩ => rfl | ⟨3, _⟩ => rfl
  rw [hk, Read.val_main_v39_apply, v25_at]
  rfl

/-- The validity mask: the in-range bit ANDed with `p < len - (l + 1)`, as 0 or 1. -/
theorem v38_at (l : Fin 256) (p : Fin 1023) :
    Read.val_main_v38 (F := Ideal) x2 (ix3 b l p) = PhysLoss.valid (x2 (ix1 b)) l p := by
  have e : Read.idx_main_v27 (Read.idx_main_v29 (Read.idx_main_v33 (ix3 b l p))) = ix1 b :=
    funext fun a => by match a with | ⟨0, _⟩ => rfl
  rw [Read.val_main_v38_apply, Read.val_main_v37_apply, Read.val_main_v36_apply, Read.val_main_v35_apply, v12_at,
    Read.val_main_v34_apply, Read.val_main_v32_apply, Read.val_main_v26_apply, Read.val_main_v5_apply,
    Read.val_main_v33_apply, Read.val_main_v31_apply, Read.val_main_v29_apply, Read.val_main_v27_apply,
    Read.val_main_v30_apply, Read.val_main_v28_apply, v2_at, e]
  exact andi_ite _ _

/-- The number of valid positions at lag `l + 1`. -/
theorem v41_at (l : Fin 256) :
    Read.val_main_v41 (F := Ideal) x2 (ix2 b l) = ∑ p : Fin 1023, PhysLoss.valid (x2 (ix1 b)) l p := by
  rw [Read.val_main_v41_apply, Read.val_main_cst_4_apply, Ideal.ofBits_def, Ideal.ofBits_zero_f32, zero_add]
  refine Finset.sum_congr rfl fun k _ => ?_
  have hk : Read.idx_main_v41 (ix2 b l) k = ix3 b l k :=
    funext fun a => by match a with | ⟨0, _⟩ => rfl | ⟨1, _⟩ => rfl | ⟨2, _⟩ => rfl
  rw [hk, v38_at]

/-- The masked sum of squared displacements at lag `l + 1`. -/
theorem v45_at (l : Fin 256) :
    Read.val_main_v45 (F := Ideal) x1 x2 (ix2 b l)
      = ∑ p : Fin 1023, PhysLoss.sqd (traj x1 b) l p * PhysLoss.valid (x2 (ix1 b)) l p := by
  rw [Read.val_main_v45_apply, Read.val_main_cst_6_apply, Ideal.ofBits_def, Ideal.ofBits_zero_f32, zero_add]
  refine Finset.sum_congr rfl fun k _ => ?_
  have hk : Read.idx_main_v45 (ix2 b l) k = ix3 b l k :=
    funext fun a => by match a with | ⟨0, _⟩ => rfl | ⟨1, _⟩ => rfl | ⟨2, _⟩ => rfl
  rw [hk, Read.val_main_v44_apply, v40_at, v38_at]
  rfl

/-- The mean squared displacement. -/
theorem v46_at (l : Fin 256) :
    Read.val_main_v46 (F := Ideal) x1 x2 (ix2 b l) = PhysLoss.msd (traj x1 b) (x2 (ix1 b)) l := by
  rw [Read.val_main_v46_apply, v45_at, Read.val_main_v43_apply, v41_at, Read.val_main_v42_apply,
    Read.val_main_cst_5_apply]
  rfl

/-- The lag mask. -/
theorem v52_at (l : Fin 256) :
    Read.val_main_v52 (F := Ideal) x2 (ix2 b l) = PhysLoss.lagMask (x2 (ix1 b)) l := by
  have e : Read.idx_main_v47 (Read.idx_main_v49 (ix2 b l)) = ix1 b :=
    funext fun a => by match a with | ⟨0, _⟩ => rfl
  rw [Read.val_main_v52_apply, Read.val_main_v51_apply, Read.val_main_v49_apply, Read.val_main_v47_apply,
    Read.val_main_v50_apply, Read.val_main_v48_apply, v2_at, e]
  rfl

/-- The logarithm of the lag. -/
theorem v4_at (l : Fin 256) : Read.val_main_v4 (F := Ideal) (ix1 l) = PhysLoss.logLag l := by
  rw [Read.val_main_v4_apply, Read.val_main_v3_apply, v2_at]
  rfl

/-- The logarithm of the mean squared displacement. -/
theorem v55_at (l : Fin 256) :
    Read.val_main_v55 (F := Ideal) x1 x2 (ix2 b l) = PhysLoss.logMsd (traj x1 b) (x2 (ix1 b)) l := by
  rw [Read.val_main_v55_apply, Read.val_main_v54_apply, v46_at, Read.val_main_v53_apply, Read.val_main_cst_7_apply]
  rfl

/-- The slope term `α · log lag`, first occurrence. -/
theorem v60_at (l : Fin 256) :
    Read.val_main_v60 (F := Ideal) x0 (ix2 b l) = x0 (ix1 b) * PhysLoss.logLag l := by
  have e0 : Read.idx_main_v56 (Read.idx_main_v58 (ix2 b l)) = ix1 b :=
    funext fun a => by match a with | ⟨0, _⟩ => rfl
  have e1 : Read.idx_main_v57 (Read.idx_main_v59 (ix2 b l)) = ix1 l :=
    funext fun a => by match a with | ⟨0, _⟩ => rfl
  rw [Read.val_main_v60_apply, Read.val_main_v58_apply, Read.val_main_v56_apply, Read.val_main_v59_apply,
    Read.val_main_v57_apply, e0, e1, v4_at]
  rfl

/-- The slope term `α · log lag`, second occurrence. -/
theorem v71_at (l : Fin 256) :
    Read.val_main_v71 (F := Ideal) x0 (ix2 b l) = x0 (ix1 b) * PhysLoss.logLag l := by
  have e0 : Read.idx_main_v56 (Read.idx_main_v69 (ix2 b l)) = ix1 b :=
    funext fun a => by match a with | ⟨0, _⟩ => rfl
  have e1 : Read.idx_main_v68 (Read.idx_main_v70 (ix2 b l)) = ix1 l :=
    funext fun a => by match a with | ⟨0, _⟩ => rfl
  rw [Read.val_main_v71_apply, Read.val_main_v69_apply, Read.val_main_v56_apply, Read.val_main_v70_apply,
    Read.val_main_v68_apply, e0, e1, v4_at]
  rfl

/-- `log msd - α · log lag`. -/
theorem v61_at (l : Fin 256) :
    Read.val_main_v61 (F := Ideal) x0 x1 x2 (ix2 b l)
      = PhysLoss.logMsd (traj x1 b) (x2 (ix1 b)) l - x0 (ix1 b) * PhysLoss.logLag l := by
  rw [Read.val_main_v61_apply, v55_at, v60_at]
  rfl

/-- The number of counted lags, at least 1. -/
theorem v64_at : Read.val_main_v64 (F := Ideal) x2 (ix1 b) = PhysLoss.denom (x2 (ix1 b)) := by
  have hs : ∑ k : Fin 256, Read.val_main_v52 (F := Ideal) x2 (Read.idx_main_v62 (ix1 b) k)
      = ∑ l : Fin 256, PhysLoss.lagMask (x2 (ix1 b)) l :=
    Finset.sum_congr rfl fun k _ => by
      have hk : Read.idx_main_v62 (ix1 b) k = ix2 b k :=
        funext fun a => by match a with | ⟨0, _⟩ => rfl | ⟨1, _⟩ => rfl
      rw [hk, v52_at]
  rw [Read.val_main_v64_apply, Read.val_main_v62_apply, Read.val_main_cst_8_apply, Ideal.ofBits_def,
    Ideal.ofBits_zero_f32, zero_add, hs, Read.val_main_v63_apply, Read.val_main_cst_9_apply]
  rfl

/-- The intercept. -/
theorem v67_at :
    Read.val_main_v67 (F := Ideal) x0 x1 x2 (ix1 b) = PhysLoss.intercept (x0 (ix1 b)) (traj x1 b) (x2 (ix1 b)) := by
  have hs : ∑ k : Fin 256, Read.val_main_v65 (F := Ideal) x0 x1 x2 (Read.idx_main_v66 (ix1 b) k)
      = ∑ l : Fin 256, (PhysLoss.logMsd (traj x1 b) (x2 (ix1 b)) l - x0 (ix1 b) * PhysLoss.logLag l)
          * PhysLoss.lagMask (x2 (ix1 b)) l :=
    Finset.sum_congr rfl fun k _ => by
      have hk : Read.idx_main_v66 (ix1 b) k = ix2 b k :=
        funext fun a => by match a with | ⟨0, _⟩ => rfl | ⟨1, _⟩ => rfl
      rw [hk, Read.val_main_v65_apply, v61_at, v52_at]
      rfl
  rw [Read.val_main_v67_apply, Read.val_main_v66_apply, Read.val_main_cst_10_apply, Ideal.ofBits_def,
    Ideal.ofBits_zero_f32, zero_add, hs, v64_at]
  rfl

/-- The residual against the fitted line. -/
theorem v75_at (l : Fin 256) :
    Read.val_main_v75 (F := Ideal) x0 x1 x2 (ix2 b l)
      = PhysLoss.resid (x0 (ix1 b)) (traj x1 b) (x2 (ix1 b)) l := by
  have e : Read.idx_main_v72 (Read.idx_main_v73 (ix2 b l)) = ix1 b :=
    funext fun a => by match a with | ⟨0, _⟩ => rfl
  rw [Read.val_main_v75_apply, Read.val_main_v74_apply, v71_at, Read.val_main_v73_apply, Read.val_main_v72_apply, e,
    v67_at, v55_at]
  rfl

end

/-- THE REFERENCE, ONE TRAJECTORY: the value before the final mean, at trajectory `b`, is the specification's loss of
    that trajectory. -/
theorem val_main_v79_perTraj (x0 : (⟨S64, .f32⟩ : BufTy).Contents (Elt Ideal))
    (x1 : (⟨S64x1024x2, .f32⟩ : BufTy).Contents (Elt Ideal)) (x2 : (⟨S64, .i32⟩ : BufTy).Contents (Elt Ideal)) (b : Fin 64) :
    Read.val_main_v79 (F := Ideal) x0 x1 x2 (ValueIdx.ix1 b)
      = PhysLoss.perTraj (x0 (ValueIdx.ix1 b)) (fun t d => x1 (ValueIdx.ix3 b t d)) (x2 (ValueIdx.ix1 b)) := by
  have hs : ∑ k : Fin 256, Read.val_main_v77 (F := Ideal) x0 x1 x2 (Read.idx_main_v78 (ix1 b) k)
      = ∑ l : Fin 256, (PhysLoss.resid (x0 (ix1 b)) (traj x1 b) (x2 (ix1 b)) l
          * PhysLoss.resid (x0 (ix1 b)) (traj x1 b) (x2 (ix1 b)) l) * PhysLoss.lagMask (x2 (ix1 b)) l :=
    Finset.sum_congr rfl fun k _ => by
      have hk : Read.idx_main_v78 (ix1 b) k = ix2 b k :=
        funext fun a => by match a with | ⟨0, _⟩ => rfl | ⟨1, _⟩ => rfl
      rw [hk, Read.val_main_v77_apply, Read.val_main_v76_apply, v75_at, v52_at]
      rfl
  rw [Read.val_main_v79_apply, Read.val_main_v78_apply, Read.val_main_cst_11_apply, Ideal.ofBits_def,
    Ideal.ofBits_zero_f32, zero_add, hs, v64_at]
  rfl

end Cert.ReferenceIdeal.RefValue

end
-- ==== Proof.RefMean.lean ====
/-
  The reference's result is the loss of the batch: its last two operations are the mean of its vector of
  per-trajectory losses, and that vector is, entry by entry, the specification's loss of each trajectory.
-/
import proofs.«168760_j63350767616155_1_alg».proof.Proof.RefValue
import proofs.«168760_j63350767616155_1_alg».proof.Proof.MeanTerm

noncomputable section

namespace Cert.ReferenceIdeal.RefValue

open Cert.ReferenceIdeal Cert.ReferenceIdeal.Gen Idealize.ShloMosaic Idealize.ShloMosaic.ValueIdx

/-- The reference's vector of per-trajectory losses is the specification's. -/
theorem val_main_v79_lossVec (x0 : (⟨S64, .f32⟩ : BufTy).Contents (Elt Ideal))
    (x1 : (⟨S64x1024x2, .f32⟩ : BufTy).Contents (Elt Ideal)) (x2 : (⟨S64, .i32⟩ : BufTy).Contents (Elt Ideal)) :
    Read.val_main_v79 (F := Ideal) x0 x1 x2 = PhysLoss.lossVec x0 x1 x2 :=
  funext fun i => by
    obtain ⟨b, rfl⟩ : ∃ b : Fin 64, i = ix1 b := ⟨i 0, eq_ix1 i⟩
    exact val_main_v79_perTraj x0 x1 x2 b

/-- The reference's result, as a function of its arguments, is the loss of the batch. -/
theorem val_main_v81_lossOf (x0 : (⟨S64, .f32⟩ : BufTy).Contents (Elt Ideal))
    (x1 : (⟨S64x1024x2, .f32⟩ : BufTy).Contents (Elt Ideal)) (x2 : (⟨S64, .i32⟩ : BufTy).Contents (Elt Ideal)) :
    Read.val_main_v81 (F := Ideal) x0 x1 x2 = PhysLoss.lossOf x0 x1 x2 := by
  show PhysLoss.meanOf (F := Ideal) (Read.val_main_v79 (F := Ideal) x0 x1 x2) = PhysLoss.meanOf (F := Ideal) (PhysLoss.lossVec x0 x1 x2)
  rw [val_main_v79_lossVec]

end Cert.ReferenceIdeal.RefValue

end
-- ==== Proof.lean ====
/-
  The kernel computes, for a batch of 64 two-dimensional trajectories of 1024 samples, the mean over the batch of a
  per-trajectory loss: the mean squared displacement at each lag 1 … 256 (masked by the trajectory's length), and
  the mean squared residual of its logarithm against a line of the predicted slope in the logarithm of the lag.
  The kernel takes the displacement of lag `l` as a shifted slice minus an unshifted one, 8 trajectories per grid
  point, lag after lag; the reference gathers the end samples at the clamped positions `min (p + l) 1023` and masks the
  positions past the end.  On the extended reals the two agree entry by entry: a masked position contributes a
  product with zero, which is zero, and the sums differ only by such terms and by their order.

  Both runs end at `PhysLoss.lossOf` of the three argument arrays: the kernel's by the frame run read as a value
  (the body's column of losses per block, the blocks tiling the [64, 1] array, the host's mean after the region), the
  reference's by its run read one operation at a time.  The kernel's two frames run the body as its five memory
  operations (three loads, the output block's load, one store of the column of losses); the reference's frame is its run
  with the result dropped; the idealization rewrote no operation, so `preserves` is trivial.
-/
import proofs.«168760_j63350767616155_1_alg».proof.Defs
import proofs.«168760_j63350767616155_1_alg».proof.Proof.Gen.Kernel
import proofs.«168760_j63350767616155_1_alg».proof.Proof.Gen.Kernel.Skeleton
import proofs.«168760_j63350767616155_1_alg».proof.Proof.Gen.Kernel.Launch
import proofs.«168760_j63350767616155_1_alg».proof.Proof.Gen.Kernel.Points
import proofs.«168760_j63350767616155_1_alg».proof.Proof.FrameBitsP
import proofs.«168760_j63350767616155_1_alg».proof.Proof.Gen.KernelIdeal
import proofs.«168760_j63350767616155_1_alg».proof.Proof.Gen.KernelIdeal.Skeleton
import proofs.«168760_j63350767616155_1_alg».proof.Proof.Gen.KernelIdeal.Launch
import proofs.«168760_j63350767616155_1_alg».proof.Proof.Gen.KernelIdeal.Points
import proofs.«168760_j63350767616155_1_alg».proof.Proof.FrameIdealP
import proofs.«168760_j63350767616155_1_alg».proof.Proof.Gen.ReferenceIdeal
import proofs.«168760_j63350767616155_1_alg».proof.Proof.Gen.Pre_finite_inputs
import proofs.«168760_j63350767616155_1_alg».proof.Proof.Gen.ReferenceIdeal.Run
import proofs.«168760_j63350767616155_1_alg».proof.Proof.Gen.ReferenceIdeal.Read
import proofs.«168760_j63350767616155_1_alg».proof.Proof.KernelArray
import proofs.«168760_j63350767616155_1_alg».proof.Proof.RefMean
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.GenP.frame m ρ

theorem frame_kernelIdeal : Cert.frame_KernelIdeal := fun m ρ _ => Cert.KernelIdeal.GenP.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end at the loss of the batch. -/
theorem algebraic : Cert.algebraic_KernelIdeal_ReferenceIdeal := by
  intro m ρ m' ρ' _ hagree
  refine ⟨_, Cert.KernelIdeal.ArrayValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, (hagree c).1, (hagree c).2.1, (hagree c).2.2]
  exact Cert.ReferenceIdeal.RefValue.val_main_v81_lossOf _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
